-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  main_v103

def fn_part5 {F : FTy → Type} [FloatOps F] (main_arg20 : FVec F S128 .f32) (main_arg21 : FVec F S128x10 .f32) (main_arg22 : FVec F S10 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x10 .f32 := Host.absf main_arg21
  let main_cst_36 : FVec F S_ .f32 := constant S_ .f32 0x7F800000#32
  let main_v95 : FVec F S128x10 .f32 := broadcastInDim S128x10 ![] bcast_S_S128x10 main_cst_36
  let main_v96 : IVec S128x10 1 := cmpf .olt main_v94 main_v95
  let main_c_37 : IVec S_ 1 := constantI S_ 1 1#1
  let main_v97 : IVec S_ 1 := (fun x v => Host.reduce IntOp.andi x v reducesTo_S128x10_S_d0_1 h_S_) main_v96 main_c_37
  let main_v98 : IVec S_ 1 := andi main_v93 main_v97
  let main_v99 : FVec F S10 .f32 := Host.absf main_arg22
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_v98 main_v101 main_c_39

def fn_part4 {F : FTy → Type} [FloatOps F] (main_arg16 : FVec F S128x128 .f32) (main_arg17 : FVec F S128 .f32) (main_arg18 : FVec F S128x128 .f32) (main_arg19 : FVec F S128 .f32) (main_arg20 : FVec F S128 .f32) (main_arg21 : FVec F S128x10 .f32) (main_arg22 : FVec F S10 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128x10 .f32) (main_arg22 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_v63 main_v67

def fn_part2 {F : FTy → Type} [FloatOps F] (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128x10 .f32) (main_arg22 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128x10 .f32) (main_arg22 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128x10 .f32) (main_arg22 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S128x512 : Shape := ⟨2, ![128, 512]⟩
abbrev S512 : Shape := ⟨1, ![512]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x10 : Shape := ⟨2, ![1, 10]⟩
abbrev S64x10 : Shape := ⟨2, ![64, 10]⟩

abbrev nBuf : Space → Nat
  | .hbm => 147
  | .vmem => 30
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128x10, .f32⟩
  | 22 => ⟨S10, .f32⟩
  | 23 => ⟨S1x800000, .i32⟩
  | 24 => ⟨S800000, .i32⟩
  | 25 => ⟨S1x800000, .i32⟩
  | 26 => ⟨S800000, .i32⟩
  | 27 => ⟨S128x512, .f32⟩
  | 28 => ⟨S512, .f32⟩
  | 29 => ⟨S1x512, .f32⟩
  | 30 => ⟨S50000x512, .f32⟩
  | 31 => ⟨S50000x128, .f32⟩
  | 32 => ⟨S50000x128, .f32⟩
  | 33 => ⟨S50000x128, .f32⟩
  | 34 => ⟨S50000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x128, .f32⟩
  | 54 => ⟨S800000x128, .f32⟩
  | 55 => ⟨S800000x128, .f32⟩
  | 56 => ⟨S_, .f32⟩
  | 57 => ⟨S800000x128, .f32⟩
  | 58 => ⟨S800000x128, .f32⟩
  | 59 => ⟨S_, .f32⟩
  | 60 => ⟨S800000x128, .f32⟩
  | 61 => ⟨S800000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S1x128, .f32⟩
  | 77 => ⟨S50000x128, .f32⟩
  | 78 => ⟨S128x512, .f32⟩
  | 79 => ⟨S512, .f32⟩
  | 80 => ⟨S1x512, .f32⟩
  | 81 => ⟨S50000x512, .f32⟩
  | 82 => ⟨S50000x128, .f32⟩
  | 83 => ⟨S50000x128, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x128, .f32⟩
  | 105 => ⟨S800000x128, .f32⟩
  | 106 => ⟨S800000x128, .f32⟩
  | 107 => ⟨S_, .f32⟩
  | 108 => ⟨S800000x128, .f32⟩
  | 109 => ⟨S800000x128, .f32⟩
  | 110 => ⟨S_, .f32⟩
  | 111 => ⟨S800000x128, .f32⟩
  | 112 => ⟨S800000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S_, .f32⟩
  | 2 => ⟨S64x128, .f32⟩
  | 3 => ⟨S50000x1, .i32⟩
  | 4 => ⟨S64x128, .f32⟩
  | 5 => ⟨S_, .f32⟩
  | 6 => ⟨S50000, .f32⟩
  | 7 => ⟨S_, .f32⟩
  | 8 => ⟨S64, .f32⟩
  | 9 => ⟨S50000x1, .i32⟩
  | 10 => ⟨S64, .f32⟩
  | 11 => ⟨S_, .f32⟩
  | 12 => ⟨S64, .f32⟩
  | 13 => ⟨S64, .f32⟩
  | 14 => ⟨S64x1, .f32⟩
  | 15 => ⟨S64x128, .f32⟩
  | 16 => ⟨S64x128, .f32⟩
  | 17 => ⟨S1x10, .f32⟩
  | 18 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S2000x128, .f32⟩
  | .local _ .vmem, ⟨14, _⟩ => ⟨S2000x128, .f32⟩
  | .local _ .vmem, ⟨15, _⟩ => ⟨S128x512, .f32⟩
  | .local _ .vmem, ⟨16, _⟩ => ⟨S1x512, .f32⟩
  | .local _ .vmem, ⟨17, _⟩ => ⟨S2000x512, .f32⟩
  | .local _ .vmem, ⟨18, _⟩ => ⟨S2000x512, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S64x128, .f32⟩
  | .local _ .vmem, ⟨27, _⟩ => ⟨S128x10, .f32⟩
  | .local _ .vmem, ⟨28, _⟩ => ⟨S1x10, .f32⟩
  | .local _ .vmem, ⟨29, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_1 : Ref sig .tc := ⟨.hbm, 44, rfl⟩
abbrev main_v19 : Ref sig .tc := ⟨.hbm, 45, rfl⟩
abbrev main_v20 : Ref sig .tc := ⟨.hbm, 46, rfl⟩
abbrev main_c_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst : Ref sig .tc := ⟨.hbm, 56, rfl⟩
abbrev main_v29 : Ref sig .tc := ⟨.hbm, 57, rfl⟩
abbrev main_v30 : Ref sig .tc := ⟨.hbm, 58, rfl⟩
abbrev main_cst_3 : Ref sig .tc := ⟨.hbm, 59, rfl⟩
abbrev main_v31 : Ref sig .tc := ⟨.hbm, 60, rfl⟩
abbrev main_v32 : Ref sig .tc := ⟨.hbm, 61, rfl⟩
abbrev main_c_4 : Ref sig .tc := ⟨.hbm, 62, rfl⟩
abbrev main_v33 : Ref sig .tc := ⟨.hbm, 63, rfl⟩
abbrev main_v34 : Ref sig .tc := ⟨.hbm, 64, rfl⟩
abbrev main_c_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_7 : Ref sig .tc := ⟨.hbm, 86, rfl⟩
abbrev main_v54 : Ref sig .tc := ⟨.hbm, 87, rfl⟩
abbrev main_v55 : Ref sig .tc := ⟨.hbm, 88, rfl⟩
abbrev main_c_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_9 : Ref sig .tc := ⟨.hbm, 95, rfl⟩
abbrev main_v61 : Ref sig .tc := ⟨.hbm, 96, rfl⟩
abbrev main_v62 : Ref sig .tc := ⟨.hbm, 97, rfl⟩
abbrev main_c_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_11 : Ref sig .tc := ⟨.hbm, 107, rfl⟩
abbrev main_v71 : Ref sig .tc := ⟨.hbm, 108, rfl⟩
abbrev main_v72 : Ref sig .tc := ⟨.hbm, 109, rfl⟩
abbrev main_cst_12 : Ref sig .tc := ⟨.hbm, 110, rfl⟩
abbrev main_v73 : Ref sig .tc := ⟨.hbm, 111, rfl⟩
abbrev main_v74 : Ref sig .tc := ⟨.hbm, 112, rfl⟩
abbrev main_c_13 : Ref sig .tc := ⟨.hbm, 113, rfl⟩
abbrev main_v75 : Ref sig .tc := ⟨.hbm, 114, rfl⟩
abbrev main_v76 : Ref sig .tc := ⟨.hbm, 115, rfl⟩
abbrev main_c_14 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_15 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_16 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_17 : Ref sig .tc := ⟨.hbm, 133, rfl⟩
abbrev main_v91 : Ref sig .tc := ⟨.hbm, 134, rfl⟩
abbrev main_cst_18 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_19 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem1_0 : DmaSem sig := 27
abbrev cc4_sem2_0 : DmaSem sig := 28
abbrev cc4_sem3_0 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2000x128_S2000x128 : S2000x128.ShapeCasts S2000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S2000x128_S128x512_S2000x512_1_0_0_1_n_n_wf : DotDims.WF S2000x128 S128x512 S2000x512 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S128x512.size a
  hwx2_1 : ∀ i : grid2.Coords, EltTy.bits .f32 = 32 ∨ (Rect.block (s := S128x512) S128x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S50000x512.size a
  hwx2_3 : ∀ i : grid2.Coords, EltTy.bits .f32 = 32 ∨ (Rect.block (s := S50000x512) S2000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S128x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S2000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v85) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v99) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg21) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v101) S64x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 175
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128x10, .f32⟩
  | 22 => ⟨S10, .f32⟩
  | 23 => ⟨S1x800000, .i32⟩
  | 24 => ⟨S800000, .i32⟩
  | 25 => ⟨S1x800000, .i32⟩
  | 26 => ⟨S800000, .i32⟩
  | 27 => ⟨S50000x128, .f32⟩
  | 28 => ⟨S1x128, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x128, .f32⟩
  | 58 => ⟨S800000x128, .f32⟩
  | 59 => ⟨S800000x128, .f32⟩
  | 60 => ⟨S_, .f32⟩
  | 61 => ⟨S800000x128, .f32⟩
  | 62 => ⟨S800000x128, .f32⟩
  | 63 => ⟨S_, .f32⟩
  | 64 => ⟨S800000x128, .f32⟩
  | 65 => ⟨S800000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S800000x128, .f32⟩
  | 122 => ⟨S800000x128, .f32⟩
  | 123 => ⟨S800000x128, .f32⟩
  | 124 => ⟨S_, .f32⟩
  | 125 => ⟨S800000x128, .f32⟩
  | 126 => ⟨S800000x128, .f32⟩
  | 127 => ⟨S_, .f32⟩
  | _ => ⟨S50000x128, .f32⟩

abbrev hbmTy0_1 (i : Nat) : BufTy := match i % 128 with
  | 0 => ⟨S800000x128, .f32⟩
  | 1 => ⟨S800000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .f32⟩
  | 28 => ⟨S64x128, .f32⟩
  | 29 => ⟨S50000x1, .i32⟩
  | 30 => ⟨S64x128, .f32⟩
  | 31 => ⟨S_, .f32⟩
  | 32 => ⟨S50000, .f32⟩
  | 33 => ⟨S_, .f32⟩
  | 34 => ⟨S64, .f32⟩
  | 35 => ⟨S50000x1, .i32⟩
  | 36 => ⟨S64, .f32⟩
  | 37 => ⟨S_, .f32⟩
  | 38 => ⟨S64, .f32⟩
  | 39 => ⟨S64, .f32⟩
  | 40 => ⟨S64x1, .f32⟩
  | 41 => ⟨S64x128, .f32⟩
  | 42 => ⟨S64x128, .f32⟩
  | 43 => ⟨S64x10, .f32⟩
  | 44 => ⟨S1x10, .f32⟩
  | 45 => ⟨S64x10, .f32⟩
  | 46 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_1 : Ref sig .tc := ⟨.hbm, 48, rfl⟩
abbrev main_v23 : Ref sig .tc := ⟨.hbm, 49, rfl⟩
abbrev main_v24 : Ref sig .tc := ⟨.hbm, 50, rfl⟩
abbrev main_c_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_c_4 : Ref sig .tc := ⟨.hbm, 66, rfl⟩
abbrev main_v37 : Ref sig .tc := ⟨.hbm, 67, rfl⟩
abbrev main_v38 : Ref sig .tc := ⟨.hbm, 68, rfl⟩
abbrev main_c_5 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call0_cst : Ref sig .tc := ⟨.hbm, 88, rfl⟩
abbrev main_call0_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_7 : Ref sig .tc := ⟨.hbm, 103, rfl⟩
abbrev main_v69 : Ref sig .tc := ⟨.hbm, 104, rfl⟩
abbrev main_v70 : Ref sig .tc := ⟨.hbm, 105, rfl⟩
abbrev main_c_8 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_9 : Ref sig .tc := ⟨.hbm, 112, rfl⟩
abbrev main_v76 : Ref sig .tc := ⟨.hbm, 113, rfl⟩
abbrev main_v77 : Ref sig .tc := ⟨.hbm, 114, rfl⟩
abbrev main_c_10 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_11 : Ref sig .tc := ⟨.hbm, 124, rfl⟩
abbrev main_v86 : Ref sig .tc := ⟨.hbm, 125, rfl⟩
abbrev main_v87 : Ref sig .tc := ⟨.hbm, 126, rfl⟩
abbrev main_cst_12 : Ref sig .tc := ⟨.hbm, 127, rfl⟩
abbrev main_v88 : Ref sig .tc := ⟨.hbm, 128, rfl⟩
abbrev main_v89 : Ref sig .tc := ⟨.hbm, 129, rfl⟩
abbrev main_c_13 : Ref sig .tc := ⟨.hbm, 130, rfl⟩
abbrev main_v90 : Ref sig .tc := ⟨.hbm, 131, rfl⟩
abbrev main_v91 : Ref sig .tc := ⟨.hbm, 132, rfl⟩
abbrev main_c_14 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_15 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_call1_cst : Ref sig .tc := ⟨.hbm, 152, rfl⟩
abbrev main_call1_v0 : Ref sig .tc := ⟨.hbm, 153, rfl⟩
abbrev main_v109 : Ref sig .tc := ⟨.hbm, 154, rfl⟩
abbrev main_cst_16 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_17 : Ref sig .tc := ⟨.hbm, 159, rfl⟩
abbrev main_v113 : Ref sig .tc := ⟨.hbm, 160, rfl⟩
abbrev main_cst_18 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_19 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Kernel.Region0.lean ====
/-
  Region 0 of @main (the first layer's fused projection: a block of 2000 node rows times the 128x512 weight matrix, plus the 1x512 bias row), at any float instance.
  The body reads its three input blocks whole, computes ONE value from them and writes it over the whole output
  block; nothing else in memory is touched. Stated at an arbitrary buffer valuation `V` (what the region finds when
  it is entered): for each window the block a grid point sees, the value the body leaves in the output block as a
  function of the three input blocks, the body's triple, and from these the per-point obligation the pipeline asks for.
-/
import proofs.«176839_j28836410425876_1_alg».proof.Proof.Gen.Kernel.Launch
import proofs.«176839_j28836410425876_1_alg».proof.Proof.Gen.Kernel.Skeleton
import proofs.«176839_j28836410425876_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` sees: the window's rectangle at `t` read out of the window's array as
    the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whenever the body runs, its staging buffer holds the block of the current point — also at points
    where the pipeline did not fetch it, because then the block index has not moved and the body leaves the buffer as
    it found it. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1: whenever the body runs, its staging buffer holds the block of the current point — also at points
    where the pipeline did not fetch it, because then the block index has not moved and the body leaves the buffer as
    it found it. -/
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2: whenever the body runs, its staging buffer holds the block of the current point — also at points
    where the pipeline did not fetch it, because then the block index has not moved and the body leaves the buffer as
    it found it. -/
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-block rectangles the body loads from and stores to. -/
abbrev whole0_0 : Rect S2000x128 := Rect.unit (s := S2000x128) ![0, 0] S2000x128.size inb_S2000x128_S2000x128_0_0
abbrev whole0_1 : Rect S128x512 := Rect.unit (s := S128x512) ![0, 0] S128x512.size inb_S128x512_S128x512_0_0
abbrev whole0_2 : Rect S1x512 := Rect.unit (s := S1x512) ![0, 0] S1x512.size inb_S1x512_S1x512_0_0
abbrev whole0_3 : Rect S2000x512 := Rect.unit (s := S2000x512) ![0, 0] S2000x512.size inb_S2000x512_S2000x512_0_0

/-- What the body leaves in the output block, as a function of the three input blocks: its one store, of the body's
    arithmetic applied to the three loaded blocks, over the whole block. -/
def result0 (x0 : Vec F S2000x128 .f32) (x1 : Vec F S128x512 .f32) (x2 : Vec F S1x512 .f32) : Vec F S2000x512 .f32 :=
  View.canon [⟨whole0_3, k0_pay1 (View.ld x0 whole0_0) (View.ld x1 whole0_1) (View.ld x2 whole0_2)⟩]

/-- The one store covers the output block: every index of the block lies in the stored rectangle. -/
theorem covers0 (p0 : Vec F S2000x512 .f32) (y : S2000x512.Idx) :
    ∃ pc ∈ ([⟨whole0_3, p0⟩] : List (View.Piece (Elt F) S2000x512 .f32)), y ∈ pc.1.set :=
  View.cover_of_tiled [⟨whole0_3, p0⟩] S2000x512.size (by rfl) y

set_option maxHeartbeats 1000000 in
/-- The body's triple: called on whole staging buffers, the inputs holding `x0 x1 x2` and the output holding anything, it
    runs to its return with the inputs unchanged and the output holding `result0 x0 x1 x2`. -/
theorem body_triple0 (c : Dev nD) (E : Set ℕ) (i : grid0.Coords) (a1 : Memref sig .tc .vmem S2000x128 .f32) (h1 : a1.IsWhole) (a2 : Memref sig .tc .vmem S128x512 .f32) (h2 : a2.IsWhole) (a3 : Memref sig .tc .vmem S1x512 .f32) (h3 : a3.IsWhole) (a4 : Memref sig .tc .vmem S2000x512 .f32) (h4 : a4.IsWhole)
    (x0 : Vec F S2000x128 .f32) (x1 : Vec F S128x512 .f32) (x2 : Vec F S1x512 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (result0 x0 x1 x2)) -∗ K ⟨⟩))
      ⊢ wp frame (wpE (defs₀ (F := F)) Variants.none c none) E (cc0__proj_kernel i a1 h1 a2 h2 a3 h3 a4 h4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-- The pipeline's proof data for this region on core `c`: the arrays are what the region finds; after the body at
    point `t` each input buffer still holds its block and the output buffer holds `result0` of the three input blocks;
    the body keeps nothing of its own between points and owes nothing. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => result0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = result0 (blk0 V c 0 t) (blk0 V c 1 t) (blk0 V c 2 t) := by dsimp only [dat0]

theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d
theorem dat0_before2 (c : Dev nD) (t : Fin cfg0.N) (d) : (dat0 V c).before 2 t d = blk0 V c 2 t :=
  held0_2 V (dat0 V c) (dat0_A V c 2) (dat0_after2 V c) t d

/-- What the pipeline hands the body at point `t`, -/
def pointPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it expects back. -/
def pointPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the input buffers hold the point's blocks, so the body's triple applies; what the
    body does not touch passes through. -/
theorem point_run0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body_triple0 c Set.univ (grid0.coords t) _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation, at every point. -/
theorem obligation0 (c : Dev nD) : BodyObligation (dat0 (F := F) V c) (defs₀ (F := F)) Variants.none () Set.univ := fun t => by
  rw [bigSep_W0, bigSep_W0]
  exact point_run0 V c t

end Cert.Kernel.Hand

end
-- ==== Proof.Kernel.Region1.lean ====
/-
  Region 1 of @main (the first layer's combine: a block of 5000 summed-message rows plus the matching skip rows plus the 1x128 bias row, clamped below at zero), at any float instance.
  The body reads its three input blocks whole, computes ONE value from them and writes it over the whole output
  block; nothing else in memory is touched. Stated at an arbitrary buffer valuation `V` (what the region finds when
  it is entered): for each window the block a grid point sees, the value the body leaves in the output block as a
  function of the three input blocks, the body's triple, and from these the per-point obligation the pipeline asks for.
-/
import proofs.«176839_j28836410425876_1_alg».proof.Proof.Gen.Kernel.Launch
import proofs.«176839_j28836410425876_1_alg».proof.Proof.Gen.Kernel.Skeleton
import proofs.«176839_j28836410425876_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` sees: the window's rectangle at `t` read out of the window's array as
    the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whenever the body runs, its staging buffer holds the block of the current point — also at points
    where the pipeline did not fetch it, because then the block index has not moved and the body leaves the buffer as
    it found it. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1: whenever the body runs, its staging buffer holds the block of the current point — also at points
    where the pipeline did not fetch it, because then the block index has not moved and the body leaves the buffer as
    it found it. -/
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2: whenever the body runs, its staging buffer holds the block of the current point — also at points
    where the pipeline did not fetch it, because then the block index has not moved and the body leaves the buffer as
    it found it. -/
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole-block rectangles the body loads from and stores to. -/
abbrev whole1_0 : Rect S5000x128 := Rect.unit (s := S5000x128) ![0, 0] S5000x128.size inb_S5000x128_S5000x128_0_0
abbrev whole1_1 : Rect S5000x128 := Rect.unit (s := S5000x128) ![0, 0] S5000x128.size inb_S5000x128_S5000x128_0_0
abbrev whole1_2 : Rect S1x128 := Rect.unit (s := S1x128) ![0, 0] S1x128.size inb_S1x128_S1x128_0_0
abbrev whole1_3 : Rect S5000x128 := Rect.unit (s := S5000x128) ![0, 0] S5000x128.size inb_S5000x128_S5000x128_0_0

/-- What the body leaves in the output block, as a function of the three input blocks: its one store, of the body's
    arithmetic applied to the three loaded blocks, over the whole block. -/
def result1 (x0 : Vec F S5000x128 .f32) (x1 : Vec F S5000x128 .f32) (x2 : Vec F S1x128 .f32) : Vec F S5000x128 .f32 :=
  View.canon [⟨whole1_3, k1_pay1 (View.ld x0 whole1_0) (View.ld x1 whole1_1) (View.ld x2 whole1_2)⟩]

/-- The one store covers the output block: every index of the block lies in the stored rectangle. -/
theorem covers1 (p0 : Vec F S5000x128 .f32) (y : S5000x128.Idx) :
    ∃ pc ∈ ([⟨whole1_3, p0⟩] : List (View.Piece (Elt F) S5000x128 .f32)), y ∈ pc.1.set :=
  View.cover_of_tiled [⟨whole1_3, p0⟩] S5000x128.size (by rfl) y

set_option maxHeartbeats 1000000 in
/-- The body's triple: called on whole staging buffers, the inputs holding `x0 x1 x2` and the output holding anything, it
    runs to its return with the inputs unchanged and the output holding `result1 x0 x1 x2`. -/
theorem body_triple1 (c : Dev nD) (E : Set ℕ) (i : grid1.Coords) (a1 : Memref sig .tc .vmem S5000x128 .f32) (h1 : a1.IsWhole) (a2 : Memref sig .tc .vmem S5000x128 .f32) (h2 : a2.IsWhole) (a3 : Memref sig .tc .vmem S1x128 .f32) (h3 : a3.IsWhole) (a4 : Memref sig .tc .vmem S5000x128 .f32) (h4 : a4.IsWhole)
    (x0 : Vec F S5000x128 .f32) (x1 : Vec F S5000x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (result1 x0 x1 x2)) -∗ K ⟨⟩))
      ⊢ wp frame (wpE (defs₀ (F := F)) Variants.none c none) E (cc1__combine_kernel i a1 h1 a2 h2 a3 h3 a4 h4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-- The pipeline's proof data for this region on core `c`: the arrays are what the region finds; after the body at
    point `t` each input buffer still holds its block and the output buffer holds `result1` of the three input blocks;
    the body keeps nothing of its own between points and owes nothing. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => result1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = result1 (blk1 V c 0 t) (blk1 V c 1 t) (blk1 V c 2 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d

/-- What the pipeline hands the body at point `t`, -/
def pointPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it expects back. -/
def pointPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the input buffers hold the point's blocks, so the body's triple applies; what the
    body does not touch passes through. -/
theorem point_run1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [dat1_before0, dat1_before1, dat1_before2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body_triple1 c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation, at every point. -/
theorem obligation1 (c : Dev nD) : BodyObligation (dat1 (F := F) V c) (defs₀ (F := F)) Variants.none () Set.univ := fun t => by
  rw [bigSep_W1, bigSep_W1]
  exact point_run1 V c t

end Cert.Kernel.Hand

end
-- ==== Proof.Kernel.Region2.lean ====
/-
  Region 2 of @main (the second layer's fused projection: a block of 2000 node rows times the 128x512 weight matrix, plus the 1x512 bias row), at any float instance.
  The body reads its three input blocks whole, computes ONE value from them and writes it over the whole output
  block; nothing else in memory is touched. Stated at an arbitrary buffer valuation `V` (what the region finds when
  it is entered): for each window the block a grid point sees, the value the body leaves in the output block as a
  function of the three input blocks, the body's triple, and from these the per-point obligation the pipeline asks for.
-/
import proofs.«176839_j28836410425876_1_alg».proof.Proof.Gen.Kernel.Launch
import proofs.«176839_j28836410425876_1_alg».proof.Proof.Gen.Kernel.Skeleton
import proofs.«176839_j28836410425876_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` sees: the window's rectangle at `t` read out of the window's array as
    the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whenever the body runs, its staging buffer holds the block of the current point — also at points
    where the pipeline did not fetch it, because then the block index has not moved and the body leaves the buffer as
    it found it. -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1: whenever the body runs, its staging buffer holds the block of the current point — also at points
    where the pipeline did not fetch it, because then the block index has not moved and the body leaves the buffer as
    it found it. -/
theorem held2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2: whenever the body runs, its staging buffer holds the block of the current point — also at points
    where the pipeline did not fetch it, because then the block index has not moved and the body leaves the buffer as
    it found it. -/
theorem held2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole-block rectangles the body loads from and stores to. -/
abbrev whole2_0 : Rect S2000x128 := Rect.unit (s := S2000x128) ![0, 0] S2000x128.size inb_S2000x128_S2000x128_0_0
abbrev whole2_1 : Rect S128x512 := Rect.unit (s := S128x512) ![0, 0] S128x512.size inb_S128x512_S128x512_0_0
abbrev whole2_2 : Rect S1x512 := Rect.unit (s := S1x512) ![0, 0] S1x512.size inb_S1x512_S1x512_0_0
abbrev whole2_3 : Rect S2000x512 := Rect.unit (s := S2000x512) ![0, 0] S2000x512.size inb_S2000x512_S2000x512_0_0

/-- What the body leaves in the output block, as a function of the three input blocks: its one store, of the body's
    arithmetic applied to the three loaded blocks, over the whole block. -/
def result2 (x0 : Vec F S2000x128 .f32) (x1 : Vec F S128x512 .f32) (x2 : Vec F S1x512 .f32) : Vec F S2000x512 .f32 :=
  View.canon [⟨whole2_3, k2_pay1 (View.ld x0 whole2_0) (View.ld x1 whole2_1) (View.ld x2 whole2_2)⟩]

/-- The one store covers the output block: every index of the block lies in the stored rectangle. -/
theorem covers2 (p0 : Vec F S2000x512 .f32) (y : S2000x512.Idx) :
    ∃ pc ∈ ([⟨whole2_3, p0⟩] : List (View.Piece (Elt F) S2000x512 .f32)), y ∈ pc.1.set :=
  View.cover_of_tiled [⟨whole2_3, p0⟩] S2000x512.size (by rfl) y

set_option maxHeartbeats 1000000 in
/-- The body's triple: called on whole staging buffers, the inputs holding `x0 x1 x2` and the output holding anything, it
    runs to its return with the inputs unchanged and the output holding `result2 x0 x1 x2`. -/
theorem body_triple2 (c : Dev nD) (E : Set ℕ) (i : grid2.Coords) (a1 : Memref sig .tc .vmem S2000x128 .f32) (h1 : a1.IsWhole) (a2 : Memref sig .tc .vmem S128x512 .f32) (h2 : a2.IsWhole) (a3 : Memref sig .tc .vmem S1x512 .f32) (h3 : a3.IsWhole) (a4 : Memref sig .tc .vmem S2000x512 .f32) (h4 : a4.IsWhole)
    (x0 : Vec F S2000x128 .f32) (x1 : Vec F S128x512 .f32) (x2 : Vec F S1x512 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (result2 x0 x1 x2)) -∗ K ⟨⟩))
      ⊢ wp frame (wpE (defs₀ (F := F)) Variants.none c none) E (cc2__proj_kernel i a1 h1 a2 h2 a3 h3 a4 h4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-- The pipeline's proof data for this region on core `c`: the arrays are what the region finds; after the body at
    point `t` each input buffer still holds its block and the output buffer holds `result2` of the three input blocks;
    the body keeps nothing of its own between points and owes nothing. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => result2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) :
    (dat2 V c).after 3 t = result2 (blk2 V c 0 t) (blk2 V c 1 t) (blk2 V c 2 t) := by dsimp only [dat2]

theorem dat2_before0 (c : Dev nD) (t : Fin cfg2.N) (d) : (dat2 V c).before 0 t d = blk2 V c 0 t :=
  held2_0 V (dat2 V c) (dat2_A V c 0) (dat2_after0 V c) t d
theorem dat2_before1 (c : Dev nD) (t : Fin cfg2.N) (d) : (dat2 V c).before 1 t d = blk2 V c 1 t :=
  held2_1 V (dat2 V c) (dat2_A V c 1) (dat2_after1 V c) t d
theorem dat2_before2 (c : Dev nD) (t : Fin cfg2.N) (d) : (dat2 V c).before 2 t d = blk2 V c 2 t :=
  held2_2 V (dat2 V c) (dat2_A V c 2) (dat2_after2 V c) t d

/-- What the pipeline hands the body at point `t`, -/
def pointPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it expects back. -/
def pointPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the input buffers hold the point's blocks, so the body's triple applies; what the
    body does not touch passes through. -/
theorem point_run2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (body_triple2 c Set.univ (grid2.coords t) _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation, at every point. -/
theorem obligation2 (c : Dev nD) : BodyObligation (dat2 (F := F) V c) (defs₀ (F := F)) Variants.none () Set.univ := fun t => by
  rw [bigSep_W2, bigSep_W2]
  exact point_run2 V c t

end Cert.Kernel.Hand

end
-- ==== Proof.Kernel.Region3.lean ====
/-
  Region 3 of @main (the second layer's combine: a block of 5000 summed-message rows plus the matching skip rows plus the 1x128 bias row, clamped below at zero), at any float instance.
  The body reads its three input blocks whole, computes ONE value from them and writes it over the whole output
  block; nothing else in memory is touched. Stated at an arbitrary buffer valuation `V` (what the region finds when
  it is entered): for each window the block a grid point sees, the value the body leaves in the output block as a
  function of the three input blocks, the body's triple, and from these the per-point obligation the pipeline asks for.
-/
import proofs.«176839_j28836410425876_1_alg».proof.Proof.Gen.Kernel.Launch
import proofs.«176839_j28836410425876_1_alg».proof.Proof.Gen.Kernel.Skeleton
import proofs.«176839_j28836410425876_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` sees: the window's rectangle at `t` read out of the window's array as
    the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whenever the body runs, its staging buffer holds the block of the current point — also at points
    where the pipeline did not fetch it, because then the block index has not moved and the body leaves the buffer as
    it found it. -/
theorem held3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1: whenever the body runs, its staging buffer holds the block of the current point — also at points
    where the pipeline did not fetch it, because then the block index has not moved and the body leaves the buffer as
    it found it. -/
theorem held3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2: whenever the body runs, its staging buffer holds the block of the current point — also at points
    where the pipeline did not fetch it, because then the block index has not moved and the body leaves the buffer as
    it found it. -/
theorem held3_2 {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The whole-block rectangles the body loads from and stores to. -/
abbrev whole3_0 : Rect S5000x128 := Rect.unit (s := S5000x128) ![0, 0] S5000x128.size inb_S5000x128_S5000x128_0_0
abbrev whole3_1 : Rect S5000x128 := Rect.unit (s := S5000x128) ![0, 0] S5000x128.size inb_S5000x128_S5000x128_0_0
abbrev whole3_2 : Rect S1x128 := Rect.unit (s := S1x128) ![0, 0] S1x128.size inb_S1x128_S1x128_0_0
abbrev whole3_3 : Rect S5000x128 := Rect.unit (s := S5000x128) ![0, 0] S5000x128.size inb_S5000x128_S5000x128_0_0

/-- What the body leaves in the output block, as a function of the three input blocks: its one store, of the body's
    arithmetic applied to the three loaded blocks, over the whole block. -/
def result3 (x0 : Vec F S5000x128 .f32) (x1 : Vec F S5000x128 .f32) (x2 : Vec F S1x128 .f32) : Vec F S5000x128 .f32 :=
  View.canon [⟨whole3_3, k3_pay1 (View.ld x0 whole3_0) (View.ld x1 whole3_1) (View.ld x2 whole3_2)⟩]

/-- The one store covers the output block: every index of the block lies in the stored rectangle. -/
theorem covers3 (p0 : Vec F S5000x128 .f32) (y : S5000x128.Idx) :
    ∃ pc ∈ ([⟨whole3_3, p0⟩] : List (View.Piece (Elt F) S5000x128 .f32)), y ∈ pc.1.set :=
  View.cover_of_tiled [⟨whole3_3, p0⟩] S5000x128.size (by rfl) y

set_option maxHeartbeats 1000000 in
/-- The body's triple: called on whole staging buffers, the inputs holding `x0 x1 x2` and the output holding anything, it
    runs to its return with the inputs unchanged and the output holding `result3 x0 x1 x2`. -/
theorem body_triple3 (c : Dev nD) (E : Set ℕ) (i : grid3.Coords) (a1 : Memref sig .tc .vmem S5000x128 .f32) (h1 : a1.IsWhole) (a2 : Memref sig .tc .vmem S5000x128 .f32) (h2 : a2.IsWhole) (a3 : Memref sig .tc .vmem S1x128 .f32) (h3 : a3.IsWhole) (a4 : Memref sig .tc .vmem S5000x128 .f32) (h4 : a4.IsWhole)
    (x0 : Vec F S5000x128 .f32) (x1 : Vec F S5000x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (result3 x0 x1 x2)) -∗ K ⟨⟩))
      ⊢ wp frame (wpE (defs₀ (F := F)) Variants.none c none) E (cc3__combine_kernel i a1 h1 a2 h2 a3 h3 a4 h4) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers3 _)

/-- The pipeline's proof data for this region on core `c`: the arrays are what the region finds; after the body at
    point `t` each input buffer still holds its block and the output buffer holds `result3` of the three input blocks;
    the body keeps nothing of its own between points and owes nothing. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => result3 (blk3 V c 0 t) (blk3 V c 1 t) (blk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) :
    (dat3 V c).after 3 t = result3 (blk3 V c 0 t) (blk3 V c 1 t) (blk3 V c 2 t) := by dsimp only [dat3]

theorem dat3_before0 (c : Dev nD) (t : Fin cfg3.N) (d) : (dat3 V c).before 0 t d = blk3 V c 0 t :=
  held3_0 V (dat3 V c) (dat3_A V c 0) (dat3_after0 V c) t d
theorem dat3_before1 (c : Dev nD) (t : Fin cfg3.N) (d) : (dat3 V c).before 1 t d = blk3 V c 1 t :=
  held3_1 V (dat3 V c) (dat3_A V c 1) (dat3_after1 V c) t d
theorem dat3_before2 (c : Dev nD) (t : Fin cfg3.N) (d) : (dat3 V c).before 2 t d = blk3 V c 2 t :=
  held3_2 V (dat3 V c) (dat3_A V c 2) (dat3_after2 V c) t d

/-- What the pipeline hands the body at point `t`, -/
def pointPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it expects back. -/
def pointPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any grid point: the input buffers hold the point's blocks, so the body's triple applies; what the
    body does not touch passes through. -/
theorem point_run3 (c : Dev nD) (t : Fin cfg3.N) :
    pointPre3 V c t ⊢ wp frame (wpE (defs₀ (F := F)) Variants.none c none) Set.univ (bodyAt3 t) (fun _ => pointPost3 V c t) := by
  unfold pointPre3 pointPost3 bodyAt3
  simp only [dat3_before0, dat3_before1, dat3_before2]
  rw [show (dat3 V c).Φ t.succ = (dat3 V c).Φ t.castSucc from rfl,
    show (dat3 V c).owesAt () t.succ = (dat3 V c).owesAt () t.castSucc from rfl,
    dat3_after0, dat3_after1, dat3_after2, dat3_after3]
  iintro ⟨HΦ, Ho, ⟨%d0, H0⟩, ⟨%d1, H1⟩, ⟨%d2, H2⟩, ⟨%d3, H3⟩⟩
  iapply (body_triple3 c Set.univ (grid3.coords t) _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation, at every point. -/
theorem obligation3 (c : Dev nD) : BodyObligation (dat3 (F := F) V c) (defs₀ (F := F)) Variants.none () Set.univ := fun t => by
  rw [bigSep_W3, bigSep_W3]
  exact point_run3 V c t

end Cert.Kernel.Hand

end
-- ==== Proof.Kernel.Region4.lean ====
/-
  Region 4 of @main (the final linear layer: the 64 pooled rows times the 128x10 weight matrix, plus the 1x10 bias row), at any float instance.
  The body reads its three input blocks whole, computes ONE value from them and writes it over the whole output
  block; nothing else in memory is touched. Stated at an arbitrary buffer valuation `V` (what the region finds when
  it is entered): for each window the block a grid point sees, the value the body leaves in the output block as a
  function of the three input blocks, the body's triple, and from these the per-point obligation the pipeline asks for.
-/
import proofs.«176839_j28836410425876_1_alg».proof.Proof.Gen.Kernel.Launch
import proofs.«176839_j28836410425876_1_alg».proof.Proof.Gen.Kernel.Skeleton
import proofs.«176839_j28836410425876_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` sees: the window's rectangle at `t` read out of the window's array as
    the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: whenever the body runs, its staging buffer holds the block of the current point — also at points
    where the pipeline did not fetch it, because then the block index has not moved and the body leaves the buffer as
    it found it. -/
theorem held4_0 {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- Input window 1: whenever the body runs, its staging buffer holds the block of the current point — also at points
    where the pipeline did not fetch it, because then the block index has not moved and the body leaves the buffer as
    it found it. -/
theorem held4_1 {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- Input window 2: whenever the body runs, its staging buffer holds the block of the current point — also at points
    where the pipeline did not fetch it, because then the block index has not moved and the body leaves the buffer as
    it found it. -/
theorem held4_2 {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The whole-block rectangles the body loads from and stores to. -/
abbrev whole4_0 : Rect S64x128 := Rect.unit (s := S64x128) ![0, 0] S64x128.size inb_S64x128_S64x128_0_0
abbrev whole4_1 : Rect S128x10 := Rect.unit (s := S128x10) ![0, 0] S128x10.size inb_S128x10_S128x10_0_0
abbrev whole4_2 : Rect S1x10 := Rect.unit (s := S1x10) ![0, 0] S1x10.size inb_S1x10_S1x10_0_0
abbrev whole4_3 : Rect S64x10 := Rect.unit (s := S64x10) ![0, 0] S64x10.size inb_S64x10_S64x10_0_0

/-- What the body leaves in the output block, as a function of the three input blocks: its one store, of the body's
    arithmetic applied to the three loaded blocks, over the whole block. -/
def result4 (x0 : Vec F S64x128 .f32) (x1 : Vec F S128x10 .f32) (x2 : Vec F S1x10 .f32) : Vec F S64x10 .f32 :=
  View.canon [⟨whole4_3, k4_pay1 (View.ld x0 whole4_0) (View.ld x1 whole4_1) (View.ld x2 whole4_2)⟩]

/-- The one store covers the output block: every index of the block lies in the stored rectangle. -/
theorem covers4 (p0 : Vec F S64x10 .f32) (y : S64x10.Idx) :
    ∃ pc ∈ ([⟨whole4_3, p0⟩] : List (View.Piece (Elt F) S64x10 .f32)), y ∈ pc.1.set :=
  View.cover_of_tiled [⟨whole4_3, p0⟩] S64x10.size (by rfl) y

set_option maxHeartbeats 1000000 in
/-- The body's triple: called on whole staging buffers, the inputs holding `x0 x1 x2` and the output holding anything, it
    runs to its return with the inputs unchanged and the output holding `result4 x0 x1 x2`. -/
theorem body_triple4 (c : Dev nD) (E : Set ℕ) (i : grid4.Coords) (a1 : Memref sig .tc .vmem S64x128 .f32) (h1 : a1.IsWhole) (a2 : Memref sig .tc .vmem S128x10 .f32) (h2 : a2.IsWhole) (a3 : Memref sig .tc .vmem S1x10 .f32) (h3 : a3.IsWhole) (a4 : Memref sig .tc .vmem S64x10 .f32) (h4 : a4.IsWhole)
    (x0 : Vec F S64x128 .f32) (x1 : Vec F S128x10 .f32) (x2 : Vec F S1x10 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (result4 x0 x1 x2)) -∗ K ⟨⟩))
      ⊢ wp frame (wpE (defs₀ (F := F)) Variants.none c none) E (cc4__fc_kernel i a1 h1 a2 h2 a3 h3 a4 h4) K := by
  simp only [cc4__fc_kernel_eq_skeleton]; unfold cc4__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers4 _)

/-- The pipeline's proof data for this region on core `c`: the arrays are what the region finds; after the body at
    point `t` each input buffer still holds its block and the output buffer holds `result4` of the three input blocks;
    the body keeps nothing of its own between points and owes nothing. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => result4 (blk4 V c 0 t) (blk4 V c 1 t) (blk4 V c 2 t)
  Φ _ := Pipeline.ΦA spec4 c
  q _ := fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) : (dat4 V c).after 2 t = blk4 V c 2 t := by dsimp only [dat4]
theorem dat4_after3 (c : Dev nD) (t : Fin cfg4.N) :
    (dat4 V c).after 3 t = result4 (blk4 V c 0 t) (blk4 V c 1 t) (blk4 V c 2 t) := by dsimp only [dat4]

theorem dat4_before0 (c : Dev nD) (t : Fin cfg4.N) (d) : (dat4 V c).before 0 t d = blk4 V c 0 t :=
  held4_0 V (dat4 V c) (dat4_A V c 0) (dat4_after0 V c) t d
theorem dat4_before1 (c : Dev nD) (t : Fin cfg4.N) (d) : (dat4 V c).before 1 t d = blk4 V c 1 t :=
  held4_1 V (dat4 V c) (dat4_A V c 1) (dat4_after1 V c) t d
theorem dat4_before2 (c : Dev nD) (t : Fin cfg4.N) (d) : (dat4 V c).before 2 t d = blk4 V c 2 t :=
  held4_2 V (dat4 V c) (dat4_A V c 2) (dat4_after2 V c) t d

/-- What the pipeline hands the body at point `t`, -/
def pointPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it expects back. -/
def pointPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any grid point: the input buffers hold the point's blocks, so the body's triple applies; what the
    body does not touch passes through. -/
theorem point_run4 (c : Dev nD) (t : Fin cfg4.N) :
    pointPre4 V c t ⊢ wp frame (wpE (defs₀ (F := F)) Variants.none c none) Set.univ (bodyAt4 t) (fun _ => pointPost4 V c t) := by
  unfold pointPre4 pointPost4 bodyAt4
  simp only [dat4_before0, dat4_before1, dat4_before2]
  rw [show (dat4 V c).Φ t.succ = (dat4 V c).Φ t.castSucc from rfl,
    show (dat4 V c).owesAt () t.succ = (dat4 V c).owesAt () t.castSucc from rfl,
    dat4_after0, dat4_after1, dat4_after2, dat4_after3]
  iintro ⟨HΦ, Ho, ⟨%d0, H0⟩, ⟨%d1, H1⟩, ⟨%d2, H2⟩, ⟨%d3, H3⟩⟩
  iapply (body_triple4 c Set.univ (grid4.coords t) _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation, at every point. -/
theorem obligation4 (c : Dev nD) : BodyObligation (dat4 (F := F) V c) (defs₀ (F := F)) Variants.none () Set.univ := fun t => by
  rw [bigSep_W4, bigSep_W4]
  exact point_run4 V c t

end Cert.Kernel.Hand

end
-- ==== Proof.Kernel.Boundaries.lean ====
/-
  The contents of core `c`'s buffers at every boundary of @main, from the launch memory `m` to the return.
  @main is five stretches of host operations, each followed by a kernel region. A stretch of host operations takes the
  contents to `StableHlo.after` of its operation list. A region changes only its windows' arrays: the three inputs
  stay as they were, and the output array ends holding what the pipeline's write-backs leave there, which is the fold
  `Dat.arrAt … N` over all grid points of the region's proof data taken at the contents the region was entered with.
  Also here: the family of the five regions' proof data, each at its own entry contents.
-/
import proofs.«176839_j28836410425876_1_alg».proof.Proof.Kernel.Region0
import proofs.«176839_j28836410425876_1_alg».proof.Proof.Kernel.Region1
import proofs.«176839_j28836410425876_1_alg».proof.Proof.Kernel.Region2
import proofs.«176839_j28836410425876_1_alg».proof.Proof.Kernel.Region3
import proofs.«176839_j28836410425876_1_alg».proof.Proof.Kernel.Region4
import proofs.«176839_j28836410425876_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the first host stretch: the edge endpoints split out, the four first-layer weight matrices laid side by
    side and the four biases end to end. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its output array holds the first layer's fused projection. -/
def W2 (c : Dev nD) : Valuation τ sig (Elt F) :=
  Pipeline.withArrays spec0 c (W1 m c) fun w => (dat0 (V1 m) c).arrAt w cfg0.N
theorem W2_at (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_off (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_at (c : Dev nD) (w : Fin cfg0.W) : (dat0 (V1 m) c).arrAt w cfg0.N = V2 m c (Pipeline.arrRef spec0 w) :=
  (W2_at m c w).symm
theorem exit0_off (c : Dev nD) : ∀ b, b ∉ Finset.univ.image (Pipeline.arrRef spec0) → V2 m c b = V1 m c b :=
  fun b hb => W2_off m c b fun w e => hb (Finset.mem_image.mpr ⟨w, Finset.mem_univ _, e⟩)

/-- After the second host stretch: the projection cut into its four column groups, the gated messages along the edges
    and their sums per target node. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: its output array holds the first layer's node features. -/
def W4 (c : Dev nD) : Valuation τ sig (Elt F) :=
  Pipeline.withArrays spec1 c (W3 m c) fun w => (dat1 (V3 m) c).arrAt w cfg1.N
theorem W4_at (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exit1_at (c : Dev nD) (w : Fin cfg1.W) : (dat1 (V3 m) c).arrAt w cfg1.N = V4 m c (Pipeline.arrRef spec1 w) :=
  (W4_at m c w).symm
theorem exit1_off (c : Dev nD) : ∀ b, b ∉ Finset.univ.image (Pipeline.arrRef spec1) → V4 m c b = V3 m c b :=
  fun b hb => W4_off m c b fun w e => hb (Finset.mem_image.mpr ⟨w, Finset.mem_univ _, e⟩)

/-- After the third host stretch: the second layer's weights and biases laid out. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region 2: its output array holds the second layer's fused projection. -/
def W6 (c : Dev nD) : Valuation τ sig (Elt F) :=
  Pipeline.withArrays spec2 c (W5 m c) fun w => (dat2 (V5 m) c).arrAt w cfg2.N
theorem W6_at (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_off (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem exit2_at (c : Dev nD) (w : Fin cfg2.W) : (dat2 (V5 m) c).arrAt w cfg2.N = V6 m c (Pipeline.arrRef spec2 w) :=
  (W6_at m c w).symm
theorem exit2_off (c : Dev nD) : ∀ b, b ∉ Finset.univ.image (Pipeline.arrRef spec2) → V6 m c b = V5 m c b :=
  fun b hb => W6_off m c b fun w e => hb (Finset.mem_image.mpr ⟨w, Finset.mem_univ _, e⟩)

/-- After the fourth host stretch: the second layer's gated messages summed per target node. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- After region 3: its output array holds the second layer's node features. -/
def W8 (c : Dev nD) : Valuation τ sig (Elt F) :=
  Pipeline.withArrays spec3 c (W7 m c) fun w => (dat3 (V7 m) c).arrAt w cfg3.N
theorem W8_at (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_off (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem exit3_at (c : Dev nD) (w : Fin cfg3.W) : (dat3 (V7 m) c).arrAt w cfg3.N = V8 m c (Pipeline.arrRef spec3 w) :=
  (W8_at m c w).symm
theorem exit3_off (c : Dev nD) : ∀ b, b ∉ Finset.univ.image (Pipeline.arrRef spec3) → V8 m c b = V7 m c b :=
  fun b hb => W8_off m c b fun w e => hb (Finset.mem_image.mpr ⟨w, Finset.mem_univ _, e⟩)

/-- After the fifth host stretch: the node features averaged per graph. -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b
/-- After region 4, at the return: its output array holds the result. -/
def W10 (c : Dev nD) : Valuation τ sig (Elt F) :=
  Pipeline.withArrays spec4 c (W9 m c) fun w => (dat4 (V9 m) c).arrAt w cfg4.N
theorem W10_at (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_off (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem exit4_at (c : Dev nD) (w : Fin cfg4.W) : (dat4 (V9 m) c).arrAt w cfg4.N = V10 m c (Pipeline.arrRef spec4 w) :=
  (W10_at m c w).symm
theorem exit4_off (c : Dev nD) : ∀ b, b ∉ Finset.univ.image (Pipeline.arrRef spec4) → V10 m c b = V9 m c b :=
  fun b hb => W10_off m c b fun w e => hb (Finset.mem_image.mpr ⟨w, Finset.mem_univ _, e⟩)

/-- The five regions' proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c

abbrev noVariants : Variants := Variants.none
/-- No core waits on another: no level is assigned anywhere. -/
abbrev noLevels : GSem nD τ sig → Finset Unit := fun _ => ∅
abbrev levelZero : GSem nD τ sig → Unit → ℕ := fun _ _ => 0

/-- What a core carries beside its buffers from boundary to boundary: its generator register in some state, and that it
    owes nothing. -/
abbrev carried (c : Dev nD) : sProp 𝕄 := iprop((∃ r, prngReg c r) ∗ ∃ W, owes (c : Thread nD τ) (0 : CellTallies nD τ sig Unit) W)

/-- A stretch of host operations as a segment of @main over all unscoped buffers, from contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Kernel.Segment0.lean ====
/-
  Region 0 as a segment of @main: entered with every unscoped buffer at the contents after the first host stretch,
  left with them at the contents after the region. On entry the region's four arrays are taken out of the unscoped
  buffers and the generator register goes into the pipeline's invariant; on exit the arrays, now at what the write-backs
  left, are put back beside the untouched rest, and the register comes back. The core owes nothing before or after,
  and the kernel has no semaphore of its own.
-/
import proofs.«176839_j28836410425876_1_alg».proof.Proof.Kernel.Boundaries

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def region0 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ noLevels levelZero 0 fun _ _ => rfl
  pre c := iprop(StableHlo.held (c : Thread nD τ) (Pipeline.ucRefs τ sig) (W1 m c) ∗ carried c)
  post c := iprop(StableHlo.held (c : Thread nD τ) (Pipeline.ucRefs τ sig) (W2 m c) ∗ carried c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_at m c) (exit0_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Segment1.lean ====
/-
  Region 1 as a segment of @main: entered with every unscoped buffer at the contents after the second host stretch,
  left with them at the contents after the region. On entry the region's four arrays are taken out of the unscoped
  buffers and the generator register goes into the pipeline's invariant; on exit the arrays, now at what the write-backs
  left, are put back beside the untouched rest, and the register comes back. The core owes nothing before or after,
  and the kernel has no semaphore of its own.
-/
import proofs.«176839_j28836410425876_1_alg».proof.Proof.Kernel.Boundaries

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def region1 : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (obligation1 (V3 m) c).loose
  hwaits := Pipeline.hwaits_of_owed_zero _ _ _ _ noLevels levelZero 1 fun _ _ => rfl
  pre c := iprop(StableHlo.held (c : Thread nD τ) (Pipeline.ucRefs τ sig) (W3 m c) ∗ carried c)
  post c := iprop(StableHlo.held (c : Thread nD τ) (Pipeline.ucRefs τ sig) (W4 m c) ∗ carried c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exit1_at m c) (exit1_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Segment2.lean ====
/-
  Region 2 as a segment of @main: entered with every unscoped buffer at the contents after the third host stretch,
  left with them at the contents after the region. On entry the region's four arrays are taken out of the unscoped
  buffers and the generator register goes into the pipeline's invariant; on exit the arrays, now at what the write-backs
  left, are put back beside the untouched rest, and the register comes back. The core owes nothing before or after,
  and the kernel has no semaphore of its own.
-/
import proofs.«176839_j28836410425876_1_alg».proof.Proof.Kernel.Boundaries

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def region2 : Pipeline.RegionSeg (pcfgs (F := F)) adm (pdats m) () defs₀ noVariants noLevels levelZero 2 where
  win := launch2.win.to₀
  block_pos := launch2.block_pos
  stage_whole := launch2.stage_whole
  K := PEmpty
  osem k := k.elim
  ho := Pipeline.OwnSemFacts.none _
  hbody c := (obligation2 (V5 m) c).loose
  hwaits := Pipeline.hwaits_of_owed_zero _ _ _ _ noLevels levelZero 2 fun _ _ => rfl
  pre c := iprop(StableHlo.held (c : Thread nD τ) (Pipeline.ucRefs τ sig) (W5 m c) ∗ carried c)
  post c := iprop(StableHlo.held (c : Thread nD τ) (Pipeline.ucRefs τ sig) (W6 m c) ∗ carried c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (exit2_at m c) (exit2_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Segment3.lean ====
/-
  Region 3 as a segment of @main: entered with every unscoped buffer at the contents after the fourth host stretch,
  left with them at the contents after the region. On entry the region's four arrays are taken out of the unscoped
  buffers and the generator register goes into the pipeline's invariant; on exit the arrays, now at what the write-backs
  left, are put back beside the untouched rest, and the register comes back. The core owes nothing before or after,
  and the kernel has no semaphore of its own.
-/
import proofs.«176839_j28836410425876_1_alg».proof.Proof.Kernel.Boundaries

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def region3 : Pipeline.RegionSeg (pcfgs (F := F)) adm (pdats m) () defs₀ noVariants noLevels levelZero 3 where
  win := launch3.win.to₀
  block_pos := launch3.block_pos
  stage_whole := launch3.stage_whole
  K := PEmpty
  osem k := k.elim
  ho := Pipeline.OwnSemFacts.none _
  hbody c := (obligation3 (V7 m) c).loose
  hwaits := Pipeline.hwaits_of_owed_zero _ _ _ _ noLevels levelZero 3 fun _ _ => rfl
  pre c := iprop(StableHlo.held (c : Thread nD τ) (Pipeline.ucRefs τ sig) (W7 m c) ∗ carried c)
  post c := iprop(StableHlo.held (c : Thread nD τ) (Pipeline.ucRefs τ sig) (W8 m c) ∗ carried c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (exit3_at m c) (exit3_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Segment4.lean ====
/-
  Region 4 as a segment of @main: entered with every unscoped buffer at the contents after the fifth host stretch,
  left with them at the contents after the region. On entry the region's four arrays are taken out of the unscoped
  buffers and the generator register goes into the pipeline's invariant; on exit the arrays, now at what the write-backs
  left, are put back beside the untouched rest, and the register comes back. The core owes nothing before or after,
  and the kernel has no semaphore of its own.
-/
import proofs.«176839_j28836410425876_1_alg».proof.Proof.Kernel.Boundaries

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def region4 : Pipeline.RegionSeg (pcfgs (F := F)) adm (pdats m) () defs₀ noVariants noLevels levelZero 4 where
  win := launch4.win.to₀
  block_pos := launch4.block_pos
  stage_whole := launch4.stage_whole
  K := PEmpty
  osem k := k.elim
  ho := Pipeline.OwnSemFacts.none _
  hbody c := (obligation4 (V9 m) c).loose
  hwaits := Pipeline.hwaits_of_owed_zero _ _ _ _ noLevels levelZero 4 fun _ _ => rfl
  pre c := iprop(StableHlo.held (c : Thread nD τ) (Pipeline.ucRefs τ sig) (W9 m c) ∗ carried c)
  post c := iprop(StableHlo.held (c : Thread nD τ) (Pipeline.ucRefs τ sig) (W10 m c) ∗ carried c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (exit4_at m c) (exit4_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Run.lean ====
/-
  @main from launch to return: five stretches of host operations alternating with the five kernel regions, chained
  through the buffer contents at each boundary. Every weakly fair execution terminates without a fault, and at the
  end every unscoped buffer holds the last boundary's contents. Two consequences: the result buffer holds what region
  4's write-backs leave, and each argument array — which no host operation writes and no region outputs — holds what
  it held at launch.
-/
import proofs.«176839_j28836410425876_1_alg».proof.Proof.Kernel.Segment0
import proofs.«176839_j28836410425876_1_alg».proof.Proof.Kernel.Segment1
import proofs.«176839_j28836410425876_1_alg».proof.Proof.Kernel.Segment2
import proofs.«176839_j28836410425876_1_alg».proof.Proof.Kernel.Segment3
import proofs.«176839_j28836410425876_1_alg».proof.Proof.Kernel.Segment4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's ten segments in order. -/
abbrev segments : List (Pipeline.Seg (pcfgs (F := F)) adm (pdats m) () defs₀ noVariants noLevels levelZero) :=
  [ .host (hostStretch hostOps0 hostOps0_sub hostOps0_fresh (W0 m)),
    .region (region0 m),
    .host (hostStretch hostOps1 hostOps1_sub hostOps1_fresh (W2 m)),
    .region (region1 m),
    .host (hostStretch hostOps2 hostOps2_sub hostOps2_fresh (W4 m)),
    .region (region2 m),
    .host (hostStretch hostOps3 hostOps3_sub hostOps3_fresh (W6 m)),
    .region (region3 m),
    .host (hostStretch hostOps4 hostOps4_sub hostOps4_fresh (W8 m)),
    .region (region4 m) ]

/-- @main is the run of these segments. -/
theorem main_is_segments (c : Dev nD) : main (F := F) c = Pipeline.Seg.run (segments m) := (main_chain c).trans (by chain_rfl)

set_option backward.isDefEq.respectTransparency.types false in
/-- Every weakly fair execution of @main from memory `m` terminates, nothing faulting, with every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ noVariants noLevels levelZero m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ carried c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun c => by
        show (iprop(StableHlo.held (c : Thread nD τ) (Pipeline.ucRefs τ sig) (W10 m c)
          ∗ (∃ r, prngReg c r) ∗ ∃ W, owes (c : Thread nD τ) (0 : CellTallies nD τ sig Unit) W) : sProp 𝕄) ⊢ _
        iintro ⟨Hh, Hp, Ho⟩
        isplitl [Hh Hp]
        · isplitl [Hh]; · iexact Hh
          iexact Hp
        iexact Ho⟩)
    (hinit := by
      refine Pipeline.initEach noLevels levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## What a region leaves alone -/

/-- Region 0 changes only its output array: an input window's array ends as it was entered, and every other buffer
    is untouched. -/
theorem W2_keep (c : Dev nD) (b : Ref sig .tc) (hb : b ≠ Pipeline.arrRef spec0 3) : W2 m c (Proc.devRef .tc b) = W1 m c (Proc.devRef .tc b) := by
  by_cases h : ∃ w, Pipeline.arrRef spec0 w = b
  · obtain ⟨w, rfl⟩ := h
    match w with
    | ⟨0, _⟩ => exact (W2_at m c 0).trans (((dat0 (V1 m) c).arrAt_in 0 rfl _).trans (dat0_A (V1 m) c 0))
    | ⟨1, _⟩ => exact (W2_at m c 1).trans (((dat0 (V1 m) c).arrAt_in 1 rfl _).trans (dat0_A (V1 m) c 1))
    | ⟨2, _⟩ => exact (W2_at m c 2).trans (((dat0 (V1 m) c).arrAt_in 2 rfl _).trans (dat0_A (V1 m) c 2))
    | ⟨3, _⟩ => exact absurd rfl hb
  · exact W2_off m c b fun w e => h ⟨w, e⟩
theorem W4_keep (c : Dev nD) (b : Ref sig .tc) (hb : b ≠ Pipeline.arrRef spec1 3) : W4 m c (Proc.devRef .tc b) = W3 m c (Proc.devRef .tc b) := by
  by_cases h : ∃ w, Pipeline.arrRef spec1 w = b
  · obtain ⟨w, rfl⟩ := h
    match w with
    | ⟨0, _⟩ => exact (W4_at m c 0).trans (((dat1 (V3 m) c).arrAt_in 0 rfl _).trans (dat1_A (V3 m) c 0))
    | ⟨1, _⟩ => exact (W4_at m c 1).trans (((dat1 (V3 m) c).arrAt_in 1 rfl _).trans (dat1_A (V3 m) c 1))
    | ⟨2, _⟩ => exact (W4_at m c 2).trans (((dat1 (V3 m) c).arrAt_in 2 rfl _).trans (dat1_A (V3 m) c 2))
    | ⟨3, _⟩ => exact absurd rfl hb
  · exact W4_off m c b fun w e => h ⟨w, e⟩
theorem W6_keep (c : Dev nD) (b : Ref sig .tc) (hb : b ≠ Pipeline.arrRef spec2 3) : W6 m c (Proc.devRef .tc b) = W5 m c (Proc.devRef .tc b) := by
  by_cases h : ∃ w, Pipeline.arrRef spec2 w = b
  · obtain ⟨w, rfl⟩ := h
    match w with
    | ⟨0, _⟩ => exact (W6_at m c 0).trans (((dat2 (V5 m) c).arrAt_in 0 rfl _).trans (dat2_A (V5 m) c 0))
    | ⟨1, _⟩ => exact (W6_at m c 1).trans (((dat2 (V5 m) c).arrAt_in 1 rfl _).trans (dat2_A (V5 m) c 1))
    | ⟨2, _⟩ => exact (W6_at m c 2).trans (((dat2 (V5 m) c).arrAt_in 2 rfl _).trans (dat2_A (V5 m) c 2))
    | ⟨3, _⟩ => exact absurd rfl hb
  · exact W6_off m c b fun w e => h ⟨w, e⟩
theorem W8_keep (c : Dev nD) (b : Ref sig .tc) (hb : b ≠ Pipeline.arrRef spec3 3) : W8 m c (Proc.devRef .tc b) = W7 m c (Proc.devRef .tc b) := by
  by_cases h : ∃ w, Pipeline.arrRef spec3 w = b
  · obtain ⟨w, rfl⟩ := h
    match w with
    | ⟨0, _⟩ => exact (W8_at m c 0).trans (((dat3 (V7 m) c).arrAt_in 0 rfl _).trans (dat3_A (V7 m) c 0))
    | ⟨1, _⟩ => exact (W8_at m c 1).trans (((dat3 (V7 m) c).arrAt_in 1 rfl _).trans (dat3_A (V7 m) c 1))
    | ⟨2, _⟩ => exact (W8_at m c 2).trans (((dat3 (V7 m) c).arrAt_in 2 rfl _).trans (dat3_A (V7 m) c 2))
    | ⟨3, _⟩ => exact absurd rfl hb
  · exact W8_off m c b fun w e => h ⟨w, e⟩
theorem W10_keep (c : Dev nD) (b : Ref sig .tc) (hb : b ≠ Pipeline.arrRef spec4 3) : W10 m c (Proc.devRef .tc b) = W9 m c (Proc.devRef .tc b) := by
  by_cases h : ∃ w, Pipeline.arrRef spec4 w = b
  · obtain ⟨w, rfl⟩ := h
    match w with
    | ⟨0, _⟩ => exact (W10_at m c 0).trans (((dat4 (V9 m) c).arrAt_in 0 rfl _).trans (dat4_A (V9 m) c 0))
    | ⟨1, _⟩ => exact (W10_at m c 1).trans (((dat4 (V9 m) c).arrAt_in 1 rfl _).trans (dat4_A (V9 m) c 1))
    | ⟨2, _⟩ => exact (W10_at m c 2).trans (((dat4 (V9 m) c).arrAt_in 2 rfl _).trans (dat4_A (V9 m) c 2))
    | ⟨3, _⟩ => exact absurd rfl hb
  · exact W10_off m c b fun w e => h ⟨w, e⟩

/-- A buffer that no host operation writes and that is no region's output array holds at the end what it held at launch. -/
theorem untouched (c : Dev nD) (b : Ref sig .tc)
    (h0 : b ∉ hostOps0_W) (h1 : b ≠ Pipeline.arrRef spec0 3) (h2 : b ∉ hostOps1_W) (h3 : b ≠ Pipeline.arrRef spec1 3)
    (h4 : b ∉ hostOps2_W) (h5 : b ≠ Pipeline.arrRef spec2 3) (h6 : b ∉ hostOps3_W) (h7 : b ≠ Pipeline.arrRef spec3 3)
    (h8 : b ∉ hostOps4_W) (h9 : b ≠ Pipeline.arrRef spec4 3) :
    W10 m c (Proc.devRef .tc b) = m ((c : Thread nD τ).loc b) :=
  calc W10 m c (Proc.devRef .tc b)
    _ = W9 m c (Proc.devRef .tc b) := W10_keep m c b h9
    _ = W8 m c (Proc.devRef .tc b) := StableHlo.after_of_writes_sub hostOps4 _ hostOps4_writes h8
    _ = W7 m c (Proc.devRef .tc b) := W8_keep m c b h7
    _ = W6 m c (Proc.devRef .tc b) := StableHlo.after_of_writes_sub hostOps3 _ hostOps3_writes h6
    _ = W5 m c (Proc.devRef .tc b) := W6_keep m c b h5
    _ = W4 m c (Proc.devRef .tc b) := StableHlo.after_of_writes_sub hostOps2 _ hostOps2_writes h4
    _ = W3 m c (Proc.devRef .tc b) := W4_keep m c b h3
    _ = W2 m c (Proc.devRef .tc b) := StableHlo.after_of_writes_sub hostOps1 _ hostOps1_writes h2
    _ = W1 m c (Proc.devRef .tc b) := W2_keep m c b h1
    _ = W0 m c (Proc.devRef .tc b) := StableHlo.after_of_writes_sub hostOps0 _ hostOps0_writes h0
    _ = m ((c : Thread nD τ).loc b) := rfl

/-- THE FRAME: @main runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
      (h c _ (unscoped_mem main_arg0 (by decide))).trans (untouched m c main_arg0 (by decide) (by decide) (by decide) (by decide) (by decide) (by decide) (by decide) (by decide) (by decide) (by decide)),
      (h c _ (unscoped_mem main_arg1 (by decide))).trans (untouched m c main_arg1 (by decide) (by decide) (by decide) (by decide) (by decide) (by decide) (by decide) (by decide) (by decide) (by decide)),
      (h c _ (unscoped_mem main_arg2 (by decide))).trans (untouched m c main_arg2 (by decide) (by decide) (by decide) (by decide) (by decide) (by decide) (by decide) (by decide) (by decide) (by decide)),
      (h c _ (unscoped_mem main_arg3 (by decide))).trans (untouched m c main_arg3 (by decide) (by decide) (by decide) (by decide) (by decide) (by decide) (by decide) (by decide) (by decide) (by decide)),
      (h c _ (unscoped_mem main_arg4 (by decide))).trans (untouched m c main_arg4 (by decide) (by decide) (by decide) (by decide) (by decide) (by decide) (by decide) (by decide) (by decide) (by decide)),
      (h c _ (unscoped_mem main_arg5 (by decide))).trans (untouched m c main_arg5 (by decide) (by decide) (by decide) (by decide) (by decide) (by decide) (by decide) (by decide) (by decide) (by decide)),
      (h c _ (unscoped_mem main_arg6 (by decide))).trans (untouched m c main_arg6 (by decide) (by decide) (by decide) (by decide) (by decide) (by decide) (by decide) (by decide) (by decide) (by decide)),
      (h c _ (unscoped_mem main_arg7 (by decide))).trans (untouched m c main_arg7 (by decide) (by decide) (by decide) (by decide) (by decide) (by decide) (by decide) (by decide) (by decide) (by decide)),
      (h c _ (unscoped_mem main_arg8 (by decide))).trans (untouched m c main_arg8 (by decide) (by decide) (by decide) (by decide) (by decide) (by decide) (by decide) (by decide) (by decide) (by decide)),
      (h c _ (unscoped_mem main_arg9 (by decide))).trans (untouched m c main_arg9 (by decide) (by decide) (by decide) (by decide) (by decide) (by decide) (by decide) (by decide) (by decide) (by decide)),
      (h c _ (unscoped_mem main_arg10 (by decide))).trans (untouched m c main_arg10 (by decide) (by decide) (by decide) (by decide) (by decide) (by decide) (by decide) (by decide) (by decide) (by decide)),
      (h c _ (unscoped_mem main_arg11 (by decide))).trans (untouched m c main_arg11 (by decide) (by decide) (by decide) (by decide) (by decide) (by decide) (by decide) (by decide) (by decide) (by decide)),
      (h c _ (unscoped_mem main_arg12 (by decide))).trans (untouched m c main_arg12 (by decide) (by decide) (by decide) (by decide) (by decide) (by decide) (by decide) (by decide) (by decide) (by decide)),
      (h c _ (unscoped_mem main_arg13 (by decide))).trans (untouched m c main_arg13 (by decide) (by decide) (by decide) (by decide) (by decide) (by decide) (by decide) (by decide) (by decide) (by decide)),
      (h c _ (unscoped_mem main_arg14 (by decide))).trans (untouched m c main_arg14 (by decide) (by decide) (by decide) (by decide) (by decide) (by decide) (by decide) (by decide) (by decide) (by decide)),
      (h c _ (unscoped_mem main_arg15 (by decide))).trans (untouched m c main_arg15 (by decide) (by decide) (by decide) (by decide) (by decide) (by decide) (by decide) (by decide) (by decide) (by decide)),
      (h c _ (unscoped_mem main_arg16 (by decide))).trans (untouched m c main_arg16 (by decide) (by decide) (by decide) (by decide) (by decide) (by decide) (by decide) (by decide) (by decide) (by decide)),
      (h c _ (unscoped_mem main_arg17 (by decide))).trans (untouched m c main_arg17 (by decide) (by decide) (by decide) (by decide) (by decide) (by decide) (by decide) (by decide) (by decide) (by decide)),
      (h c _ (unscoped_mem main_arg18 (by decide))).trans (untouched m c main_arg18 (by decide) (by decide) (by decide) (by decide) (by decide) (by decide) (by decide) (by decide) (by decide) (by decide)),
      (h c _ (unscoped_mem main_arg19 (by decide))).trans (untouched m c main_arg19 (by decide) (by decide) (by decide) (by decide) (by decide) (by decide) (by decide) (by decide) (by decide) (by decide)),
      (h c _ (unscoped_mem main_arg20 (by decide))).trans (untouched m c main_arg20 (by decide) (by decide) (by decide) (by decide) (by decide) (by decide) (by decide) (by decide) (by decide) (by decide)),
      (h c _ (unscoped_mem main_arg21 (by decide))).trans (untouched m c main_arg21 (by decide) (by decide) (by decide) (by decide) (by decide) (by decide) (by decide) (by decide) (by decide) (by decide)),
      (h c _ (unscoped_mem main_arg22 (by decide))).trans (untouched m c main_arg22 (by decide) (by decide) (by decide) (by decide) (by decide) (by decide) (by decide) (by decide) (by decide) (by decide))⟩)
    (run_all m ρ)

/-- The run with the result named: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v101) = W10 m c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨h c _ (unscoped_mem main_v101 (by decide)),
      (h c _ (unscoped_mem main_arg0 (by decide))).trans (untouched m c main_arg0 (by decide) (by decide) (by decide) (by decide) (by decide) (by decide) (by decide) (by decide) (by decide) (by decide)),
      (h c _ (unscoped_mem main_arg1 (by decide))).trans (untouched m c main_arg1 (by decide) (by decide) (by decide) (by decide) (by decide) (by decide) (by decide) (by decide) (by decide) (by decide)),
      (h c _ (unscoped_mem main_arg2 (by decide))).trans (untouched m c main_arg2 (by decide) (by decide) (by decide) (by decide) (by decide) (by decide) (by decide) (by decide) (by decide) (by decide)),
      (h c _ (unscoped_mem main_arg3 (by decide))).trans (untouched m c main_arg3 (by decide) (by decide) (by decide) (by decide) (by decide) (by decide) (by decide) (by decide) (by decide) (by decide)),
      (h c _ (unscoped_mem main_arg4 (by decide))).trans (untouched m c main_arg4 (by decide) (by decide) (by decide) (by decide) (by decide) (by decide) (by decide) (by decide) (by decide) (by decide)),
      (h c _ (unscoped_mem main_arg5 (by decide))).trans (untouched m c main_arg5 (by decide) (by decide) (by decide) (by decide) (by decide) (by decide) (by decide) (by decide) (by decide) (by decide)),
      (h c _ (unscoped_mem main_arg6 (by decide))).trans (untouched m c main_arg6 (by decide) (by decide) (by decide) (by decide) (by decide) (by decide) (by decide) (by decide) (by decide) (by decide)),
      (h c _ (unscoped_mem main_arg7 (by decide))).trans (untouched m c main_arg7 (by decide) (by decide) (by decide) (by decide) (by decide) (by decide) (by decide) (by decide) (by decide) (by decide)),
      (h c _ (unscoped_mem main_arg8 (by decide))).trans (untouched m c main_arg8 (by decide) (by decide) (by decide) (by decide) (by decide) (by decide) (by decide) (by decide) (by decide) (by decide)),
      (h c _ (unscoped_mem main_arg9 (by decide))).trans (untouched m c main_arg9 (by decide) (by decide) (by decide) (by decide) (by decide) (by decide) (by decide) (by decide) (by decide) (by decide)),
      (h c _ (unscoped_mem main_arg10 (by decide))).trans (untouched m c main_arg10 (by decide) (by decide) (by decide) (by decide) (by decide) (by decide) (by decide) (by decide) (by decide) (by decide)),
      (h c _ (unscoped_mem main_arg11 (by decide))).trans (untouched m c main_arg11 (by decide) (by decide) (by decide) (by decide) (by decide) (by decide) (by decide) (by decide) (by decide) (by decide)),
      (h c _ (unscoped_mem main_arg12 (by decide))).trans (untouched m c main_arg12 (by decide) (by decide) (by decide) (by decide) (by decide) (by decide) (by decide) (by decide) (by decide) (by decide)),
      (h c _ (unscoped_mem main_arg13 (by decide))).trans (untouched m c main_arg13 (by decide) (by decide) (by decide) (by decide) (by decide) (by decide) (by decide) (by decide) (by decide) (by decide)),
      (h c _ (unscoped_mem main_arg14 (by decide))).trans (untouched m c main_arg14 (by decide) (by decide) (by decide) (by decide) (by decide) (by decide) (by decide) (by decide) (by decide) (by decide)),
      (h c _ (unscoped_mem main_arg15 (by decide))).trans (untouched m c main_arg15 (by decide) (by decide) (by decide) (by decide) (by decide) (by decide) (by decide) (by decide) (by decide) (by decide)),
      (h c _ (unscoped_mem main_arg16 (by decide))).trans (untouched m c main_arg16 (by decide) (by decide) (by decide) (by decide) (by decide) (by decide) (by decide) (by decide) (by decide) (by decide)),
      (h c _ (unscoped_mem main_arg17 (by decide))).trans (untouched m c main_arg17 (by decide) (by decide) (by decide) (by decide) (by decide) (by decide) (by decide) (by decide) (by decide) (by decide)),
      (h c _ (unscoped_mem main_arg18 (by decide))).trans (untouched m c main_arg18 (by decide) (by decide) (by decide) (by decide) (by decide) (by decide) (by decide) (by decide) (by decide) (by decide)),
      (h c _ (unscoped_mem main_arg19 (by decide))).trans (untouched m c main_arg19 (by decide) (by decide) (by decide) (by decide) (by decide) (by decide) (by decide) (by decide) (by decide) (by decide)),
      (h c _ (unscoped_mem main_arg20 (by decide))).trans (untouched m c main_arg20 (by decide) (by decide) (by decide) (by decide) (by decide) (by decide) (by decide) (by decide) (by decide) (by decide)),
      (h c _ (unscoped_mem main_arg21 (by decide))).trans (untouched m c main_arg21 (by decide) (by decide) (by decide) (by decide) (by decide) (by decide) (by decide) (by decide) (by decide) (by decide)),
      (h c _ (unscoped_mem main_arg22 (by decide))).trans (untouched m c main_arg22 (by decide) (by decide) (by decide) (by decide) (by decide) (by decide) (by decide) (by decide) (by decide) (by decide))⟩)
    (run_all m ρ)

end Cert.Kernel.Hand

end
-- ==== Proof.KernelIdeal.Region0.lean ====
/-
  Region 0 of @main (the first layer's fused projection: a block of 2000 node rows times the 128x512 weight matrix, plus the 1x512 bias row), at any float instance.
  The body reads its three input blocks whole, computes ONE value from them and writes it over the whole output
  block; nothing else in memory is touched. Stated at an arbitrary buffer valuation `V` (what the region finds when
  it is entered): for each window the block a grid point sees, the value the body leaves in the output block as a
  function of the three input blocks, the body's triple, and from these the per-point obligation the pipeline asks for.
-/
import proofs.«176839_j28836410425876_1_alg».proof.Proof.Gen.KernelIdeal.Launch
import proofs.«176839_j28836410425876_1_alg».proof.Proof.Gen.KernelIdeal.Skeleton
import proofs.«176839_j28836410425876_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` sees: the window's rectangle at `t` read out of the window's array as
    the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whenever the body runs, its staging buffer holds the block of the current point — also at points
    where the pipeline did not fetch it, because then the block index has not moved and the body leaves the buffer as
    it found it. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1: whenever the body runs, its staging buffer holds the block of the current point — also at points
    where the pipeline did not fetch it, because then the block index has not moved and the body leaves the buffer as
    it found it. -/
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2: whenever the body runs, its staging buffer holds the block of the current point — also at points
    where the pipeline did not fetch it, because then the block index has not moved and the body leaves the buffer as
    it found it. -/
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-block rectangles the body loads from and stores to. -/
abbrev whole0_0 : Rect S2000x128 := Rect.unit (s := S2000x128) ![0, 0] S2000x128.size inb_S2000x128_S2000x128_0_0
abbrev whole0_1 : Rect S128x512 := Rect.unit (s := S128x512) ![0, 0] S128x512.size inb_S128x512_S128x512_0_0
abbrev whole0_2 : Rect S1x512 := Rect.unit (s := S1x512) ![0, 0] S1x512.size inb_S1x512_S1x512_0_0
abbrev whole0_3 : Rect S2000x512 := Rect.unit (s := S2000x512) ![0, 0] S2000x512.size inb_S2000x512_S2000x512_0_0

/-- What the body leaves in the output block, as a function of the three input blocks: its one store, of the body's
    arithmetic applied to the three loaded blocks, over the whole block. -/
def result0 (x0 : Vec F S2000x128 .f32) (x1 : Vec F S128x512 .f32) (x2 : Vec F S1x512 .f32) : Vec F S2000x512 .f32 :=
  View.canon [⟨whole0_3, k0_pay1 (View.ld x0 whole0_0) (View.ld x1 whole0_1) (View.ld x2 whole0_2)⟩]

/-- The one store covers the output block: every index of the block lies in the stored rectangle. -/
theorem covers0 (p0 : Vec F S2000x512 .f32) (y : S2000x512.Idx) :
    ∃ pc ∈ ([⟨whole0_3, p0⟩] : List (View.Piece (Elt F) S2000x512 .f32)), y ∈ pc.1.set :=
  View.cover_of_tiled [⟨whole0_3, p0⟩] S2000x512.size (by rfl) y

set_option maxHeartbeats 1000000 in
/-- The body's triple: called on whole staging buffers, the inputs holding `x0 x1 x2` and the output holding anything, it
    runs to its return with the inputs unchanged and the output holding `result0 x0 x1 x2`. -/
theorem body_triple0 (c : Dev nD) (E : Set ℕ) (i : grid0.Coords) (a1 : Memref sig .tc .vmem S2000x128 .f32) (h1 : a1.IsWhole) (a2 : Memref sig .tc .vmem S128x512 .f32) (h2 : a2.IsWhole) (a3 : Memref sig .tc .vmem S1x512 .f32) (h3 : a3.IsWhole) (a4 : Memref sig .tc .vmem S2000x512 .f32) (h4 : a4.IsWhole)
    (x0 : Vec F S2000x128 .f32) (x1 : Vec F S128x512 .f32) (x2 : Vec F S1x512 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (result0 x0 x1 x2)) -∗ K ⟨⟩))
      ⊢ wp frame (wpE (defs₀ (F := F)) Variants.none c none) E (cc0__proj_kernel i a1 h1 a2 h2 a3 h3 a4 h4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-- The pipeline's proof data for this region on core `c`: the arrays are what the region finds; after the body at
    point `t` each input buffer still holds its block and the output buffer holds `result0` of the three input blocks;
    the body keeps nothing of its own between points and owes nothing. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => result0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = result0 (blk0 V c 0 t) (blk0 V c 1 t) (blk0 V c 2 t) := by dsimp only [dat0]

theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d
theorem dat0_before2 (c : Dev nD) (t : Fin cfg0.N) (d) : (dat0 V c).before 2 t d = blk0 V c 2 t :=
  held0_2 V (dat0 V c) (dat0_A V c 2) (dat0_after2 V c) t d

/-- What the pipeline hands the body at point `t`, -/
def pointPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it expects back. -/
def pointPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the input buffers hold the point's blocks, so the body's triple applies; what the
    body does not touch passes through. -/
theorem point_run0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (body_triple0 c Set.univ (grid0.coords t) _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation, at every point. -/
theorem obligation0 (c : Dev nD) : BodyObligation (dat0 (F := F) V c) (defs₀ (F := F)) Variants.none () Set.univ := fun t => by
  rw [bigSep_W0, bigSep_W0]
  exact point_run0 V c t

end Cert.KernelIdeal.Hand

end
-- ==== Proof.KernelIdeal.Region1.lean ====
/-
  Region 1 of @main (the first layer's combine: a block of 5000 summed-message rows plus the matching skip rows plus the 1x128 bias row, clamped below at zero), at any float instance.
  The body reads its three input blocks whole, computes ONE value from them and writes it over the whole output
  block; nothing else in memory is touched. Stated at an arbitrary buffer valuation `V` (what the region finds when
  it is entered): for each window the block a grid point sees, the value the body leaves in the output block as a
  function of the three input blocks, the body's triple, and from these the per-point obligation the pipeline asks for.
-/
import proofs.«176839_j28836410425876_1_alg».proof.Proof.Gen.KernelIdeal.Launch
import proofs.«176839_j28836410425876_1_alg».proof.Proof.Gen.KernelIdeal.Skeleton
import proofs.«176839_j28836410425876_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` sees: the window's rectangle at `t` read out of the window's array as
    the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whenever the body runs, its staging buffer holds the block of the current point — also at points
    where the pipeline did not fetch it, because then the block index has not moved and the body leaves the buffer as
    it found it. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1: whenever the body runs, its staging buffer holds the block of the current point — also at points
    where the pipeline did not fetch it, because then the block index has not moved and the body leaves the buffer as
    it found it. -/
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2: whenever the body runs, its staging buffer holds the block of the current point — also at points
    where the pipeline did not fetch it, because then the block index has not moved and the body leaves the buffer as
    it found it. -/
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole-block rectangles the body loads from and stores to. -/
abbrev whole1_0 : Rect S5000x128 := Rect.unit (s := S5000x128) ![0, 0] S5000x128.size inb_S5000x128_S5000x128_0_0
abbrev whole1_1 : Rect S5000x128 := Rect.unit (s := S5000x128) ![0, 0] S5000x128.size inb_S5000x128_S5000x128_0_0
abbrev whole1_2 : Rect S1x128 := Rect.unit (s := S1x128) ![0, 0] S1x128.size inb_S1x128_S1x128_0_0
abbrev whole1_3 : Rect S5000x128 := Rect.unit (s := S5000x128) ![0, 0] S5000x128.size inb_S5000x128_S5000x128_0_0

/-- What the body leaves in the output block, as a function of the three input blocks: its one store, of the body's
    arithmetic applied to the three loaded blocks, over the whole block. -/
def result1 (x0 : Vec F S5000x128 .f32) (x1 : Vec F S5000x128 .f32) (x2 : Vec F S1x128 .f32) : Vec F S5000x128 .f32 :=
  View.canon [⟨whole1_3, k1_pay1 (View.ld x0 whole1_0) (View.ld x1 whole1_1) (View.ld x2 whole1_2)⟩]

/-- The one store covers the output block: every index of the block lies in the stored rectangle. -/
theorem covers1 (p0 : Vec F S5000x128 .f32) (y : S5000x128.Idx) :
    ∃ pc ∈ ([⟨whole1_3, p0⟩] : List (View.Piece (Elt F) S5000x128 .f32)), y ∈ pc.1.set :=
  View.cover_of_tiled [⟨whole1_3, p0⟩] S5000x128.size (by rfl) y

set_option maxHeartbeats 1000000 in
/-- The body's triple: called on whole staging buffers, the inputs holding `x0 x1 x2` and the output holding anything, it
    runs to its return with the inputs unchanged and the output holding `result1 x0 x1 x2`. -/
theorem body_triple1 (c : Dev nD) (E : Set ℕ) (i : grid1.Coords) (a1 : Memref sig .tc .vmem S5000x128 .f32) (h1 : a1.IsWhole) (a2 : Memref sig .tc .vmem S5000x128 .f32) (h2 : a2.IsWhole) (a3 : Memref sig .tc .vmem S1x128 .f32) (h3 : a3.IsWhole) (a4 : Memref sig .tc .vmem S5000x128 .f32) (h4 : a4.IsWhole)
    (x0 : Vec F S5000x128 .f32) (x1 : Vec F S5000x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (result1 x0 x1 x2)) -∗ K ⟨⟩))
      ⊢ wp frame (wpE (defs₀ (F := F)) Variants.none c none) E (cc1__combine_kernel i a1 h1 a2 h2 a3 h3 a4 h4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-- The pipeline's proof data for this region on core `c`: the arrays are what the region finds; after the body at
    point `t` each input buffer still holds its block and the output buffer holds `result1` of the three input blocks;
    the body keeps nothing of its own between points and owes nothing. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => result1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = result1 (blk1 V c 0 t) (blk1 V c 1 t) (blk1 V c 2 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d

/-- What the pipeline hands the body at point `t`, -/
def pointPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it expects back. -/
def pointPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the input buffers hold the point's blocks, so the body's triple applies; what the
    body does not touch passes through. -/
theorem point_run1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [dat1_before0, dat1_before1, dat1_before2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body_triple1 c Set.univ (grid1.coords t) _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation, at every point. -/
theorem obligation1 (c : Dev nD) : BodyObligation (dat1 (F := F) V c) (defs₀ (F := F)) Variants.none () Set.univ := fun t => by
  rw [bigSep_W1, bigSep_W1]
  exact point_run1 V c t

end Cert.KernelIdeal.Hand

end
-- ==== Proof.KernelIdeal.Region2.lean ====
/-
  Region 2 of @main (the second layer's fused projection: a block of 2000 node rows times the 128x512 weight matrix, plus the 1x512 bias row), at any float instance.
  The body reads its three input blocks whole, computes ONE value from them and writes it over the whole output
  block; nothing else in memory is touched. Stated at an arbitrary buffer valuation `V` (what the region finds when
  it is entered): for each window the block a grid point sees, the value the body leaves in the output block as a
  function of the three input blocks, the body's triple, and from these the per-point obligation the pipeline asks for.
-/
import proofs.«176839_j28836410425876_1_alg».proof.Proof.Gen.KernelIdeal.Launch
import proofs.«176839_j28836410425876_1_alg».proof.Proof.Gen.KernelIdeal.Skeleton
import proofs.«176839_j28836410425876_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` sees: the window's rectangle at `t` read out of the window's array as
    the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whenever the body runs, its staging buffer holds the block of the current point — also at points
    where the pipeline did not fetch it, because then the block index has not moved and the body leaves the buffer as
    it found it. -/
theorem held2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1: whenever the body runs, its staging buffer holds the block of the current point — also at points
    where the pipeline did not fetch it, because then the block index has not moved and the body leaves the buffer as
    it found it. -/
theorem held2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2: whenever the body runs, its staging buffer holds the block of the current point — also at points
    where the pipeline did not fetch it, because then the block index has not moved and the body leaves the buffer as
    it found it. -/
theorem held2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole-block rectangles the body loads from and stores to. -/
abbrev whole2_0 : Rect S2000x128 := Rect.unit (s := S2000x128) ![0, 0] S2000x128.size inb_S2000x128_S2000x128_0_0
abbrev whole2_1 : Rect S128x512 := Rect.unit (s := S128x512) ![0, 0] S128x512.size inb_S128x512_S128x512_0_0
abbrev whole2_2 : Rect S1x512 := Rect.unit (s := S1x512) ![0, 0] S1x512.size inb_S1x512_S1x512_0_0
abbrev whole2_3 : Rect S2000x512 := Rect.unit (s := S2000x512) ![0, 0] S2000x512.size inb_S2000x512_S2000x512_0_0

/-- What the body leaves in the output block, as a function of the three input blocks: its one store, of the body's
    arithmetic applied to the three loaded blocks, over the whole block. -/
def result2 (x0 : Vec F S2000x128 .f32) (x1 : Vec F S128x512 .f32) (x2 : Vec F S1x512 .f32) : Vec F S2000x512 .f32 :=
  View.canon [⟨whole2_3, k2_pay1 (View.ld x0 whole2_0) (View.ld x1 whole2_1) (View.ld x2 whole2_2)⟩]

/-- The one store covers the output block: every index of the block lies in the stored rectangle. -/
theorem covers2 (p0 : Vec F S2000x512 .f32) (y : S2000x512.Idx) :
    ∃ pc ∈ ([⟨whole2_3, p0⟩] : List (View.Piece (Elt F) S2000x512 .f32)), y ∈ pc.1.set :=
  View.cover_of_tiled [⟨whole2_3, p0⟩] S2000x512.size (by rfl) y

set_option maxHeartbeats 1000000 in
/-- The body's triple: called on whole staging buffers, the inputs holding `x0 x1 x2` and the output holding anything, it
    runs to its return with the inputs unchanged and the output holding `result2 x0 x1 x2`. -/
theorem body_triple2 (c : Dev nD) (E : Set ℕ) (i : grid2.Coords) (a1 : Memref sig .tc .vmem S2000x128 .f32) (h1 : a1.IsWhole) (a2 : Memref sig .tc .vmem S128x512 .f32) (h2 : a2.IsWhole) (a3 : Memref sig .tc .vmem S1x512 .f32) (h3 : a3.IsWhole) (a4 : Memref sig .tc .vmem S2000x512 .f32) (h4 : a4.IsWhole)
    (x0 : Vec F S2000x128 .f32) (x1 : Vec F S128x512 .f32) (x2 : Vec F S1x512 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (result2 x0 x1 x2)) -∗ K ⟨⟩))
      ⊢ wp frame (wpE (defs₀ (F := F)) Variants.none c none) E (cc2__proj_kernel i a1 h1 a2 h2 a3 h3 a4 h4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-- The pipeline's proof data for this region on core `c`: the arrays are what the region finds; after the body at
    point `t` each input buffer still holds its block and the output buffer holds `result2` of the three input blocks;
    the body keeps nothing of its own between points and owes nothing. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => result2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) :
    (dat2 V c).after 3 t = result2 (blk2 V c 0 t) (blk2 V c 1 t) (blk2 V c 2 t) := by dsimp only [dat2]

theorem dat2_before0 (c : Dev nD) (t : Fin cfg2.N) (d) : (dat2 V c).before 0 t d = blk2 V c 0 t :=
  held2_0 V (dat2 V c) (dat2_A V c 0) (dat2_after0 V c) t d
theorem dat2_before1 (c : Dev nD) (t : Fin cfg2.N) (d) : (dat2 V c).before 1 t d = blk2 V c 1 t :=
  held2_1 V (dat2 V c) (dat2_A V c 1) (dat2_after1 V c) t d
theorem dat2_before2 (c : Dev nD) (t : Fin cfg2.N) (d) : (dat2 V c).before 2 t d = blk2 V c 2 t :=
  held2_2 V (dat2 V c) (dat2_A V c 2) (dat2_after2 V c) t d

/-- What the pipeline hands the body at point `t`, -/
def pointPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it expects back. -/
def pointPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the input buffers hold the point's blocks, so the body's triple applies; what the
    body does not touch passes through. -/
theorem point_run2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (body_triple2 c Set.univ (grid2.coords t) _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation, at every point. -/
theorem obligation2 (c : Dev nD) : BodyObligation (dat2 (F := F) V c) (defs₀ (F := F)) Variants.none () Set.univ := fun t => by
  rw [bigSep_W2, bigSep_W2]
  exact point_run2 V c t

end Cert.KernelIdeal.Hand

end
-- ==== Proof.KernelIdeal.Region3.lean ====
/-
  Region 3 of @main (the second layer's combine: a block of 5000 summed-message rows plus the matching skip rows plus the 1x128 bias row, clamped below at zero), at any float instance.
  The body reads its three input blocks whole, computes ONE value from them and writes it over the whole output
  block; nothing else in memory is touched. Stated at an arbitrary buffer valuation `V` (what the region finds when
  it is entered): for each window the block a grid point sees, the value the body leaves in the output block as a
  function of the three input blocks, the body's triple, and from these the per-point obligation the pipeline asks for.
-/
import proofs.«176839_j28836410425876_1_alg».proof.Proof.Gen.KernelIdeal.Launch
import proofs.«176839_j28836410425876_1_alg».proof.Proof.Gen.KernelIdeal.Skeleton
import proofs.«176839_j28836410425876_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` sees: the window's rectangle at `t` read out of the window's array as
    the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whenever the body runs, its staging buffer holds the block of the current point — also at points
    where the pipeline did not fetch it, because then the block index has not moved and the body leaves the buffer as
    it found it. -/
theorem held3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1: whenever the body runs, its staging buffer holds the block of the current point — also at points
    where the pipeline did not fetch it, because then the block index has not moved and the body leaves the buffer as
    it found it. -/
theorem held3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2: whenever the body runs, its staging buffer holds the block of the current point — also at points
    where the pipeline did not fetch it, because then the block index has not moved and the body leaves the buffer as
    it found it. -/
theorem held3_2 {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- The whole-block rectangles the body loads from and stores to. -/
abbrev whole3_0 : Rect S5000x128 := Rect.unit (s := S5000x128) ![0, 0] S5000x128.size inb_S5000x128_S5000x128_0_0
abbrev whole3_1 : Rect S5000x128 := Rect.unit (s := S5000x128) ![0, 0] S5000x128.size inb_S5000x128_S5000x128_0_0
abbrev whole3_2 : Rect S1x128 := Rect.unit (s := S1x128) ![0, 0] S1x128.size inb_S1x128_S1x128_0_0
abbrev whole3_3 : Rect S5000x128 := Rect.unit (s := S5000x128) ![0, 0] S5000x128.size inb_S5000x128_S5000x128_0_0

/-- What the body leaves in the output block, as a function of the three input blocks: its one store, of the body's
    arithmetic applied to the three loaded blocks, over the whole block. -/
def result3 (x0 : Vec F S5000x128 .f32) (x1 : Vec F S5000x128 .f32) (x2 : Vec F S1x128 .f32) : Vec F S5000x128 .f32 :=
  View.canon [⟨whole3_3, k3_pay1 (View.ld x0 whole3_0) (View.ld x1 whole3_1) (View.ld x2 whole3_2)⟩]

/-- The one store covers the output block: every index of the block lies in the stored rectangle. -/
theorem covers3 (p0 : Vec F S5000x128 .f32) (y : S5000x128.Idx) :
    ∃ pc ∈ ([⟨whole3_3, p0⟩] : List (View.Piece (Elt F) S5000x128 .f32)), y ∈ pc.1.set :=
  View.cover_of_tiled [⟨whole3_3, p0⟩] S5000x128.size (by rfl) y

set_option maxHeartbeats 1000000 in
/-- The body's triple: called on whole staging buffers, the inputs holding `x0 x1 x2` and the output holding anything, it
    runs to its return with the inputs unchanged and the output holding `result3 x0 x1 x2`. -/
theorem body_triple3 (c : Dev nD) (E : Set ℕ) (i : grid3.Coords) (a1 : Memref sig .tc .vmem S5000x128 .f32) (h1 : a1.IsWhole) (a2 : Memref sig .tc .vmem S5000x128 .f32) (h2 : a2.IsWhole) (a3 : Memref sig .tc .vmem S1x128 .f32) (h3 : a3.IsWhole) (a4 : Memref sig .tc .vmem S5000x128 .f32) (h4 : a4.IsWhole)
    (x0 : Vec F S5000x128 .f32) (x1 : Vec F S5000x128 .f32) (x2 : Vec F S1x128 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (result3 x0 x1 x2)) -∗ K ⟨⟩))
      ⊢ wp frame (wpE (defs₀ (F := F)) Variants.none c none) E (cc3__combine_kernel i a1 h1 a2 h2 a3 h3 a4 h4) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers3 _)

/-- The pipeline's proof data for this region on core `c`: the arrays are what the region finds; after the body at
    point `t` each input buffer still holds its block and the output buffer holds `result3` of the three input blocks;
    the body keeps nothing of its own between points and owes nothing. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => result3 (blk3 V c 0 t) (blk3 V c 1 t) (blk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) :
    (dat3 V c).after 3 t = result3 (blk3 V c 0 t) (blk3 V c 1 t) (blk3 V c 2 t) := by dsimp only [dat3]

theorem dat3_before0 (c : Dev nD) (t : Fin cfg3.N) (d) : (dat3 V c).before 0 t d = blk3 V c 0 t :=
  held3_0 V (dat3 V c) (dat3_A V c 0) (dat3_after0 V c) t d
theorem dat3_before1 (c : Dev nD) (t : Fin cfg3.N) (d) : (dat3 V c).before 1 t d = blk3 V c 1 t :=
  held3_1 V (dat3 V c) (dat3_A V c 1) (dat3_after1 V c) t d
theorem dat3_before2 (c : Dev nD) (t : Fin cfg3.N) (d) : (dat3 V c).before 2 t d = blk3 V c 2 t :=
  held3_2 V (dat3 V c) (dat3_A V c 2) (dat3_after2 V c) t d

/-- What the pipeline hands the body at point `t`, -/
def pointPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it expects back. -/
def pointPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any grid point: the input buffers hold the point's blocks, so the body's triple applies; what the
    body does not touch passes through. -/
theorem point_run3 (c : Dev nD) (t : Fin cfg3.N) :
    pointPre3 V c t ⊢ wp frame (wpE (defs₀ (F := F)) Variants.none c none) Set.univ (bodyAt3 t) (fun _ => pointPost3 V c t) := by
  unfold pointPre3 pointPost3 bodyAt3
  simp only [dat3_before0, dat3_before1, dat3_before2]
  rw [show (dat3 V c).Φ t.succ = (dat3 V c).Φ t.castSucc from rfl,
    show (dat3 V c).owesAt () t.succ = (dat3 V c).owesAt () t.castSucc from rfl,
    dat3_after0, dat3_after1, dat3_after2, dat3_after3]
  iintro ⟨HΦ, Ho, ⟨%d0, H0⟩, ⟨%d1, H1⟩, ⟨%d2, H2⟩, ⟨%d3, H3⟩⟩
  iapply (body_triple3 c Set.univ (grid3.coords t) _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation, at every point. -/
theorem obligation3 (c : Dev nD) : BodyObligation (dat3 (F := F) V c) (defs₀ (F := F)) Variants.none () Set.univ := fun t => by
  rw [bigSep_W3, bigSep_W3]
  exact point_run3 V c t

end Cert.KernelIdeal.Hand

end
-- ==== Proof.KernelIdeal.Region4.lean ====
/-
  Region 4 of @main (the final linear layer: the 64 pooled rows times the 128x10 weight matrix, plus the 1x10 bias row), at any float instance.
  The body reads its three input blocks whole, computes ONE value from them and writes it over the whole output
  block; nothing else in memory is touched. Stated at an arbitrary buffer valuation `V` (what the region finds when
  it is entered): for each window the block a grid point sees, the value the body leaves in the output block as a
  function of the three input blocks, the body's triple, and from these the per-point obligation the pipeline asks for.
-/
import proofs.«176839_j28836410425876_1_alg».proof.Proof.Gen.KernelIdeal.Launch
import proofs.«176839_j28836410425876_1_alg».proof.Proof.Gen.KernelIdeal.Skeleton
import proofs.«176839_j28836410425876_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` sees: the window's rectangle at `t` read out of the window's array as
    the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: whenever the body runs, its staging buffer holds the block of the current point — also at points
    where the pipeline did not fetch it, because then the block index has not moved and the body leaves the buffer as
    it found it. -/
theorem held4_0 {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- Input window 1: whenever the body runs, its staging buffer holds the block of the current point — also at points
    where the pipeline did not fetch it, because then the block index has not moved and the body leaves the buffer as
    it found it. -/
theorem held4_1 {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- Input window 2: whenever the body runs, its staging buffer holds the block of the current point — also at points
    where the pipeline did not fetch it, because then the block index has not moved and the body leaves the buffer as
    it found it. -/
theorem held4_2 {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-- The whole-block rectangles the body loads from and stores to. -/
abbrev whole4_0 : Rect S64x128 := Rect.unit (s := S64x128) ![0, 0] S64x128.size inb_S64x128_S64x128_0_0
abbrev whole4_1 : Rect S128x10 := Rect.unit (s := S128x10) ![0, 0] S128x10.size inb_S128x10_S128x10_0_0
abbrev whole4_2 : Rect S1x10 := Rect.unit (s := S1x10) ![0, 0] S1x10.size inb_S1x10_S1x10_0_0
abbrev whole4_3 : Rect S64x10 := Rect.unit (s := S64x10) ![0, 0] S64x10.size inb_S64x10_S64x10_0_0

/-- What the body leaves in the output block, as a function of the three input blocks: its one store, of the body's
    arithmetic applied to the three loaded blocks, over the whole block. -/
def result4 (x0 : Vec F S64x128 .f32) (x1 : Vec F S128x10 .f32) (x2 : Vec F S1x10 .f32) : Vec F S64x10 .f32 :=
  View.canon [⟨whole4_3, k4_pay1 (View.ld x0 whole4_0) (View.ld x1 whole4_1) (View.ld x2 whole4_2)⟩]

/-- The one store covers the output block: every index of the block lies in the stored rectangle. -/
theorem covers4 (p0 : Vec F S64x10 .f32) (y : S64x10.Idx) :
    ∃ pc ∈ ([⟨whole4_3, p0⟩] : List (View.Piece (Elt F) S64x10 .f32)), y ∈ pc.1.set :=
  View.cover_of_tiled [⟨whole4_3, p0⟩] S64x10.size (by rfl) y

set_option maxHeartbeats 1000000 in
/-- The body's triple: called on whole staging buffers, the inputs holding `x0 x1 x2` and the output holding anything, it
    runs to its return with the inputs unchanged and the output holding `result4 x0 x1 x2`. -/
theorem body_triple4 (c : Dev nD) (E : Set ℕ) (i : grid4.Coords) (a1 : Memref sig .tc .vmem S64x128 .f32) (h1 : a1.IsWhole) (a2 : Memref sig .tc .vmem S128x10 .f32) (h2 : a2.IsWhole) (a3 : Memref sig .tc .vmem S1x10 .f32) (h3 : a3.IsWhole) (a4 : Memref sig .tc .vmem S64x10 .f32) (h4 : a4.IsWhole)
    (x0 : Vec F S64x128 .f32) (x1 : Vec F S128x10 .f32) (x2 : Vec F S1x10 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (result4 x0 x1 x2)) -∗ K ⟨⟩))
      ⊢ wp frame (wpE (defs₀ (F := F)) Variants.none c none) E (cc4__fc_kernel i a1 h1 a2 h2 a3 h3 a4 h4) K := by
  simp only [cc4__fc_kernel_eq_skeleton]; unfold cc4__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers4 _)

/-- The pipeline's proof data for this region on core `c`: the arrays are what the region finds; after the body at
    point `t` each input buffer still holds its block and the output buffer holds `result4` of the three input blocks;
    the body keeps nothing of its own between points and owes nothing. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => result4 (blk4 V c 0 t) (blk4 V c 1 t) (blk4 V c 2 t)
  Φ _ := Pipeline.ΦA spec4 c
  q _ := fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) : (dat4 V c).after 2 t = blk4 V c 2 t := by dsimp only [dat4]
theorem dat4_after3 (c : Dev nD) (t : Fin cfg4.N) :
    (dat4 V c).after 3 t = result4 (blk4 V c 0 t) (blk4 V c 1 t) (blk4 V c 2 t) := by dsimp only [dat4]

theorem dat4_before0 (c : Dev nD) (t : Fin cfg4.N) (d) : (dat4 V c).before 0 t d = blk4 V c 0 t :=
  held4_0 V (dat4 V c) (dat4_A V c 0) (dat4_after0 V c) t d
theorem dat4_before1 (c : Dev nD) (t : Fin cfg4.N) (d) : (dat4 V c).before 1 t d = blk4 V c 1 t :=
  held4_1 V (dat4 V c) (dat4_A V c 1) (dat4_after1 V c) t d
theorem dat4_before2 (c : Dev nD) (t : Fin cfg4.N) (d) : (dat4 V c).before 2 t d = blk4 V c 2 t :=
  held4_2 V (dat4 V c) (dat4_A V c 2) (dat4_after2 V c) t d

/-- What the pipeline hands the body at point `t`, -/
def pointPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it expects back. -/
def pointPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any grid point: the input buffers hold the point's blocks, so the body's triple applies; what the
    body does not touch passes through. -/
theorem point_run4 (c : Dev nD) (t : Fin cfg4.N) :
    pointPre4 V c t ⊢ wp frame (wpE (defs₀ (F := F)) Variants.none c none) Set.univ (bodyAt4 t) (fun _ => pointPost4 V c t) := by
  unfold pointPre4 pointPost4 bodyAt4
  simp only [dat4_before0, dat4_before1, dat4_before2]
  rw [show (dat4 V c).Φ t.succ = (dat4 V c).Φ t.castSucc from rfl,
    show (dat4 V c).owesAt () t.succ = (dat4 V c).owesAt () t.castSucc from rfl,
    dat4_after0, dat4_after1, dat4_after2, dat4_after3]
  iintro ⟨HΦ, Ho, ⟨%d0, H0⟩, ⟨%d1, H1⟩, ⟨%d2, H2⟩, ⟨%d3, H3⟩⟩
  iapply (body_triple4 c Set.univ (grid4.coords t) _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's per-point obligation, at every point. -/
theorem obligation4 (c : Dev nD) : BodyObligation (dat4 (F := F) V c) (defs₀ (F := F)) Variants.none () Set.univ := fun t => by
  rw [bigSep_W4, bigSep_W4]
  exact point_run4 V c t

end Cert.KernelIdeal.Hand

end
-- ==== Proof.KernelIdeal.Boundaries.lean ====
/-
  The contents of core `c`'s buffers at every boundary of @main, from the launch memory `m` to the return.
  @main is five stretches of host operations, each followed by a kernel region. A stretch of host operations takes the
  contents to `StableHlo.after` of its operation list. A region changes only its windows' arrays: the three inputs
  stay as they were, and the output array ends holding what the pipeline's write-backs leave there, which is the fold
  `Dat.arrAt … N` over all grid points of the region's proof data taken at the contents the region was entered with.
  Also here: the family of the five regions' proof data, each at its own entry contents.
-/
import proofs.«176839_j28836410425876_1_alg».proof.Proof.KernelIdeal.Region0
import proofs.«176839_j28836410425876_1_alg».proof.Proof.KernelIdeal.Region1
import proofs.«176839_j28836410425876_1_alg».proof.Proof.KernelIdeal.Region2
import proofs.«176839_j28836410425876_1_alg».proof.Proof.KernelIdeal.Region3
import proofs.«176839_j28836410425876_1_alg».proof.Proof.KernelIdeal.Region4
import proofs.«176839_j28836410425876_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the first host stretch: the edge endpoints split out, the four first-layer weight matrices laid side by
    side and the four biases end to end. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its output array holds the first layer's fused projection. -/
def W2 (c : Dev nD) : Valuation τ sig (Elt F) :=
  Pipeline.withArrays spec0 c (W1 m c) fun w => (dat0 (V1 m) c).arrAt w cfg0.N
theorem W2_at (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_off (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_at (c : Dev nD) (w : Fin cfg0.W) : (dat0 (V1 m) c).arrAt w cfg0.N = V2 m c (Pipeline.arrRef spec0 w) :=
  (W2_at m c w).symm
theorem exit0_off (c : Dev nD) : ∀ b, b ∉ Finset.univ.image (Pipeline.arrRef spec0) → V2 m c b = V1 m c b :=
  fun b hb => W2_off m c b fun w e => hb (Finset.mem_image.mpr ⟨w, Finset.mem_univ _, e⟩)

/-- After the second host stretch: the projection cut into its four column groups, the gated messages along the edges
    and their sums per target node. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: its output array holds the first layer's node features. -/
def W4 (c : Dev nD) : Valuation τ sig (Elt F) :=
  Pipeline.withArrays spec1 c (W3 m c) fun w => (dat1 (V3 m) c).arrAt w cfg1.N
theorem W4_at (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exit1_at (c : Dev nD) (w : Fin cfg1.W) : (dat1 (V3 m) c).arrAt w cfg1.N = V4 m c (Pipeline.arrRef spec1 w) :=
  (W4_at m c w).symm
theorem exit1_off (c : Dev nD) : ∀ b, b ∉ Finset.univ.image (Pipeline.arrRef spec1) → V4 m c b = V3 m c b :=
  fun b hb => W4_off m c b fun w e => hb (Finset.mem_image.mpr ⟨w, Finset.mem_univ _, e⟩)

/-- After the third host stretch: the second layer's weights and biases laid out. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region 2: its output array holds the second layer's fused projection. -/
def W6 (c : Dev nD) : Valuation τ sig (Elt F) :=
  Pipeline.withArrays spec2 c (W5 m c) fun w => (dat2 (V5 m) c).arrAt w cfg2.N
theorem W6_at (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_off (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem exit2_at (c : Dev nD) (w : Fin cfg2.W) : (dat2 (V5 m) c).arrAt w cfg2.N = V6 m c (Pipeline.arrRef spec2 w) :=
  (W6_at m c w).symm
theorem exit2_off (c : Dev nD) : ∀ b, b ∉ Finset.univ.image (Pipeline.arrRef spec2) → V6 m c b = V5 m c b :=
  fun b hb => W6_off m c b fun w e => hb (Finset.mem_image.mpr ⟨w, Finset.mem_univ _, e⟩)

/-- After the fourth host stretch: the second layer's gated messages summed per target node. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- After region 3: its output array holds the second layer's node features. -/
def W8 (c : Dev nD) : Valuation τ sig (Elt F) :=
  Pipeline.withArrays spec3 c (W7 m c) fun w => (dat3 (V7 m) c).arrAt w cfg3.N
theorem W8_at (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_off (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem exit3_at (c : Dev nD) (w : Fin cfg3.W) : (dat3 (V7 m) c).arrAt w cfg3.N = V8 m c (Pipeline.arrRef spec3 w) :=
  (W8_at m c w).symm
theorem exit3_off (c : Dev nD) : ∀ b, b ∉ Finset.univ.image (Pipeline.arrRef spec3) → V8 m c b = V7 m c b :=
  fun b hb => W8_off m c b fun w e => hb (Finset.mem_image.mpr ⟨w, Finset.mem_univ _, e⟩)

/-- After the fifth host stretch: the node features averaged per graph. -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b
/-- After region 4, at the return: its output array holds the result. -/
def W10 (c : Dev nD) : Valuation τ sig (Elt F) :=
  Pipeline.withArrays spec4 c (W9 m c) fun w => (dat4 (V9 m) c).arrAt w cfg4.N
theorem W10_at (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_off (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem exit4_at (c : Dev nD) (w : Fin cfg4.W) : (dat4 (V9 m) c).arrAt w cfg4.N = V10 m c (Pipeline.arrRef spec4 w) :=
  (W10_at m c w).symm
theorem exit4_off (c : Dev nD) : ∀ b, b ∉ Finset.univ.image (Pipeline.arrRef spec4) → V10 m c b = V9 m c b :=
  fun b hb => W10_off m c b fun w e => hb (Finset.mem_image.mpr ⟨w, Finset.mem_univ _, e⟩)

/-- The five regions' proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c

abbrev noVariants : Variants := Variants.none
/-- No core waits on another: no level is assigned anywhere. -/
abbrev noLevels : GSem nD τ sig → Finset Unit := fun _ => ∅
abbrev levelZero : GSem nD τ sig → Unit → ℕ := fun _ _ => 0

/-- What a core carries beside its buffers from boundary to boundary: its generator register in some state, and that it
    owes nothing. -/
abbrev carried (c : Dev nD) : sProp 𝕄 := iprop((∃ r, prngReg c r) ∗ ∃ W, owes (c : Thread nD τ) (0 : CellTallies nD τ sig Unit) W)

/-- A stretch of host operations as a segment of @main over all unscoped buffers, from contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KernelIdeal.Segment0.lean ====
/-
  Region 0 as a segment of @main: entered with every unscoped buffer at the contents after the first host stretch,
  left with them at the contents after the region. On entry the region's four arrays are taken out of the unscoped
  buffers and the generator register goes into the pipeline's invariant; on exit the arrays, now at what the write-backs
  left, are put back beside the untouched rest, and the register comes back. The core owes nothing before or after,
  and the kernel has no semaphore of its own.
-/
import proofs.«176839_j28836410425876_1_alg».proof.Proof.KernelIdeal.Boundaries

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def region0 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ noLevels levelZero 0 fun _ _ => rfl
  pre c := iprop(StableHlo.held (c : Thread nD τ) (Pipeline.ucRefs τ sig) (W1 m c) ∗ carried c)
  post c := iprop(StableHlo.held (c : Thread nD τ) (Pipeline.ucRefs τ sig) (W2 m c) ∗ carried c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_at m c) (exit0_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Segment1.lean ====
/-
  Region 1 as a segment of @main: entered with every unscoped buffer at the contents after the second host stretch,
  left with them at the contents after the region. On entry the region's four arrays are taken out of the unscoped
  buffers and the generator register goes into the pipeline's invariant; on exit the arrays, now at what the write-backs
  left, are put back beside the untouched rest, and the register comes back. The core owes nothing before or after,
  and the kernel has no semaphore of its own.
-/
import proofs.«176839_j28836410425876_1_alg».proof.Proof.KernelIdeal.Boundaries

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def region1 : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (obligation1 (V3 m) c).loose
  hwaits := Pipeline.hwaits_of_owed_zero _ _ _ _ noLevels levelZero 1 fun _ _ => rfl
  pre c := iprop(StableHlo.held (c : Thread nD τ) (Pipeline.ucRefs τ sig) (W3 m c) ∗ carried c)
  post c := iprop(StableHlo.held (c : Thread nD τ) (Pipeline.ucRefs τ sig) (W4 m c) ∗ carried c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exit1_at m c) (exit1_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Segment2.lean ====
/-
  Region 2 as a segment of @main: entered with every unscoped buffer at the contents after the third host stretch,
  left with them at the contents after the region. On entry the region's four arrays are taken out of the unscoped
  buffers and the generator register goes into the pipeline's invariant; on exit the arrays, now at what the write-backs
  left, are put back beside the untouched rest, and the register comes back. The core owes nothing before or after,
  and the kernel has no semaphore of its own.
-/
import proofs.«176839_j28836410425876_1_alg».proof.Proof.KernelIdeal.Boundaries

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def region2 : Pipeline.RegionSeg (pcfgs (F := F)) adm (pdats m) () defs₀ noVariants noLevels levelZero 2 where
  win := launch2.win.to₀
  block_pos := launch2.block_pos
  stage_whole := launch2.stage_whole
  K := PEmpty
  osem k := k.elim
  ho := Pipeline.OwnSemFacts.none _
  hbody c := (obligation2 (V5 m) c).loose
  hwaits := Pipeline.hwaits_of_owed_zero _ _ _ _ noLevels levelZero 2 fun _ _ => rfl
  pre c := iprop(StableHlo.held (c : Thread nD τ) (Pipeline.ucRefs τ sig) (W5 m c) ∗ carried c)
  post c := iprop(StableHlo.held (c : Thread nD τ) (Pipeline.ucRefs τ sig) (W6 m c) ∗ carried c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (exit2_at m c) (exit2_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Segment3.lean ====
/-
  Region 3 as a segment of @main: entered with every unscoped buffer at the contents after the fourth host stretch,
  left with them at the contents after the region. On entry the region's four arrays are taken out of the unscoped
  buffers and the generator register goes into the pipeline's invariant; on exit the arrays, now at what the write-backs
  left, are put back beside the untouched rest, and the register comes back. The core owes nothing before or after,
  and the kernel has no semaphore of its own.
-/
import proofs.«176839_j28836410425876_1_alg».proof.Proof.KernelIdeal.Boundaries

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def region3 : Pipeline.RegionSeg (pcfgs (F := F)) adm (pdats m) () defs₀ noVariants noLevels levelZero 3 where
  win := launch3.win.to₀
  block_pos := launch3.block_pos
  stage_whole := launch3.stage_whole
  K := PEmpty
  osem k := k.elim
  ho := Pipeline.OwnSemFacts.none _
  hbody c := (obligation3 (V7 m) c).loose
  hwaits := Pipeline.hwaits_of_owed_zero _ _ _ _ noLevels levelZero 3 fun _ _ => rfl
  pre c := iprop(StableHlo.held (c : Thread nD τ) (Pipeline.ucRefs τ sig) (W7 m c) ∗ carried c)
  post c := iprop(StableHlo.held (c : Thread nD τ) (Pipeline.ucRefs τ sig) (W8 m c) ∗ carried c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (exit3_at m c) (exit3_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Segment4.lean ====
/-
  Region 4 as a segment of @main: entered with every unscoped buffer at the contents after the fifth host stretch,
  left with them at the contents after the region. On entry the region's four arrays are taken out of the unscoped
  buffers and the generator register goes into the pipeline's invariant; on exit the arrays, now at what the write-backs
  left, are put back beside the untouched rest, and the register comes back. The core owes nothing before or after,
  and the kernel has no semaphore of its own.
-/
import proofs.«176839_j28836410425876_1_alg».proof.Proof.KernelIdeal.Boundaries

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def region4 : Pipeline.RegionSeg (pcfgs (F := F)) adm (pdats m) () defs₀ noVariants noLevels levelZero 4 where
  win := launch4.win.to₀
  block_pos := launch4.block_pos
  stage_whole := launch4.stage_whole
  K := PEmpty
  osem k := k.elim
  ho := Pipeline.OwnSemFacts.none _
  hbody c := (obligation4 (V9 m) c).loose
  hwaits := Pipeline.hwaits_of_owed_zero _ _ _ _ noLevels levelZero 4 fun _ _ => rfl
  pre c := iprop(StableHlo.held (c : Thread nD τ) (Pipeline.ucRefs τ sig) (W9 m c) ∗ carried c)
  post c := iprop(StableHlo.held (c : Thread nD τ) (Pipeline.ucRefs τ sig) (W10 m c) ∗ carried c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (exit4_at m c) (exit4_off m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Run.lean ====
/-
  @main from launch to return: five stretches of host operations alternating with the five kernel regions, chained
  through the buffer contents at each boundary. Every weakly fair execution terminates without a fault, and at the
  end every unscoped buffer holds the last boundary's contents. Two consequences: the result buffer holds what region
  4's write-backs leave, and each argument array — which no host operation writes and no region outputs — holds what
  it held at launch.
-/
import proofs.«176839_j28836410425876_1_alg».proof.Proof.KernelIdeal.Segment0
import proofs.«176839_j28836410425876_1_alg».proof.Proof.KernelIdeal.Segment1
import proofs.«176839_j28836410425876_1_alg».proof.Proof.KernelIdeal.Segment2
import proofs.«176839_j28836410425876_1_alg».proof.Proof.KernelIdeal.Segment3
import proofs.«176839_j28836410425876_1_alg».proof.Proof.KernelIdeal.Segment4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's ten segments in order. -/
abbrev segments : List (Pipeline.Seg (pcfgs (F := F)) adm (pdats m) () defs₀ noVariants noLevels levelZero) :=
  [ .host (hostStretch hostOps0 hostOps0_sub hostOps0_fresh (W0 m)),
    .region (region0 m),
    .host (hostStretch hostOps1 hostOps1_sub hostOps1_fresh (W2 m)),
    .region (region1 m),
    .host (hostStretch hostOps2 hostOps2_sub hostOps2_fresh (W4 m)),
    .region (region2 m),
    .host (hostStretch hostOps3 hostOps3_sub hostOps3_fresh (W6 m)),
    .region (region3 m),
    .host (hostStretch hostOps4 hostOps4_sub hostOps4_fresh (W8 m)),
    .region (region4 m) ]

/-- @main is the run of these segments. -/
theorem main_is_segments (c : Dev nD) : main (F := F) c = Pipeline.Seg.run (segments m) := (main_chain c).trans (by chain_rfl)

set_option backward.isDefEq.respectTransparency.types false in
/-- Every weakly fair execution of @main from memory `m` terminates, nothing faulting, with every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ noVariants noLevels levelZero m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ carried c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun c => by
        show (iprop(StableHlo.held (c : Thread nD τ) (Pipeline.ucRefs τ sig) (W10 m c)
          ∗ (∃ r, prngReg c r) ∗ ∃ W, owes (c : Thread nD τ) (0 : CellTallies nD τ sig Unit) W) : sProp 𝕄) ⊢ _
        iintro ⟨Hh, Hp, Ho⟩
        isplitl [Hh Hp]
        · isplitl [Hh]; · iexact Hh
          iexact Hp
        iexact Ho⟩)
    (hinit := by
      refine Pipeline.initEach noLevels levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## What a region leaves alone -/

/-- Region 0 changes only its output array: an input window's array ends as it was entered, and every other buffer
    is untouched. -/
theorem W2_keep (c : Dev nD) (b : Ref sig .tc) (hb : b ≠ Pipeline.arrRef spec0 3) : W2 m c (Proc.devRef .tc b) = W1 m c (Proc.devRef .tc b) := by
  by_cases h : ∃ w, Pipeline.arrRef spec0 w = b
  · obtain ⟨w, rfl⟩ := h
    match w with
    | ⟨0, _⟩ => exact (W2_at m c 0).trans (((dat0 (V1 m) c).arrAt_in 0 rfl _).trans (dat0_A (V1 m) c 0))
    | ⟨1, _⟩ => exact (W2_at m c 1).trans (((dat0 (V1 m) c).arrAt_in 1 rfl _).trans (dat0_A (V1 m) c 1))
    | ⟨2, _⟩ => exact (W2_at m c 2).trans (((dat0 (V1 m) c).arrAt_in 2 rfl _).trans (dat0_A (V1 m) c 2))
    | ⟨3, _⟩ => exact absurd rfl hb
  · exact W2_off m c b fun w e => h ⟨w, e⟩
theorem W4_keep (c : Dev nD) (b : Ref sig .tc) (hb : b ≠ Pipeline.arrRef spec1 3) : W4 m c (Proc.devRef .tc b) = W3 m c (Proc.devRef .tc b) := by
  by_cases h : ∃ w, Pipeline.arrRef spec1 w = b
  · obtain ⟨w, rfl⟩ := h
    match w with
    | ⟨0, _⟩ => exact (W4_at m c 0).trans (((dat1 (V3 m) c).arrAt_in 0 rfl _).trans (dat1_A (V3 m) c 0))
    | ⟨1, _⟩ => exact (W4_at m c 1).trans (((dat1 (V3 m) c).arrAt_in 1 rfl _).trans (dat1_A (V3 m) c 1))
    | ⟨2, _⟩ => exact (W4_at m c 2).trans (((dat1 (V3 m) c).arrAt_in 2 rfl _).trans (dat1_A (V3 m) c 2))
    | ⟨3, _⟩ => exact absurd rfl hb
  · exact W4_off m c b fun w e => h ⟨w, e⟩
theorem W6_keep (c : Dev nD) (b : Ref sig .tc) (hb : b ≠ Pipeline.arrRef spec2 3) : W6 m c (Proc.devRef .tc b) = W5 m c (Proc.devRef .tc b) := by
  by_cases h : ∃ w, Pipeline.arrRef spec2 w = b
  · obtain ⟨w, rfl⟩ := h
    match w with
    | ⟨0, _⟩ => exact (W6_at m c 0).trans (((dat2 (V5 m) c).arrAt_in 0 rfl _).trans (dat2_A (V5 m) c 0))
    | ⟨1, _⟩ => exact (W6_at m c 1).trans (((dat2 (V5 m) c).arrAt_in 1 rfl _).trans (dat2_A (V5 m) c 1))
    | ⟨2, _⟩ => exact (W6_at m c 2).trans (((dat2 (V5 m) c).arrAt_in 2 rfl _).trans (dat2_A (V5 m) c 2))
    | ⟨3, _⟩ => exact absurd rfl hb
  · exact W6_off m c b fun w e => h ⟨w, e⟩
theorem W8_keep (c : Dev nD) (b : Ref sig .tc) (hb : b ≠ Pipeline.arrRef spec3 3) : W8 m c (Proc.devRef .tc b) = W7 m c (Proc.devRef .tc b) := by
  by_cases h : ∃ w, Pipeline.arrRef spec3 w = b
  · obtain ⟨w, rfl⟩ := h
    match w with
    | ⟨0, _⟩ => exact (W8_at m c 0).trans (((dat3 (V7 m) c).arrAt_in 0 rfl _).trans (dat3_A (V7 m) c 0))
    | ⟨1, _⟩ => exact (W8_at m c 1).trans (((dat3 (V7 m) c).arrAt_in 1 rfl _).trans (dat3_A (V7 m) c 1))
    | ⟨2, _⟩ => exact (W8_at m c 2).trans (((dat3 (V7 m) c).arrAt_in 2 rfl _).trans (dat3_A (V7 m) c 2))
    | ⟨3, _⟩ => exact absurd rfl hb
  · exact W8_off m c b fun w e => h ⟨w, e⟩
theorem W10_keep (c : Dev nD) (b : Ref sig .tc) (hb : b ≠ Pipeline.arrRef spec4 3) : W10 m c (Proc.devRef .tc b) = W9 m c (Proc.devRef .tc b) := by
  by_cases h : ∃ w, Pipeline.arrRef spec4 w = b
  · obtain ⟨w, rfl⟩ := h
    match w with
    | ⟨0, _⟩ => exact (W10_at m c 0).trans (((dat4 (V9 m) c).arrAt_in 0 rfl _).trans (dat4_A (V9 m) c 0))
    | ⟨1, _⟩ => exact (W10_at m c 1).trans (((dat4 (V9 m) c).arrAt_in 1 rfl _).trans (dat4_A (V9 m) c 1))
    | ⟨2, _⟩ => exact (W10_at m c 2).trans (((dat4 (V9 m) c).arrAt_in 2 rfl _).trans (dat4_A (V9 m) c 2))
    | ⟨3, _⟩ => exact absurd rfl hb
  · exact W10_off m c b fun w e => h ⟨w, e⟩

/-- A buffer that no host operation writes and that is no region's output array holds at the end what it held at launch. -/
theorem untouched (c : Dev nD) (b : Ref sig .tc)
    (h0 : b ∉ hostOps0_W) (h1 : b ≠ Pipeline.arrRef spec0 3) (h2 : b ∉ hostOps1_W) (h3 : b ≠ Pipeline.arrRef spec1 3)
    (h4 : b ∉ hostOps2_W) (h5 : b ≠ Pipeline.arrRef spec2 3) (h6 : b ∉ hostOps3_W) (h7 : b ≠ Pipeline.arrRef spec3 3)
    (h8 : b ∉ hostOps4_W) (h9 : b ≠ Pipeline.arrRef spec4 3) :
    W10 m c (Proc.devRef .tc b) = m ((c : Thread nD τ).loc b) :=
  calc W10 m c (Proc.devRef .tc b)
    _ = W9 m c (Proc.devRef .tc b) := W10_keep m c b h9
    _ = W8 m c (Proc.devRef .tc b) := StableHlo.after_of_writes_sub hostOps4 _ hostOps4_writes h8
    _ = W7 m c (Proc.devRef .tc b) := W8_keep m c b h7
    _ = W6 m c (Proc.devRef .tc b) := StableHlo.after_of_writes_sub hostOps3 _ hostOps3_writes h6
    _ = W5 m c (Proc.devRef .tc b) := W6_keep m c b h5
    _ = W4 m c (Proc.devRef .tc b) := StableHlo.after_of_writes_sub hostOps2 _ hostOps2_writes h4
    _ = W3 m c (Proc.devRef .tc b) := W4_keep m c b h3
    _ = W2 m c (Proc.devRef .tc b) := StableHlo.after_of_writes_sub hostOps1 _ hostOps1_writes h2
    _ = W1 m c (Proc.devRef .tc b) := W2_keep m c b h1
    _ = W0 m c (Proc.devRef .tc b) := StableHlo.after_of_writes_sub hostOps0 _ hostOps0_writes h0
    _ = m ((c : Thread nD τ).loc b) := rfl

/-- THE FRAME: @main runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
      (h c _ (unscoped_mem main_arg0 (by decide))).trans (untouched m c main_arg0 (by decide) (by decide) (by decide) (by decide) (by decide) (by decide) (by decide) (by decide) (by decide) (by decide)),
      (h c _ (unscoped_mem main_arg1 (by decide))).trans (untouched m c main_arg1 (by decide) (by decide) (by decide) (by decide) (by decide) (by decide) (by decide) (by decide) (by decide) (by decide)),
      (h c _ (unscoped_mem main_arg2 (by decide))).trans (untouched m c main_arg2 (by decide) (by decide) (by decide) (by decide) (by decide) (by decide) (by decide) (by decide) (by decide) (by decide)),
      (h c _ (unscoped_mem main_arg3 (by decide))).trans (untouched m c main_arg3 (by decide) (by decide) (by decide) (by decide) (by decide) (by decide) (by decide) (by decide) (by decide) (by decide)),
      (h c _ (unscoped_mem main_arg4 (by decide))).trans (untouched m c main_arg4 (by decide) (by decide) (by decide) (by decide) (by decide) (by decide) (by decide) (by decide) (by decide) (by decide)),
      (h c _ (unscoped_mem main_arg5 (by decide))).trans (untouched m c main_arg5 (by decide) (by decide) (by decide) (by decide) (by decide) (by decide) (by decide) (by decide) (by decide) (by decide)),
      (h c _ (unscoped_mem main_arg6 (by decide))).trans (untouched m c main_arg6 (by decide) (by decide) (by decide) (by decide) (by decide) (by decide) (by decide) (by decide) (by decide) (by decide)),
      (h c _ (unscoped_mem main_arg7 (by decide))).trans (untouched m c main_arg7 (by decide) (by decide) (by decide) (by decide) (by decide) (by decide) (by decide) (by decide) (by decide) (by decide)),
      (h c _ (unscoped_mem main_arg8 (by decide))).trans (untouched m c main_arg8 (by decide) (by decide) (by decide) (by decide) (by decide) (by decide) (by decide) (by decide) (by decide) (by decide)),
      (h c _ (unscoped_mem main_arg9 (by decide))).trans (untouched m c main_arg9 (by decide) (by decide) (by decide) (by decide) (by decide) (by decide) (by decide) (by decide) (by decide) (by decide)),
      (h c _ (unscoped_mem main_arg10 (by decide))).trans (untouched m c main_arg10 (by decide) (by decide) (by decide) (by decide) (by decide) (by decide) (by decide) (by decide) (by decide) (by decide)),
      (h c _ (unscoped_mem main_arg11 (by decide))).trans (untouched m c main_arg11 (by decide) (by decide) (by decide) (by decide) (by decide) (by decide) (by decide) (by decide) (by decide) (by decide)),
      (h c _ (unscoped_mem main_arg12 (by decide))).trans (untouched m c main_arg12 (by decide) (by decide) (by decide) (by decide) (by decide) (by decide) (by decide) (by decide) (by decide) (by decide)),
      (h c _ (unscoped_mem main_arg13 (by decide))).trans (untouched m c main_arg13 (by decide) (by decide) (by decide) (by decide) (by decide) (by decide) (by decide) (by decide) (by decide) (by decide)),
      (h c _ (unscoped_mem main_arg14 (by decide))).trans (untouched m c main_arg14 (by decide) (by decide) (by decide) (by decide) (by decide) (by decide) (by decide) (by decide) (by decide) (by decide)),
      (h c _ (unscoped_mem main_arg15 (by decide))).trans (untouched m c main_arg15 (by decide) (by decide) (by decide) (by decide) (by decide) (by decide) (by decide) (by decide) (by decide) (by decide)),
      (h c _ (unscoped_mem main_arg16 (by decide))).trans (untouched m c main_arg16 (by decide) (by decide) (by decide) (by decide) (by decide) (by decide) (by decide) (by decide) (by decide) (by decide)),
      (h c _ (unscoped_mem main_arg17 (by decide))).trans (untouched m c main_arg17 (by decide) (by decide) (by decide) (by decide) (by decide) (by decide) (by decide) (by decide) (by decide) (by decide)),
      (h c _ (unscoped_mem main_arg18 (by decide))).trans (untouched m c main_arg18 (by decide) (by decide) (by decide) (by decide) (by decide) (by decide) (by decide) (by decide) (by decide) (by decide)),
      (h c _ (unscoped_mem main_arg19 (by decide))).trans (untouched m c main_arg19 (by decide) (by decide) (by decide) (by decide) (by decide) (by decide) (by decide) (by decide) (by decide) (by decide)),
      (h c _ (unscoped_mem main_arg20 (by decide))).trans (untouched m c main_arg20 (by decide) (by decide) (by decide) (by decide) (by decide) (by decide) (by decide) (by decide) (by decide) (by decide)),
      (h c _ (unscoped_mem main_arg21 (by decide))).trans (untouched m c main_arg21 (by decide) (by decide) (by decide) (by decide) (by decide) (by decide) (by decide) (by decide) (by decide) (by decide)),
      (h c _ (unscoped_mem main_arg22 (by decide))).trans (untouched m c main_arg22 (by decide) (by decide) (by decide) (by decide) (by decide) (by decide) (by decide) (by decide) (by decide) (by decide))⟩)
    (run_all m ρ)

/-- The run with the result named: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v101) = W10 m c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨h c _ (unscoped_mem main_v101 (by decide)),
      (h c _ (unscoped_mem main_arg0 (by decide))).trans (untouched m c main_arg0 (by decide) (by decide) (by decide) (by decide) (by decide) (by decide) (by decide) (by decide) (by decide) (by decide)),
      (h c _ (unscoped_mem main_arg1 (by decide))).trans (untouched m c main_arg1 (by decide) (by decide) (by decide) (by decide) (by decide) (by decide) (by decide) (by decide) (by decide) (by decide)),
      (h c _ (unscoped_mem main_arg2 (by decide))).trans (untouched m c main_arg2 (by decide) (by decide) (by decide) (by decide) (by decide) (by decide) (by decide) (by decide) (by decide) (by decide)),
      (h c _ (unscoped_mem main_arg3 (by decide))).trans (untouched m c main_arg3 (by decide) (by decide) (by decide) (by decide) (by decide) (by decide) (by decide) (by decide) (by decide) (by decide)),
      (h c _ (unscoped_mem main_arg4 (by decide))).trans (untouched m c main_arg4 (by decide) (by decide) (by decide) (by decide) (by decide) (by decide) (by decide) (by decide) (by decide) (by decide)),
      (h c _ (unscoped_mem main_arg5 (by decide))).trans (untouched m c main_arg5 (by decide) (by decide) (by decide) (by decide) (by decide) (by decide) (by decide) (by decide) (by decide) (by decide)),
      (h c _ (unscoped_mem main_arg6 (by decide))).trans (untouched m c main_arg6 (by decide) (by decide) (by decide) (by decide) (by decide) (by decide) (by decide) (by decide) (by decide) (by decide)),
      (h c _ (unscoped_mem main_arg7 (by decide))).trans (untouched m c main_arg7 (by decide) (by decide) (by decide) (by decide) (by decide) (by decide) (by decide) (by decide) (by decide) (by decide)),
      (h c _ (unscoped_mem main_arg8 (by decide))).trans (untouched m c main_arg8 (by decide) (by decide) (by decide) (by decide) (by decide) (by decide) (by decide) (by decide) (by decide) (by decide)),
      (h c _ (unscoped_mem main_arg9 (by decide))).trans (untouched m c main_arg9 (by decide) (by decide) (by decide) (by decide) (by decide) (by decide) (by decide) (by decide) (by decide) (by decide)),
      (h c _ (unscoped_mem main_arg10 (by decide))).trans (untouched m c main_arg10 (by decide) (by decide) (by decide) (by decide) (by decide) (by decide) (by decide) (by decide) (by decide) (by decide)),
      (h c _ (unscoped_mem main_arg11 (by decide))).trans (untouched m c main_arg11 (by decide) (by decide) (by decide) (by decide) (by decide) (by decide) (by decide) (by decide) (by decide) (by decide)),
      (h c _ (unscoped_mem main_arg12 (by decide))).trans (untouched m c main_arg12 (by decide) (by decide) (by decide) (by decide) (by decide) (by decide) (by decide) (by decide) (by decide) (by decide)),
      (h c _ (unscoped_mem main_arg13 (by decide))).trans (untouched m c main_arg13 (by decide) (by decide) (by decide) (by decide) (by decide) (by decide) (by decide) (by decide) (by decide) (by decide)),
      (h c _ (unscoped_mem main_arg14 (by decide))).trans (untouched m c main_arg14 (by decide) (by decide) (by decide) (by decide) (by decide) (by decide) (by decide) (by decide) (by decide) (by decide)),
      (h c _ (unscoped_mem main_arg15 (by decide))).trans (untouched m c main_arg15 (by decide) (by decide) (by decide) (by decide) (by decide) (by decide) (by decide) (by decide) (by decide) (by decide)),
      (h c _ (unscoped_mem main_arg16 (by decide))).trans (untouched m c main_arg16 (by decide) (by decide) (by decide) (by decide) (by decide) (by decide) (by decide) (by decide) (by decide) (by decide)),
      (h c _ (unscoped_mem main_arg17 (by decide))).trans (untouched m c main_arg17 (by decide) (by decide) (by decide) (by decide) (by decide) (by decide) (by decide) (by decide) (by decide) (by decide)),
      (h c _ (unscoped_mem main_arg18 (by decide))).trans (untouched m c main_arg18 (by decide) (by decide) (by decide) (by decide) (by decide) (by decide) (by decide) (by decide) (by decide) (by decide)),
      (h c _ (unscoped_mem main_arg19 (by decide))).trans (untouched m c main_arg19 (by decide) (by decide) (by decide) (by decide) (by decide) (by decide) (by decide) (by decide) (by decide) (by decide)),
      (h c _ (unscoped_mem main_arg20 (by decide))).trans (untouched m c main_arg20 (by decide) (by decide) (by decide) (by decide) (by decide) (by decide) (by decide) (by decide) (by decide) (by decide)),
      (h c _ (unscoped_mem main_arg21 (by decide))).trans (untouched m c main_arg21 (by decide) (by decide) (by decide) (by decide) (by decide) (by decide) (by decide) (by decide) (by decide) (by decide)),
      (h c _ (unscoped_mem main_arg22 (by decide))).trans (untouched m c main_arg22 (by decide) (by decide) (by decide) (by decide) (by decide) (by decide) (by decide) (by decide) (by decide) (by decide))⟩)
    (run_all m ρ)

end Cert.KernelIdeal.Hand

end
-- ==== Proof.Spec.lean ====
/-
  The three whole-array functions the kernel regions compute, over the extended reals, index by index.

  * `projFn x w b`: row `r`, column `j` of `x · w + b` — the sum over `k < 128` of `x[r,k] · w[k,j]`, plus `b[0,j]`.
    With `w` four 128x128 matrices side by side and `b` four bias vectors end to end, columns `128·g … 128·g+127`
    are the g-th matrix's product with `x` plus the g-th bias: the key, query, value and skip projections at once.
  * `combFn a s b`: `max ((a[r,j] + s[r,j]) + b[0,j], 0)` — summed messages plus skip plus bias, clamped below at zero.
  * `fcFn g w b`: row `r`, column `j` of `g · w + b` for the 64 pooled rows and the 128x10 output matrix.

  The zero of the clamp is kept as the float word of +0.0 read at the extended reals: the same word on the kernel's and
  the reference's side, so it is never evaluated.
-/
import Idealize.ShloMosaic.PureOps.Ideal
import Idealize.ShloMosaic.Lib.ValueIdx

noncomputable section

namespace Cert.Spec

open Idealize.ShloMosaic

/-- Row `r`, column `j` of an array with 128 columns, 512 columns, … : the index with those two coordinates. -/
abbrev at2 {n0 n1 : Nat} (r : Nat) (hr : r < n0) (j : Nat) (hj : j < n1) : (⟨2, ![n0, n1]⟩ : Shape).Idx :=
  ValueIdx.ix2 ⟨r, hr⟩ ⟨j, hj⟩

/-- `x · w + b` for 50000 rows of 128 features against a 128x512 matrix and a 1x512 bias row. -/
def projFn (x : FVec Ideal ⟨2, ![50000, 128]⟩ .f32) (w : FVec Ideal ⟨2, ![128, 512]⟩ .f32) (b : FVec Ideal ⟨2, ![1, 512]⟩ .f32) :
    FVec Ideal ⟨2, ![50000, 512]⟩ .f32 :=
  fun i => (∑ k : Fin 128, x (at2 (i 0).val (i 0).isLt k.val k.isLt) * w (at2 k.val k.isLt (i 1).val (i 1).isLt))
    + b (at2 0 Nat.one_pos (i 1).val (i 1).isLt)

/-- `max ((a + s) + b, 0)`, the bias row `b` repeated down the 50000 rows. -/
def combFn (a s : FVec Ideal ⟨2, ![50000, 128]⟩ .f32) (b : FVec Ideal ⟨2, ![1, 128]⟩ .f32) : FVec Ideal ⟨2, ![50000, 128]⟩ .f32 :=
  fun i => max ((a i + s i) + b (at2 0 Nat.one_pos (i 1).val (i 1).isLt)) (Ideal.ofBits .f32 0x00000000#32)

/-- `g · w + b` for the 64 pooled rows against the 128x10 output matrix and a 1x10 bias row. -/
def fcFn (g : FVec Ideal ⟨2, ![64, 128]⟩ .f32) (w : FVec Ideal ⟨2, ![128, 10]⟩ .f32) (b : FVec Ideal ⟨2, ![1, 10]⟩ .f32) :
    FVec Ideal ⟨2, ![64, 10]⟩ .f32 :=
  fun i => (∑ k : Fin 128, g (at2 (i 0).val (i 0).isLt k.val k.isLt) * w (at2 k.val k.isLt (i 1).val (i 1).isLt))
    + b (at2 0 Nat.one_pos (i 1).val (i 1).isLt)

end Cert.Spec

end
-- ==== Proof.Blocks.Proj.lean ====
/-
  The two fused projection regions, from blocks to the array. Each has 25 grid points; point `t` sees rows
  `2000·t … 2000·t + 1999` of the 50000x128 input array and of the 50000x512 output array, and the whole 128x512 matrix and
  1x512 bias row. A row of the product depends only on the same row of the left factor, so what point `t` writes back is
  block `t` of the whole-array function `Cert.Spec.projFn` of the three arrays the region was entered with, and the 25
  blocks fill the output array: `out[r,j]` is the sum over `k < 128` of `x[r,k] · w[k,j]`, plus `b[0,j]`.
  Over the extended reals: the change of format to bf16 before the product is the identity and the product's zero
  accumulator vanishes.
-/
import proofs.«176839_j28836410425876_1_alg».proof.Proof.Spec
import proofs.«176839_j28836410425876_1_alg».proof.Proof.KernelIdeal.Region0
import proofs.«176839_j28836410425876_1_alg».proof.Proof.KernelIdeal.Region2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Idealize.ShloMosaic.ValueIdx

variable (V : (c : Dev nD) → (b : Ref sig .tc) → Buf (Elt Ideal) ((c : Thread nD τ).loc b))

/-- The two zero offsets of a whole-block rectangle, as the constant function. -/
theorem proj_zero_offsets : (![0, 0] : Fin 2 → Nat) = fun _ => 0 := funext fun a => by fin_cases a <;> rfl

/-- Row coordinate of the left factor of the 2000x128 by 128x512 product: the output's row. -/
theorem proj_lhs_row (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl

/-- Column coordinate of the right factor: the output's column. -/
theorem proj_rhs_col (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The 2000x128 by 128x512 product into a zero accumulator, the factors read through the (identity) change of format,
    at row `p`, column `q`: the sum over `k < 128` of `l[p,k] · r[k,q]`. -/
theorem proj_product (l : FVec Ideal S2000x128 .f32) (r : FVec Ideal S128x512 .f32) (p : Fin 2000) (q : Fin 512) :
    matmul dot_S2000x128_S128x512_S2000x512_1_0_0_1_n_n none (truncf .bf16 l bitsLt_bf16_f32) (truncf .bf16 r bitsLt_bf16_f32)
        (constant (F := Ideal) S2000x512 .f32 0x00000000#32) (ix2 p q)
      = ∑ k : Fin 128, l (ix2 p k) * r (ix2 k q) := by
  refine (Ideal.matmul_constant_zero_apply dot_S2000x128_S128x512_S2000x512_1_0_0_1_n_n none _ _ (ix2 p q)).trans ?_
  rw [← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p q) ((contrEquiv1 dot_S2000x128_S128x512_S2000x512_1_0_0_1_n_n 128 rfl rfl).symm k) = ix2 p k := funext fun a => Fin.ext (by
    match a with
    | ⟨0, _⟩ => exact proj_lhs_row _ _
    | ⟨1, _⟩ => exact (dot_S2000x128_S128x512_S2000x512_1_0_0_1_n_n.lhsIdx_val_of_single rfl _ _).trans hk)
  have er : dot_S2000x128_S128x512_S2000x512_1_0_0_1_n_n.rhsIdx (ix2 p q) ((contrEquiv1 dot_S2000x128_S128x512_S2000x512_1_0_0_1_n_n 128 rfl rfl).symm k) = ix2 k q := funext fun a => Fin.ext (by
    match a with
    | ⟨0, _⟩ => exact (dot_S2000x128_S128x512_S2000x512_1_0_0_1_n_n.rhsIdx_val_of_single rfl _ _).trans hk
    | ⟨1, _⟩ => exact proj_rhs_col _ _)
  rw [el, er]
  rfl

/-! ## The first layer's projection region -/

set_option maxHeartbeats 400000 in
/-- The body's arithmetic at row `p`, column `q` of a block of 2000 rows: the sum over `k < 128` of `x0[p,k] · x1[k,q]`, plus `x2[0,q]`. -/
theorem proj0_payload (x0 : Vec Ideal S2000x128 .f32) (x1 : Vec Ideal S128x512 .f32) (x2 : Vec Ideal S1x512 .f32)
    (p : Fin 2000) (q : Fin 512) :
    k0_pay1 x0 x1 x2 (ix2 p q) = (∑ k : Fin 128, x0 (ix2 p k) * x1 (ix2 k q)) + x2 (ix2 (0 : Fin 1) q) := by
  unfold k0_pay1
  rw [addf_apply, shapeCast_self, shapeCast_self]
  refine congrArg₂ (· + ·) (proj_product x0 x1 p q) ?_
  exact broadcastTo_1b_ab_apply x2 broadcasts_S1x512_S2000x512 p q

/-- At grid point `T` of 25: if the row block holds rows `2000·T …` of `X`, the matrix block holds `W` and the bias block
    holds `B`, the body's arithmetic at row `p` of the block is the whole-array function at row `2000·T + p`. -/
theorem proj0_point (X : FVec Ideal S50000x128 .f32) (W : FVec Ideal S128x512 .f32) (B : FVec Ideal S1x512 .f32)
    (x0 : Vec Ideal S2000x128 .f32) (x1 : Vec Ideal S128x512 .f32) (x2 : Vec Ideal S1x512 .f32) (T : Nat) (hT : T < 25)
    (h0 : ∀ (p : Fin 2000) (k : Fin 128), x0 (ix2 p k) = X (ix2 (⟨2000 * T + p.val, by have := p.isLt; omega⟩ : Fin 50000) k))
    (h1 : ∀ (k : Fin 128) (q : Fin 512), x1 (ix2 k q) = W (ix2 k q))
    (h2 : ∀ q : Fin 512, x2 (ix2 (0 : Fin 1) q) = B (ix2 (0 : Fin 1) q))
    (p : Fin 2000) (q : Fin 512) :
    k0_pay1 x0 x1 x2 (ix2 p q)
      = Cert.Spec.projFn X W B (ix2 (⟨2000 * T + p.val, by have := p.isLt; omega⟩ : Fin 50000) q) := by
  rw [proj0_payload, h2]
  unfold Cert.Spec.projFn
  exact congrArg₂ (· + ·) (Finset.sum_congr rfl fun k _ => congrArg₂ (· * ·) (h0 p k) (h1 k q)) rfl

/-- The block indices over the 25 grid points: the row window and the output window sit at block row `t`, the matrix and
    the bias windows at their one block. -/
theorem proj0_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 400000 in
/-- What point `t` writes back is block `t` of the whole-array function of the region's three input arrays. -/
theorem proj0_flushed (c : Dev nD) (t : Fin cfg0.N) :
    (dat0 (F := Ideal) V c).flushed 3 t
      = ((cfg0.win 3).blk t).view.read (Elt Ideal) (Cert.Spec.projFn (V c main_arg0) (V c main_v4) (V c main_v6)) := by
  show (cfg0.win 3).cut (grid0.coords t) ((dat0 V c).after 3 t) = _
  rw [dat0_after3]
  unfold result0
  rw [View.canon_unit_zero proj_zero_offsets]
  simp only [View.ld_unit_zero (S := S2000x128) proj_zero_offsets, View.ld_unit_zero (S := S128x512) proj_zero_offsets,
    View.ld_unit_zero (S := S1x512) proj_zero_offsets]
  obtain ⟨e00, e01, e10, e11, e20, e21, e30, e31⟩ := proj0_index_facts t
  have hT : t.val < 25 := t.isLt
  funext j
  obtain ⟨p, q, rfl⟩ : ∃ (p : Fin 2000) (q : Fin 512), j = ix2 p q := ⟨j 0, j 1, eq_ix2 j⟩
  show k0_pay1 (blk0 V c 0 t) (blk0 V c 1 t) (blk0 V c 2 t) (ix2 p q)
    = Cert.Spec.projFn (V c main_arg0) (V c main_v4) (V c main_v6) (((cfg0.win 3).blk t).view.emb (ix2 p q))
  refine (proj0_point (V c main_arg0) (V c main_v4) (V c main_v6) _ _ _ t.val hT ?_ ?_ ?_ p q).trans ?_
  · intro p k
    unfold blk0
    show V c main_arg0 (((cfg0.win 0).blk t).view.emb (ix2 p k)) = V c main_arg0 _
    refine congrArg (V c main_arg0) (funext fun a => Fin.ext ?_)
    match a with
    | ⟨0, _⟩ => show win0_0.index t (0 : Fin 2) * 2000 + 1 * p.val = 2000 * t.val + p.val; omega
    | ⟨1, _⟩ => show win0_0.index t (1 : Fin 2) * 128 + 1 * k.val = k.val; omega
  · intro k q
    unfold blk0
    show V c main_v4 (((cfg0.win 1).blk t).view.emb (ix2 k q)) = V c main_v4 _
    refine congrArg (V c main_v4) (funext fun a => Fin.ext ?_)
    match a with
    | ⟨0, _⟩ => show win0_1.index t (0 : Fin 2) * 128 + 1 * k.val = k.val; omega
    | ⟨1, _⟩ => show win0_1.index t (1 : Fin 2) * 512 + 1 * q.val = q.val; omega
  · intro q
    unfold blk0
    show V c main_v6 (((cfg0.win 2).blk t).view.emb (ix2 (0 : Fin 1) q)) = V c main_v6 _
    refine congrArg (V c main_v6) (funext fun a => Fin.ext ?_)
    match a with
    | ⟨0, _⟩ => show win0_2.index t (0 : Fin 2) * 1 + 1 * 0 = 0; omega
    | ⟨1, _⟩ => show win0_2.index t (1 : Fin 2) * 512 + 1 * q.val = q.val; omega
  · refine congrArg (Cert.Spec.projFn (V c main_arg0) (V c main_v4) (V c main_v6)) (funext fun a => Fin.ext ?_)
    match a with
    | ⟨0, _⟩ => show 2000 * t.val + p.val = win0_3.index t (0 : Fin 2) * 2000 + 1 * p.val; omega
    | ⟨1, _⟩ => show q.val = win0_3.index t (1 : Fin 2) * 512 + 1 * q.val; omega

/-- An index of the 50000x512 output array is in point `t`'s block iff each coordinate is in the block's range on its axis. -/
theorem proj0_mem_block (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v7).slice (win0_3.rect t)).set ↔ _
  rw [View.set_slice_whole, Rect.mem_set_unit]
  exact Iff.rfl

/-- Row `r` is in the block of point `r / 2000`, and every point writes back: the 25 blocks fill the array. -/
theorem proj0_cover (i : S50000x512.Idx) : ∃ t : Fin cfg0.N, (cfg0.win 3).flush t = true ∧ i ∈ ((cfg0.win 3).blk t).view.set := by
  have hi0 : (i 0).val < 50000 := (i 0).isLt
  have hi1 : (i 1).val < 512 := (i 1).isLt
  have hN : grid0.N = 25 := N_0
  have ht : (i 0).val / 2000 < cfg0.N := by show (i 0).val / 2000 < grid0.N; omega
  refine ⟨⟨(i 0).val / 2000, ht⟩, flush0_3 _, ?_⟩
  rw [proj0_mem_block]
  obtain ⟨-, -, -, -, -, -, e30, e31⟩ := proj0_index_facts ⟨(i 0).val / 2000, ht⟩
  have e30' : win0_3.index ⟨(i 0).val / 2000, ht⟩ (0 : Fin 2) = (i 0).val / 2000 := e30
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    omega
  | ⟨1, _⟩ =>
    show win0_3.index ⟨(i 0).val / 2000, ht⟩ (1 : Fin 2) * 512 ≤ (i 1).val ∧ (i 1).val < win0_3.index ⟨(i 0).val / 2000, ht⟩ (1 : Fin 2) * 512 + 512
    omega

/-- After the region the 50000x512 output array is the fused projection of the arrays the region was entered with. -/
theorem final0 (c : Dev nD) :
    (dat0 (F := Ideal) V c).arrAt 3 cfg0.N = Cert.Spec.projFn (V c main_arg0) (V c main_v4) (V c main_v6) :=
  (dat0 (F := Ideal) V c).arrAt_eq_of_cover 3 (Cert.Spec.projFn (V c main_arg0) (V c main_v4) (V c main_v6))
    (fun t _ => proj0_flushed V c t) proj0_cover

example : Pipeline.arrRef spec0 0 = main_arg0 := rfl
example : Pipeline.arrRef spec0 1 = main_v4 := rfl
example : Pipeline.arrRef spec0 2 = main_v6 := rfl

/-! ## The second layer's projection region -/

set_option maxHeartbeats 400000 in
/-- The body's arithmetic at row `p`, column `q` of a block of 2000 rows: the sum over `k < 128` of `x0[p,k] · x1[k,q]`, plus `x2[0,q]`. -/
theorem proj2_payload (x0 : Vec Ideal S2000x128 .f32) (x1 : Vec Ideal S128x512 .f32) (x2 : Vec Ideal S1x512 .f32)
    (p : Fin 2000) (q : Fin 512) :
    k2_pay1 x0 x1 x2 (ix2 p q) = (∑ k : Fin 128, x0 (ix2 p k) * x1 (ix2 k q)) + x2 (ix2 (0 : Fin 1) q) := by
  unfold k2_pay1
  rw [addf_apply, shapeCast_self, shapeCast_self, shapeCast_self]
  refine congrArg₂ (· + ·) (proj_product x0 x1 p q) ?_
  exact broadcastTo_1b_ab_apply x2 broadcasts_S1x512_S2000x512 p q

/-- At grid point `T` of 25: if the row block holds rows `2000·T …` of `X`, the matrix block holds `W` and the bias block
    holds `B`, the body's arithmetic at row `p` of the block is the whole-array function at row `2000·T + p`. -/
theorem proj2_point (X : FVec Ideal S50000x128 .f32) (W : FVec Ideal S128x512 .f32) (B : FVec Ideal S1x512 .f32)
    (x0 : Vec Ideal S2000x128 .f32) (x1 : Vec Ideal S128x512 .f32) (x2 : Vec Ideal S1x512 .f32) (T : Nat) (hT : T < 25)
    (h0 : ∀ (p : Fin 2000) (k : Fin 128), x0 (ix2 p k) = X (ix2 (⟨2000 * T + p.val, by have := p.isLt; omega⟩ : Fin 50000) k))
    (h1 : ∀ (k : Fin 128) (q : Fin 512), x1 (ix2 k q) = W (ix2 k q))
    (h2 : ∀ q : Fin 512, x2 (ix2 (0 : Fin 1) q) = B (ix2 (0 : Fin 1) q))
    (p : Fin 2000) (q : Fin 512) :
    k2_pay1 x0 x1 x2 (ix2 p q)
      = Cert.Spec.projFn X W B (ix2 (⟨2000 * T + p.val, by have := p.isLt; omega⟩ : Fin 50000) q) := by
  rw [proj2_payload, h2]
  unfold Cert.Spec.projFn
  exact congrArg₂ (· + ·) (Finset.sum_congr rfl fun k _ => congrArg₂ (· * ·) (h0 p k) (h1 k q)) rfl

/-- The block indices over the 25 grid points: the row window and the output window sit at block row `t`, the matrix and
    the bias windows at their one block. -/
theorem proj2_index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 400000 in
/-- What point `t` writes back is block `t` of the whole-array function of the region's three input arrays. -/
theorem proj2_flushed (c : Dev nD) (t : Fin cfg2.N) :
    (dat2 (F := Ideal) V c).flushed 3 t
      = ((cfg2.win 3).blk t).view.read (Elt Ideal) (Cert.Spec.projFn (V c main_v45) (V c main_v46) (V c main_v48)) := by
  show (cfg2.win 3).cut (grid2.coords t) ((dat2 V c).after 3 t) = _
  rw [dat2_after3]
  unfold result2
  rw [View.canon_unit_zero proj_zero_offsets]
  simp only [View.ld_unit_zero (S := S2000x128) proj_zero_offsets, View.ld_unit_zero (S := S128x512) proj_zero_offsets,
    View.ld_unit_zero (S := S1x512) proj_zero_offsets]
  obtain ⟨e00, e01, e10, e11, e20, e21, e30, e31⟩ := proj2_index_facts t
  have hT : t.val < 25 := t.isLt
  funext j
  obtain ⟨p, q, rfl⟩ : ∃ (p : Fin 2000) (q : Fin 512), j = ix2 p q := ⟨j 0, j 1, eq_ix2 j⟩
  show k2_pay1 (blk2 V c 0 t) (blk2 V c 1 t) (blk2 V c 2 t) (ix2 p q)
    = Cert.Spec.projFn (V c main_v45) (V c main_v46) (V c main_v48) (((cfg2.win 3).blk t).view.emb (ix2 p q))
  refine (proj2_point (V c main_v45) (V c main_v46) (V c main_v48) _ _ _ t.val hT ?_ ?_ ?_ p q).trans ?_
  · intro p k
    unfold blk2
    show V c main_v45 (((cfg2.win 0).blk t).view.emb (ix2 p k)) = V c main_v45 _
    refine congrArg (V c main_v45) (funext fun a => Fin.ext ?_)
    match a with
    | ⟨0, _⟩ => show win2_0.index t (0 : Fin 2) * 2000 + 1 * p.val = 2000 * t.val + p.val; omega
    | ⟨1, _⟩ => show win2_0.index t (1 : Fin 2) * 128 + 1 * k.val = k.val; omega
  · intro k q
    unfold blk2
    show V c main_v46 (((cfg2.win 1).blk t).view.emb (ix2 k q)) = V c main_v46 _
    refine congrArg (V c main_v46) (funext fun a => Fin.ext ?_)
    match a with
    | ⟨0, _⟩ => show win2_1.index t (0 : Fin 2) * 128 + 1 * k.val = k.val; omega
    | ⟨1, _⟩ => show win2_1.index t (1 : Fin 2) * 512 + 1 * q.val = q.val; omega
  · intro q
    unfold blk2
    show V c main_v48 (((cfg2.win 2).blk t).view.emb (ix2 (0 : Fin 1) q)) = V c main_v48 _
    refine congrArg (V c main_v48) (funext fun a => Fin.ext ?_)
    match a with
    | ⟨0, _⟩ => show win2_2.index t (0 : Fin 2) * 1 + 1 * 0 = 0; omega
    | ⟨1, _⟩ => show win2_2.index t (1 : Fin 2) * 512 + 1 * q.val = q.val; omega
  · refine congrArg (Cert.Spec.projFn (V c main_v45) (V c main_v46) (V c main_v48)) (funext fun a => Fin.ext ?_)
    match a with
    | ⟨0, _⟩ => show 2000 * t.val + p.val = win2_3.index t (0 : Fin 2) * 2000 + 1 * p.val; omega
    | ⟨1, _⟩ => show q.val = win2_3.index t (1 : Fin 2) * 512 + 1 * q.val; omega

/-- An index of the 50000x512 output array is in point `t`'s block iff each coordinate is in the block's range on its axis. -/
theorem proj2_mem_block (t : Fin cfg2.N) (i : S50000x512.Idx) :
    i ∈ ((cfg2.win 3).blk t).view.set ↔ ∀ a : Fin 2, win2_3.index t a * S2000x512.size a ≤ (i a).val ∧ (i a).val < win2_3.index t a * S2000x512.size a + S2000x512.size a := by
  show i ∈ ((View.whole main_v49).slice (win2_3.rect t)).set ↔ _
  rw [View.set_slice_whole, Rect.mem_set_unit]
  exact Iff.rfl

/-- Row `r` is in the block of point `r / 2000`, and every point writes back: the 25 blocks fill the array. -/
theorem proj2_cover (i : S50000x512.Idx) : ∃ t : Fin cfg2.N, (cfg2.win 3).flush t = true ∧ i ∈ ((cfg2.win 3).blk t).view.set := by
  have hi0 : (i 0).val < 50000 := (i 0).isLt
  have hi1 : (i 1).val < 512 := (i 1).isLt
  have hN : grid2.N = 25 := N_2
  have ht : (i 0).val / 2000 < cfg2.N := by show (i 0).val / 2000 < grid2.N; omega
  refine ⟨⟨(i 0).val / 2000, ht⟩, flush2_3 _, ?_⟩
  rw [proj2_mem_block]
  obtain ⟨-, -, -, -, -, -, e30, e31⟩ := proj2_index_facts ⟨(i 0).val / 2000, ht⟩
  have e30' : win2_3.index ⟨(i 0).val / 2000, ht⟩ (0 : Fin 2) = (i 0).val / 2000 := e30
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    omega
  | ⟨1, _⟩ =>
    show win2_3.index ⟨(i 0).val / 2000, ht⟩ (1 : Fin 2) * 512 ≤ (i 1).val ∧ (i 1).val < win2_3.index ⟨(i 0).val / 2000, ht⟩ (1 : Fin 2) * 512 + 512
    omega

/-- After the region the 50000x512 output array is the fused projection of the arrays the region was entered with. -/
theorem final2 (c : Dev nD) :
    (dat2 (F := Ideal) V c).arrAt 3 cfg2.N = Cert.Spec.projFn (V c main_v45) (V c main_v46) (V c main_v48) :=
  (dat2 (F := Ideal) V c).arrAt_eq_of_cover 3 (Cert.Spec.projFn (V c main_v45) (V c main_v46) (V c main_v48))
    (fun t _ => proj2_flushed V c t) proj2_cover

example : Pipeline.arrRef spec2 0 = main_v45 := rfl
example : Pipeline.arrRef spec2 1 = main_v46 := rfl
example : Pipeline.arrRef spec2 2 = main_v48 := rfl

end Cert.KernelIdeal.Hand

end
-- ==== Proof.Blocks.Comb.lean ====
/-
  The two combine regions, from blocks to the array. Each has ten grid points; point `t` sees rows `5000·t … 5000·t + 4999`
  of the two 50000x128 input arrays and of the output array, and the whole 1x128 bias row. The body's arithmetic on a block is
  pointwise in the row, so what point `t` writes back is block `t` of the whole-array function `Cert.Spec.combFn` of
  the three arrays the region was entered with, and the ten blocks fill the output array:
  `out[r,j] = max ((a[r,j] + s[r,j]) + b[0,j], 0)`.
-/
import proofs.«176839_j28836410425876_1_alg».proof.Proof.Spec
import proofs.«176839_j28836410425876_1_alg».proof.Proof.KernelIdeal.Region1
import proofs.«176839_j28836410425876_1_alg».proof.Proof.KernelIdeal.Region3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Idealize.ShloMosaic.ValueIdx

variable (V : (c : Dev nD) → (b : Ref sig .tc) → Buf (Elt Ideal) ((c : Thread nD τ).loc b))

/-- The two zero offsets of a whole-block rectangle, as the constant function. -/
theorem comb_zero_offsets : (![0, 0] : Fin 2 → Nat) = fun _ => 0 := funext fun a => by fin_cases a <;> rfl

/-! ## The first layer's combine region -/

set_option maxHeartbeats 400000 in
/-- The body's arithmetic at row `p`, column `q` of a block of 5000 rows:
    `max ((x0[p,q] + x1[p,q]) + x2[0,q], 0)`, the zero kept as the float word of +0.0. -/
theorem comb1_payload (x0 x1 : Vec Ideal S5000x128 .f32) (x2 : Vec Ideal S1x128 .f32) (p : Fin 5000) (q : Fin 128) :
    k1_pay1 x0 x1 x2 (ix2 p q)
      = max ((x0 (ix2 p q) + x1 (ix2 p q)) + x2 (ix2 (0 : Fin 1) q)) (Ideal.ofBits .f32 0x00000000#32) := by
  unfold k1_pay1
  rw [maximumf_apply, addf_apply, addf_apply, shapeCast_self, shapeCast_self, shapeCast_self]
  refine congrArg₂ max (congrArg₂ (· + ·) rfl ?_) rfl
  exact broadcastTo_1b_ab_apply x2 broadcasts_S1x128_S5000x128 p q

/-- At grid point `T` of 10: if the two row blocks hold rows `5000·T …` of `A` and of `S` and the bias block holds `B`,
    the body's arithmetic at row `p` of the block is the whole-array function at row `5000·T + p`. -/
theorem comb1_point (A S : FVec Ideal S50000x128 .f32) (B : FVec Ideal S1x128 .f32)
    (x0 x1 : Vec Ideal S5000x128 .f32) (x2 : Vec Ideal S1x128 .f32) (T : Nat) (hT : T < 10)
    (h0 : ∀ (p : Fin 5000) (q : Fin 128), x0 (ix2 p q) = A (ix2 (⟨5000 * T + p.val, by have := p.isLt; omega⟩ : Fin 50000) q))
    (h1 : ∀ (p : Fin 5000) (q : Fin 128), x1 (ix2 p q) = S (ix2 (⟨5000 * T + p.val, by have := p.isLt; omega⟩ : Fin 50000) q))
    (h2 : ∀ q : Fin 128, x2 (ix2 (0 : Fin 1) q) = B (ix2 (0 : Fin 1) q))
    (p : Fin 5000) (q : Fin 128) :
    k1_pay1 x0 x1 x2 (ix2 p q)
      = Cert.Spec.combFn A S B (ix2 (⟨5000 * T + p.val, by have := p.isLt; omega⟩ : Fin 50000) q) := by
  rw [comb1_payload, h0, h1, h2]
  rfl

/-- The block indices over the 10 grid points: the three row windows sit at block row `t`, the bias window at its one block. -/
theorem comb1_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 400000 in
/-- What point `t` writes back is block `t` of the whole-array function of the region's three input arrays. -/
theorem comb1_flushed (c : Dev nD) (t : Fin cfg1.N) :
    (dat1 (F := Ideal) V c).flushed 3 t
      = ((cfg1.win 3).blk t).view.read (Elt Ideal) (Cert.Spec.combFn (V c main_v43) (V c main_v11) (V c main_v44)) := by
  show (cfg1.win 3).cut (grid1.coords t) ((dat1 V c).after 3 t) = _
  rw [dat1_after3]
  unfold result1
  rw [View.canon_unit_zero comb_zero_offsets]
  simp only [View.ld_unit_zero (S := S5000x128) comb_zero_offsets, View.ld_unit_zero (S := S1x128) comb_zero_offsets]
  obtain ⟨e00, e01, e10, e11, e20, e21, e30, e31⟩ := comb1_index_facts t
  have hT : t.val < 10 := t.isLt
  funext j
  obtain ⟨p, q, rfl⟩ : ∃ (p : Fin 5000) (q : Fin 128), j = ix2 p q := ⟨j 0, j 1, eq_ix2 j⟩
  show k1_pay1 (blk1 V c 0 t) (blk1 V c 1 t) (blk1 V c 2 t) (ix2 p q)
    = Cert.Spec.combFn (V c main_v43) (V c main_v11) (V c main_v44) (((cfg1.win 3).blk t).view.emb (ix2 p q))
  refine (comb1_point (V c main_v43) (V c main_v11) (V c main_v44) _ _ _ t.val hT ?_ ?_ ?_ p q).trans ?_
  · intro p q
    unfold blk1
    show V c main_v43 (((cfg1.win 0).blk t).view.emb (ix2 p q)) = V c main_v43 _
    refine congrArg (V c main_v43) (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * q.val = q.val; omega
  · intro p q
    unfold blk1
    show V c main_v11 (((cfg1.win 1).blk t).view.emb (ix2 p q)) = V c main_v11 _
    refine congrArg (V c main_v11) (funext fun a => Fin.ext ?_)
    match a with
    | ⟨0, _⟩ => show win1_1.index t (0 : Fin 2) * 5000 + 1 * p.val = 5000 * t.val + p.val; omega
    | ⟨1, _⟩ => show win1_1.index t (1 : Fin 2) * 128 + 1 * q.val = q.val; omega
  · intro q
    unfold blk1
    show V c main_v44 (((cfg1.win 2).blk t).view.emb (ix2 (0 : Fin 1) q)) = V c main_v44 _
    refine congrArg (V c main_v44) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · refine congrArg (Cert.Spec.combFn (V c main_v43) (V c main_v11) (V c main_v44)) (funext fun a => Fin.ext ?_)
    match a with
    | ⟨0, _⟩ => show 5000 * t.val + p.val = win1_3.index t (0 : Fin 2) * 5000 + 1 * p.val; omega
    | ⟨1, _⟩ => show q.val = win1_3.index t (1 : Fin 2) * 128 + 1 * q.val; omega

/-- An index of the 50000x128 output array is in point `t`'s block iff each coordinate is in the block's range on its axis. -/
theorem comb1_mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row `r` is in the block of point `r / 5000`, and every point writes back: the ten blocks fill the array. -/
theorem comb1_cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; omega
  refine ⟨⟨(i 0).val / 5000, ht⟩, flush1_3 _, ?_⟩
  rw [comb1_mem_block]
  obtain ⟨-, -, -, -, -, -, e30, e31⟩ := comb1_index_facts ⟨(i 0).val / 5000, ht⟩
  have e30' : win1_3.index ⟨(i 0).val / 5000, ht⟩ (0 : Fin 2) = (i 0).val / 5000 := e30
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    omega

/-- After the region the 50000x128 output array is the combine function of the arrays the region was entered with. -/
theorem final1 (c : Dev nD) :
    (dat1 (F := Ideal) V c).arrAt 3 cfg1.N = Cert.Spec.combFn (V c main_v43) (V c main_v11) (V c main_v44) :=
  (dat1 (F := Ideal) V c).arrAt_eq_of_cover 3 (Cert.Spec.combFn (V c main_v43) (V c main_v11) (V c main_v44))
    (fun t _ => comb1_flushed V c t) comb1_cover

example : Pipeline.arrRef spec1 0 = main_v43 := rfl
example : Pipeline.arrRef spec1 1 = main_v11 := rfl
example : Pipeline.arrRef spec1 2 = main_v44 := rfl

/-! ## The second layer's combine region -/

set_option maxHeartbeats 400000 in
/-- The body's arithmetic at row `p`, column `q` of a block of 5000 rows:
    `max ((x0[p,q] + x1[p,q]) + x2[0,q], 0)`, the zero kept as the float word of +0.0. -/
theorem comb3_payload (x0 x1 : Vec Ideal S5000x128 .f32) (x2 : Vec Ideal S1x128 .f32) (p : Fin 5000) (q : Fin 128) :
    k3_pay1 x0 x1 x2 (ix2 p q)
      = max ((x0 (ix2 p q) + x1 (ix2 p q)) + x2 (ix2 (0 : Fin 1) q)) (Ideal.ofBits .f32 0x00000000#32) := by
  unfold k3_pay1
  rw [maximumf_apply, addf_apply, addf_apply, shapeCast_self, shapeCast_self, shapeCast_self]
  refine congrArg₂ max (congrArg₂ (· + ·) rfl ?_) rfl
  exact broadcastTo_1b_ab_apply x2 broadcasts_S1x128_S5000x128 p q

/-- At grid point `T` of 10: if the two row blocks hold rows `5000·T …` of `A` and of `S` and the bias block holds `B`,
    the body's arithmetic at row `p` of the block is the whole-array function at row `5000·T + p`. -/
theorem comb3_point (A S : FVec Ideal S50000x128 .f32) (B : FVec Ideal S1x128 .f32)
    (x0 x1 : Vec Ideal S5000x128 .f32) (x2 : Vec Ideal S1x128 .f32) (T : Nat) (hT : T < 10)
    (h0 : ∀ (p : Fin 5000) (q : Fin 128), x0 (ix2 p q) = A (ix2 (⟨5000 * T + p.val, by have := p.isLt; omega⟩ : Fin 50000) q))
    (h1 : ∀ (p : Fin 5000) (q : Fin 128), x1 (ix2 p q) = S (ix2 (⟨5000 * T + p.val, by have := p.isLt; omega⟩ : Fin 50000) q))
    (h2 : ∀ q : Fin 128, x2 (ix2 (0 : Fin 1) q) = B (ix2 (0 : Fin 1) q))
    (p : Fin 5000) (q : Fin 128) :
    k3_pay1 x0 x1 x2 (ix2 p q)
      = Cert.Spec.combFn A S B (ix2 (⟨5000 * T + p.val, by have := p.isLt; omega⟩ : Fin 50000) q) := by
  rw [comb3_payload, h0, h1, h2]
  rfl

/-- The block indices over the 10 grid points: the three row windows sit at block row `t`, the bias window at its one block. -/
theorem comb3_index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 400000 in
/-- What point `t` writes back is block `t` of the whole-array function of the region's three input arrays. -/
theorem comb3_flushed (c : Dev nD) (t : Fin cfg3.N) :
    (dat3 (F := Ideal) V c).flushed 3 t
      = ((cfg3.win 3).blk t).view.read (Elt Ideal) (Cert.Spec.combFn (V c main_v85) (V c main_v53) (V c main_v86)) := by
  show (cfg3.win 3).cut (grid3.coords t) ((dat3 V c).after 3 t) = _
  rw [dat3_after3]
  unfold result3
  rw [View.canon_unit_zero comb_zero_offsets]
  simp only [View.ld_unit_zero (S := S5000x128) comb_zero_offsets, View.ld_unit_zero (S := S1x128) comb_zero_offsets]
  obtain ⟨e00, e01, e10, e11, e20, e21, e30, e31⟩ := comb3_index_facts t
  have hT : t.val < 10 := t.isLt
  funext j
  obtain ⟨p, q, rfl⟩ : ∃ (p : Fin 5000) (q : Fin 128), j = ix2 p q := ⟨j 0, j 1, eq_ix2 j⟩
  show k3_pay1 (blk3 V c 0 t) (blk3 V c 1 t) (blk3 V c 2 t) (ix2 p q)
    = Cert.Spec.combFn (V c main_v85) (V c main_v53) (V c main_v86) (((cfg3.win 3).blk t).view.emb (ix2 p q))
  refine (comb3_point (V c main_v85) (V c main_v53) (V c main_v86) _ _ _ t.val hT ?_ ?_ ?_ p q).trans ?_
  · intro p q
    unfold blk3
    show V c main_v85 (((cfg3.win 0).blk t).view.emb (ix2 p q)) = V c main_v85 _
    refine congrArg (V c main_v85) (funext fun a => Fin.ext ?_)
    match a with
    | ⟨0, _⟩ => show win3_0.index t (0 : Fin 2) * 5000 + 1 * p.val = 5000 * t.val + p.val; omega
    | ⟨1, _⟩ => show win3_0.index t (1 : Fin 2) * 128 + 1 * q.val = q.val; omega
  · intro p q
    unfold blk3
    show V c main_v53 (((cfg3.win 1).blk t).view.emb (ix2 p q)) = V c main_v53 _
    refine congrArg (V c main_v53) (funext fun a => Fin.ext ?_)
    match a with
    | ⟨0, _⟩ => show win3_1.index t (0 : Fin 2) * 5000 + 1 * p.val = 5000 * t.val + p.val; omega
    | ⟨1, _⟩ => show win3_1.index t (1 : Fin 2) * 128 + 1 * q.val = q.val; omega
  · intro q
    unfold blk3
    show V c main_v86 (((cfg3.win 2).blk t).view.emb (ix2 (0 : Fin 1) q)) = V c main_v86 _
    refine congrArg (V c main_v86) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · refine congrArg (Cert.Spec.combFn (V c main_v85) (V c main_v53) (V c main_v86)) (funext fun a => Fin.ext ?_)
    match a with
    | ⟨0, _⟩ => show 5000 * t.val + p.val = win3_3.index t (0 : Fin 2) * 5000 + 1 * p.val; omega
    | ⟨1, _⟩ => show q.val = win3_3.index t (1 : Fin 2) * 128 + 1 * q.val; omega

/-- An index of the 50000x128 output array is in point `t`'s block iff each coordinate is in the block's range on its axis. -/
theorem comb3_mem_block (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v87).slice (win3_3.rect t)).set ↔ _
  rw [View.set_slice_whole, Rect.mem_set_unit]
  exact Iff.rfl

/-- Row `r` is in the block of point `r / 5000`, and every point writes back: the ten blocks fill the array. -/
theorem comb3_cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  have ht : (i 0).val / 5000 < cfg3.N := by show (i 0).val / 5000 < grid3.N; omega
  refine ⟨⟨(i 0).val / 5000, ht⟩, flush3_3 _, ?_⟩
  rw [comb3_mem_block]
  obtain ⟨-, -, -, -, -, -, e30, e31⟩ := comb3_index_facts ⟨(i 0).val / 5000, ht⟩
  have e30' : win3_3.index ⟨(i 0).val / 5000, ht⟩ (0 : Fin 2) = (i 0).val / 5000 := e30
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    omega
  | ⟨1, _⟩ =>
    show win3_3.index ⟨(i 0).val / 5000, ht⟩ (1 : Fin 2) * 128 ≤ (i 1).val ∧ (i 1).val < win3_3.index ⟨(i 0).val / 5000, ht⟩ (1 : Fin 2) * 128 + 128
    omega

/-- After the region the 50000x128 output array is the combine function of the arrays the region was entered with. -/
theorem final3 (c : Dev nD) :
    (dat3 (F := Ideal) V c).arrAt 3 cfg3.N = Cert.Spec.combFn (V c main_v85) (V c main_v53) (V c main_v86) :=
  (dat3 (F := Ideal) V c).arrAt_eq_of_cover 3 (Cert.Spec.combFn (V c main_v85) (V c main_v53) (V c main_v86))
    (fun t _ => comb3_flushed V c t) comb3_cover

example : Pipeline.arrRef spec3 0 = main_v85 := rfl
example : Pipeline.arrRef spec3 1 = main_v53 := rfl
example : Pipeline.arrRef spec3 2 = main_v86 := rfl

end Cert.KernelIdeal.Hand

end
-- ==== Proof.Bridge.Proj.lean ====
/-
  The four projections computed at once, as equations between whole arrays over the extended reals.

  `x` is 50000 rows of 128 features. The four 128x128 matrices `W0 … W3` stand side by side as one 128x512 matrix and the
  four bias vectors `b0 … b3` end to end as one vector of 512, recast to one row. Then columns `128·g … 128·g + 127` of
  `x · [W0|W1|W2|W3] + [b0;b1;b2;b3]` are `x · Wg + bg`: at row `r` and column `128·g + j` every term `x[r,k] · W[k, 128·g + j]`
  of the sum reads the wide matrix inside piece `g`, at `Wg[k,j]`, and the bias read at `128·g + j` is `bg[j]`. No
  arithmetic law is used: the two sides are the same sum of the same products.

  The other side of each equation is the host's contraction of `x` with `Wg` over the 128-axis plus `bg` laid along the
  columns and repeated down the rows; over the extended reals that contraction is the sum `∑ k < 128, x[r,k] · Wg[k,j]`.
-/
import proofs.«176839_j28836410425876_1_alg».proof.Proof.Spec
import proofs.«176839_j28836410425876_1_alg».proof.Proof.Gen.ReferenceIdeal.Read
import proofs.«176839_j28836410425876_1_alg».proof.KernelIdeal
import Idealize.ShloMosaic.Lib.Pipeline.Value
import Idealize.ShloMosaic.Lib.ValueIdx
import Idealize.ShloMosaic.PureOps.Ideal.Laws

noncomputable section

namespace Cert.Bridge

open Idealize.ShloMosaic

variable [Cert.KernelIdeal.Facts₀]

/-- A vector of 128 entries laid along the columns and repeated down the 50000 rows (first made one row of 128, then
    repeated), read at row `r`, column `j`: the vector's entry `j`. -/
theorem Proj.biasRows_apply (v : FVec Ideal Cert.ReferenceIdeal.S128 .f32) (r : Fin 50000) (j : Fin 128) :
    broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 v) (ValueIdx.ix2 r j)
      = v (ValueIdx.ix1 j) := by
  refine (broadcastInDim_apply _ Cert.ReferenceIdeal.Gen.bcast_S1x128_S50000x128_0_1 _ (ValueIdx.ix2 r j)
    (ValueIdx.ix2 (0 : Fin 1) j) (fun a => match a with
      | ⟨0, _⟩ => by show 0 = if (1 : Nat) = 1 then 0 else r.val; rw [if_pos rfl]
      | ⟨1, _⟩ => by show j.val = if (128 : Nat) = 1 then 0 else j.val; rw [if_neg (by decide)])).trans ?_
  exact broadcastInDim_apply _ Cert.ReferenceIdeal.Gen.bcast_S128_S1x128_1 v (ValueIdx.ix2 (0 : Fin 1) j) (ValueIdx.ix1 j)
    (fun a => match a with
      | ⟨0, _⟩ => by show j.val = if (128 : Nat) = 1 then 0 else j.val; rw [if_neg (by decide)])

/-- Four 128x128 matrices side by side, read at row `k`, column `c = 128·g + j`: the `g`-th matrix at row `k`, column `j`.
    The columns before piece `g` are those of `g` whole matrices, `128·g` of them. -/
theorem Proj.wideCat_apply (W0 W1 W2 W3 Wg : FVec Ideal Cert.KernelIdeal.S128x128 .f32) (g : Nat) (hg : g < 4)
    (hW : ([⟨Cert.KernelIdeal.S128x128, W0⟩, ⟨Cert.KernelIdeal.S128x128, W1⟩, ⟨Cert.KernelIdeal.S128x128, W2⟩,
        ⟨Cert.KernelIdeal.S128x128, W3⟩] : List ((s : Shape) × (s.Idx → Ideal .f32)))[g]
      = ⟨Cert.KernelIdeal.S128x128, Wg⟩)
    (k j : Fin 128) (c : Fin 512) (hc : c.val = 128 * g + j.val) :
    concatenate Cert.KernelIdeal.S128x512 1
        [⟨Cert.KernelIdeal.S128x128, W0⟩, ⟨Cert.KernelIdeal.S128x128, W1⟩, ⟨Cert.KernelIdeal.S128x128, W2⟩,
          ⟨Cert.KernelIdeal.S128x128, W3⟩]
        Cert.KernelIdeal.Facts₀.concatenates_S128x128_S128x128_S128x128_S128x128_S128x512_d1 (ValueIdx.ix2 k c)
      = Wg (ValueIdx.ix2 k j) := by
  refine concatenate_apply_piece (t := Cert.KernelIdeal.S128x512) (1 : Fin 2)
    [⟨Cert.KernelIdeal.S128x128, W0⟩, ⟨Cert.KernelIdeal.S128x128, W1⟩, ⟨Cert.KernelIdeal.S128x128, W2⟩,
      ⟨Cert.KernelIdeal.S128x128, W3⟩]
    Cert.KernelIdeal.Facts₀.concatenates_S128x128_S128x128_S128x128_S128x128_S128x512_d1
    (ValueIdx.ix2 k c) g hg Cert.KernelIdeal.S128x128 Wg hW rfl (128 * g) ?_
    (ValueIdx.ix2 k j) ?_ ?_
  · interval_cases g <;> rfl
  · intro b hb
    match b with
    | ⟨0, _⟩ => rfl
    | ⟨1, _⟩ => exact absurd rfl hb
  · show 128 * g + j.val = c.val
    omega

/-- Four vectors of 128 entries end to end, read at position `c = 128·g + j`: the `g`-th vector's entry `j`. -/
theorem Proj.longCat_apply (b0 b1 b2 b3 bg : FVec Ideal Cert.KernelIdeal.S128 .f32) (g : Nat) (hg : g < 4)
    (hb : ([⟨Cert.KernelIdeal.S128, b0⟩, ⟨Cert.KernelIdeal.S128, b1⟩, ⟨Cert.KernelIdeal.S128, b2⟩,
        ⟨Cert.KernelIdeal.S128, b3⟩] : List ((s : Shape) × (s.Idx → Ideal .f32)))[g]
      = ⟨Cert.KernelIdeal.S128, bg⟩)
    (j : Fin 128) (c : Fin 512) (hc : c.val = 128 * g + j.val) :
    concatenate Cert.KernelIdeal.S512 0
        [⟨Cert.KernelIdeal.S128, b0⟩, ⟨Cert.KernelIdeal.S128, b1⟩, ⟨Cert.KernelIdeal.S128, b2⟩,
          ⟨Cert.KernelIdeal.S128, b3⟩]
        Cert.KernelIdeal.Facts₀.concatenates_S128_S128_S128_S128_S512_d0 (ValueIdx.ix1 c)
      = bg (ValueIdx.ix1 j) := by
  refine concatenate_apply_piece (t := Cert.KernelIdeal.S512) (0 : Fin 1)
    [⟨Cert.KernelIdeal.S128, b0⟩, ⟨Cert.KernelIdeal.S128, b1⟩, ⟨Cert.KernelIdeal.S128, b2⟩,
      ⟨Cert.KernelIdeal.S128, b3⟩]
    Cert.KernelIdeal.Facts₀.concatenates_S128_S128_S128_S128_S512_d0
    (ValueIdx.ix1 c) g hg Cert.KernelIdeal.S128 bg hb rfl (128 * g) ?_
    (ValueIdx.ix1 j) ?_ ?_
  · interval_cases g <;> rfl
  · intro b hb'
    match b with
    | ⟨0, _⟩ => exact absurd rfl hb'
  · show 128 * g + j.val = c.val
    omega

/-- A vector of 512 entries recast as one row of 512, read at column `c`: the vector's entry `c`
    (both sit at row-major position `c`). -/
theorem Proj.rowCast512_apply (v : FVec Ideal Cert.KernelIdeal.S512 .f32) (c : Fin 512) :
    shapeCast Cert.KernelIdeal.S1x512 v Cert.KernelIdeal.Facts₀.shapeCasts_S512_S1x512 (ValueIdx.ix2 (0 : Fin 1) c)
      = v (ValueIdx.ix1 c) := by
  refine shapeCast_apply v _ _ (ValueIdx.ix1 c) ?_
  rw [Shape.rowMajor_val_one, Shape.rowMajor_val_two]
  show c.val = 0 * 512 + c.val
  omega

/-- The contraction of a 50000x128 array with a 128x128 matrix over the 128-axis, read at row `r`, column `j`: over the
    extended reals it is `∑ k < 128, x[r,k] · w[k,j]`. The contraction index has one coordinate and is re-indexed by it;
    the left operand is read at (the output's row, `k`), the right at (`k`, the output's column). -/
theorem Proj.dot_apply (x : FVec Ideal Cert.ReferenceIdeal.S50000x128 .f32) (w : FVec Ideal Cert.ReferenceIdeal.S128x128 .f32)
    (r : Fin 50000) (j : Fin 128) :
    Host.dotGeneral (F := Ideal) Cert.ReferenceIdeal.dot_S50000x128_S128x128_S50000x128_1_0_0_1_n_n none x w (ValueIdx.ix2 r j)
      = ∑ k : Fin 128, x (ValueIdx.ix2 r k) * w (ValueIdx.ix2 k j) := by
  simp only [Host.dotGeneral]
  rw [Ideal.dotGeneral_apply,
    ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have l0 : ∀ q : Cert.ReferenceIdeal.dot_S50000x128_S128x128_S50000x128_1_0_0_1_n_n.contr.Idx,
      (Cert.ReferenceIdeal.dot_S50000x128_S128x128_S50000x128_1_0_0_1_n_n.lhsIdx (ValueIdx.ix2 r j) q 0).val = r.val :=
    fun q => by
    unfold DotDims.lhsIdx
    rw [dif_neg (show ¬(0 : Fin Cert.ReferenceIdeal.S50000x128.rank)
          ∈ Cert.ReferenceIdeal.dot_S50000x128_S128x128_S50000x128_1_0_0_1_n_n.lhsBatch by decide),
      dif_pos (show (0 : Fin Cert.ReferenceIdeal.S50000x128.rank)
          ∈ Cert.ReferenceIdeal.dot_S50000x128_S128x128_S50000x128_1_0_0_1_n_n.lhsNonContracting by decide)]
    rfl
  have r1 : ∀ q : Cert.ReferenceIdeal.dot_S50000x128_S128x128_S50000x128_1_0_0_1_n_n.contr.Idx,
      (Cert.ReferenceIdeal.dot_S50000x128_S128x128_S50000x128_1_0_0_1_n_n.rhsIdx (ValueIdx.ix2 r j) q 1).val = j.val :=
    fun q => by
    unfold DotDims.rhsIdx
    rw [dif_neg (show ¬(1 : Fin Cert.ReferenceIdeal.S128x128.rank)
          ∈ Cert.ReferenceIdeal.dot_S50000x128_S128x128_S50000x128_1_0_0_1_n_n.rhsBatch by decide),
      dif_pos (show (1 : Fin Cert.ReferenceIdeal.S128x128.rank)
          ∈ Cert.ReferenceIdeal.dot_S50000x128_S128x128_S50000x128_1_0_0_1_n_n.rhsNonContracting by decide)]
    rfl
  have el : Cert.ReferenceIdeal.dot_S50000x128_S128x128_S50000x128_1_0_0_1_n_n.lhsIdx (ValueIdx.ix2 r j)
      ((ValueIdx.contrEquiv1 Cert.ReferenceIdeal.dot_S50000x128_S128x128_S50000x128_1_0_0_1_n_n 128 rfl rfl).symm k)
        = ValueIdx.ix2 r k :=
    funext fun a => Fin.ext (by
      match a with
      | ⟨0, _⟩ => exact l0 _
      | ⟨1, _⟩ =>
        exact ((Cert.ReferenceIdeal.dot_S50000x128_S128x128_S50000x128_1_0_0_1_n_n).lhsIdx_val_of_single rfl _ _).trans hk)
  have er : Cert.ReferenceIdeal.dot_S50000x128_S128x128_S50000x128_1_0_0_1_n_n.rhsIdx (ValueIdx.ix2 r j)
      ((ValueIdx.contrEquiv1 Cert.ReferenceIdeal.dot_S50000x128_S128x128_S50000x128_1_0_0_1_n_n 128 rfl rfl).symm k)
        = ValueIdx.ix2 k j :=
    funext fun a => Fin.ext (by
      match a with
      | ⟨0, _⟩ =>
        exact ((Cert.ReferenceIdeal.dot_S50000x128_S128x128_S50000x128_1_0_0_1_n_n).rhsIdx_val_of_single rfl _ _).trans hk
      | ⟨1, _⟩ => exact r1 _)
  rw [el, er]

/-- The projection function at row `r`, column `c`, its bias row read at column `c`. -/
theorem Proj.projFn_apply (x : FVec Ideal Cert.KernelIdeal.S50000x128 .f32) (w : FVec Ideal Cert.KernelIdeal.S128x512 .f32)
    (b : FVec Ideal Cert.KernelIdeal.S1x512 .f32) (r : Fin 50000) (c : Fin 512) :
    Cert.Spec.projFn x w b (ValueIdx.ix2 r c)
      = (∑ k : Fin 128, x (ValueIdx.ix2 r k) * w (ValueIdx.ix2 k c)) + b (ValueIdx.ix2 (0 : Fin 1) c) :=
  rfl

/-- **The index-level core.** With the four weight matrices side by side and the four bias vectors end to end,
    column `c = 128·g + j` of `x · [W0|W1|W2|W3] + [b0;b1;b2;b3]` at row `r` is
    `∑ k < 128, x[r,k] · Wg[k,j] + bg[j]`: each term of the sum reads the wide matrix in piece `g`, and so does the bias.
    `hW` and `hb` say that piece `g` of either list is `Wg`, `bg`; at a literal `g` both are `rfl`. -/
theorem proj_core (x : FVec Ideal Cert.KernelIdeal.S50000x128 .f32)
    (W0 W1 W2 W3 Wg : FVec Ideal Cert.KernelIdeal.S128x128 .f32) (b0 b1 b2 b3 bg : FVec Ideal Cert.KernelIdeal.S128 .f32)
    (g : Nat) (hg : g < 4)
    (hW : ([⟨Cert.KernelIdeal.S128x128, W0⟩, ⟨Cert.KernelIdeal.S128x128, W1⟩, ⟨Cert.KernelIdeal.S128x128, W2⟩,
        ⟨Cert.KernelIdeal.S128x128, W3⟩] : List ((s : Shape) × (s.Idx → Ideal .f32)))[g]
      = ⟨Cert.KernelIdeal.S128x128, Wg⟩)
    (hb : ([⟨Cert.KernelIdeal.S128, b0⟩, ⟨Cert.KernelIdeal.S128, b1⟩, ⟨Cert.KernelIdeal.S128, b2⟩,
        ⟨Cert.KernelIdeal.S128, b3⟩] : List ((s : Shape) × (s.Idx → Ideal .f32)))[g]
      = ⟨Cert.KernelIdeal.S128, bg⟩)
    (r : Fin 50000) (j : Fin 128) (c : Fin 512) (hc : c.val = 128 * g + j.val) :
    Cert.Spec.projFn x
        (concatenate Cert.KernelIdeal.S128x512 1
          [⟨Cert.KernelIdeal.S128x128, W0⟩, ⟨Cert.KernelIdeal.S128x128, W1⟩, ⟨Cert.KernelIdeal.S128x128, W2⟩,
            ⟨Cert.KernelIdeal.S128x128, W3⟩]
          Cert.KernelIdeal.Facts₀.concatenates_S128x128_S128x128_S128x128_S128x128_S128x512_d1)
        (shapeCast Cert.KernelIdeal.S1x512
          (concatenate Cert.KernelIdeal.S512 0
            [⟨Cert.KernelIdeal.S128, b0⟩, ⟨Cert.KernelIdeal.S128, b1⟩, ⟨Cert.KernelIdeal.S128, b2⟩,
              ⟨Cert.KernelIdeal.S128, b3⟩]
            Cert.KernelIdeal.Facts₀.concatenates_S128_S128_S128_S128_S512_d0)
          Cert.KernelIdeal.Facts₀.shapeCasts_S512_S1x512)
        (ValueIdx.ix2 r c)
      = (∑ k : Fin 128, x (ValueIdx.ix2 r k) * Wg (ValueIdx.ix2 k j)) + bg (ValueIdx.ix1 j) := by
  refine (Proj.projFn_apply _ _ _ r c).trans ?_
  rw [Proj.rowCast512_apply _ c, Proj.longCat_apply b0 b1 b2 b3 bg g hg hb j c hc]
  refine congrArg (· + bg (ValueIdx.ix1 j)) (Finset.sum_congr rfl fun k _ => ?_)
  rw [Proj.wideCat_apply W0 W1 W2 W3 Wg g hg hW k j c hc]

/-- Columns 0 … 127 of the four projections at once are the first projection: `x · W0 + b0`. -/
theorem proj_cols_0 (x : FVec Ideal Cert.KernelIdeal.S50000x128 .f32)
    (W0 W1 W2 W3 : FVec Ideal Cert.KernelIdeal.S128x128 .f32) (b0 b1 b2 b3 : FVec Ideal Cert.KernelIdeal.S128 .f32) :
    extractStridedSlice Cert.KernelIdeal.S50000x128 ![0, 0]
        (Cert.Spec.projFn x
          (concatenate Cert.KernelIdeal.S128x512 1
            [⟨Cert.KernelIdeal.S128x128, W0⟩, ⟨Cert.KernelIdeal.S128x128, W1⟩, ⟨Cert.KernelIdeal.S128x128, W2⟩,
              ⟨Cert.KernelIdeal.S128x128, W3⟩]
            Cert.KernelIdeal.Facts₀.concatenates_S128x128_S128x128_S128x128_S128x128_S128x512_d1)
          (shapeCast Cert.KernelIdeal.S1x512
            (concatenate Cert.KernelIdeal.S512 0
              [⟨Cert.KernelIdeal.S128, b0⟩, ⟨Cert.KernelIdeal.S128, b1⟩, ⟨Cert.KernelIdeal.S128, b2⟩,
                ⟨Cert.KernelIdeal.S128, b3⟩]
              Cert.KernelIdeal.Facts₀.concatenates_S128_S128_S128_S128_S512_d0)
            Cert.KernelIdeal.Facts₀.shapeCasts_S512_S1x512))
        Cert.KernelIdeal.Facts₀.slices_S50000x512_S50000x128_0_0
      = addf (Host.dotGeneral (F := Ideal) Cert.ReferenceIdeal.dot_S50000x128_S128x128_S50000x128_1_0_0_1_n_n none x W0)
          (broadcastInDim Cert.ReferenceIdeal.S50000x128 ![0, 1] Cert.ReferenceIdeal.Gen.bcast_S1x128_S50000x128_0_1
            (broadcastInDim Cert.ReferenceIdeal.S1x128 ![1] Cert.ReferenceIdeal.Gen.bcast_S128_S1x128_1 b0)) := by
  funext i
  obtain ⟨r, j, rfl⟩ : ∃ (r : Fin 50000) (j : Fin 128), i = ValueIdx.ix2 r j := ⟨i 0, i 1, ValueIdx.eq_ix2 i⟩
  have hj : j.val < 128 := j.isLt
  refine (extractStridedSlice_apply ![0, 0] _ Cert.KernelIdeal.Facts₀.slices_S50000x512_S50000x128_0_0
    (ValueIdx.ix2 r j) (ValueIdx.ix2 r (⟨0 + j.val, by omega⟩ : Fin 512)) (fun a => match a with
      | ⟨0, _⟩ => by show r.val = 0 + r.val; omega
      | ⟨1, _⟩ => by show 0 + j.val = 0 + j.val; rfl)).trans ?_
  refine (proj_core x W0 W1 W2 W3 W0 b0 b1 b2 b3 b0 0 (by decide) rfl rfl r j ⟨0 + j.val, by omega⟩
    (by show 0 + j.val = 128 * 0 + j.val; omega)).trans ?_
  simp only [ValueIdx.addf_apply]
  rw [Proj.dot_apply x W0 r j, Proj.biasRows_apply b0 r j]

/-- Columns 128 … 255 of the four projections at once are the second projection: `x · W1 + b1`. -/
theorem proj_cols_1 (x : FVec Ideal Cert.KernelIdeal.S50000x128 .f32)
    (W0 W1 W2 W3 : FVec Ideal Cert.KernelIdeal.S128x128 .f32) (b0 b1 b2 b3 : FVec Ideal Cert.KernelIdeal.S128 .f32) :
    extractStridedSlice Cert.KernelIdeal.S50000x128 ![0, 128]
        (Cert.Spec.projFn x
          (concatenate Cert.KernelIdeal.S128x512 1
            [⟨Cert.KernelIdeal.S128x128, W0⟩, ⟨Cert.KernelIdeal.S128x128, W1⟩, ⟨Cert.KernelIdeal.S128x128, W2⟩,
              ⟨Cert.KernelIdeal.S128x128, W3⟩]
            Cert.KernelIdeal.Facts₀.concatenates_S128x128_S128x128_S128x128_S128x128_S128x512_d1)
          (shapeCast Cert.KernelIdeal.S1x512
            (concatenate Cert.KernelIdeal.S512 0
              [⟨Cert.KernelIdeal.S128, b0⟩, ⟨Cert.KernelIdeal.S128, b1⟩, ⟨Cert.KernelIdeal.S128, b2⟩,
                ⟨Cert.KernelIdeal.S128, b3⟩]
              Cert.KernelIdeal.Facts₀.concatenates_S128_S128_S128_S128_S512_d0)
            Cert.KernelIdeal.Facts₀.shapeCasts_S512_S1x512))
        Cert.KernelIdeal.Facts₀.slices_S50000x512_S50000x128_0_128
      = addf (Host.dotGeneral (F := Ideal) Cert.ReferenceIdeal.dot_S50000x128_S128x128_S50000x128_1_0_0_1_n_n none x W1)
          (broadcastInDim Cert.ReferenceIdeal.S50000x128 ![0, 1] Cert.ReferenceIdeal.Gen.bcast_S1x128_S50000x128_0_1
            (broadcastInDim Cert.ReferenceIdeal.S1x128 ![1] Cert.ReferenceIdeal.Gen.bcast_S128_S1x128_1 b1)) := by
  funext i
  obtain ⟨r, j, rfl⟩ : ∃ (r : Fin 50000) (j : Fin 128), i = ValueIdx.ix2 r j := ⟨i 0, i 1, ValueIdx.eq_ix2 i⟩
  have hj : j.val < 128 := j.isLt
  refine (extractStridedSlice_apply ![0, 128] _ Cert.KernelIdeal.Facts₀.slices_S50000x512_S50000x128_0_128
    (ValueIdx.ix2 r j) (ValueIdx.ix2 r (⟨128 + j.val, by omega⟩ : Fin 512)) (fun a => match a with
      | ⟨0, _⟩ => by show r.val = 0 + r.val; omega
      | ⟨1, _⟩ => by show 128 + j.val = 128 + j.val; rfl)).trans ?_
  refine (proj_core x W0 W1 W2 W3 W1 b0 b1 b2 b3 b1 1 (by decide) rfl rfl r j ⟨128 + j.val, by omega⟩
    (by show 128 + j.val = 128 * 1 + j.val; omega)).trans ?_
  simp only [ValueIdx.addf_apply]
  rw [Proj.dot_apply x W1 r j, Proj.biasRows_apply b1 r j]

/-- Columns 256 … 383 of the four projections at once are the third projection: `x · W2 + b2`. -/
theorem proj_cols_2 (x : FVec Ideal Cert.KernelIdeal.S50000x128 .f32)
    (W0 W1 W2 W3 : FVec Ideal Cert.KernelIdeal.S128x128 .f32) (b0 b1 b2 b3 : FVec Ideal Cert.KernelIdeal.S128 .f32) :
    extractStridedSlice Cert.KernelIdeal.S50000x128 ![0, 256]
        (Cert.Spec.projFn x
          (concatenate Cert.KernelIdeal.S128x512 1
            [⟨Cert.KernelIdeal.S128x128, W0⟩, ⟨Cert.KernelIdeal.S128x128, W1⟩, ⟨Cert.KernelIdeal.S128x128, W2⟩,
              ⟨Cert.KernelIdeal.S128x128, W3⟩]
            Cert.KernelIdeal.Facts₀.concatenates_S128x128_S128x128_S128x128_S128x128_S128x512_d1)
          (shapeCast Cert.KernelIdeal.S1x512
            (concatenate Cert.KernelIdeal.S512 0
              [⟨Cert.KernelIdeal.S128, b0⟩, ⟨Cert.KernelIdeal.S128, b1⟩, ⟨Cert.KernelIdeal.S128, b2⟩,
                ⟨Cert.KernelIdeal.S128, b3⟩]
              Cert.KernelIdeal.Facts₀.concatenates_S128_S128_S128_S128_S512_d0)
            Cert.KernelIdeal.Facts₀.shapeCasts_S512_S1x512))
        Cert.KernelIdeal.Facts₀.slices_S50000x512_S50000x128_0_256
      = addf (Host.dotGeneral (F := Ideal) Cert.ReferenceIdeal.dot_S50000x128_S128x128_S50000x128_1_0_0_1_n_n none x W2)
          (broadcastInDim Cert.ReferenceIdeal.S50000x128 ![0, 1] Cert.ReferenceIdeal.Gen.bcast_S1x128_S50000x128_0_1
            (broadcastInDim Cert.ReferenceIdeal.S1x128 ![1] Cert.ReferenceIdeal.Gen.bcast_S128_S1x128_1 b2)) := by
  funext i
  obtain ⟨r, j, rfl⟩ : ∃ (r : Fin 50000) (j : Fin 128), i = ValueIdx.ix2 r j := ⟨i 0, i 1, ValueIdx.eq_ix2 i⟩
  have hj : j.val < 128 := j.isLt
  refine (extractStridedSlice_apply ![0, 256] _ Cert.KernelIdeal.Facts₀.slices_S50000x512_S50000x128_0_256
    (ValueIdx.ix2 r j) (ValueIdx.ix2 r (⟨256 + j.val, by omega⟩ : Fin 512)) (fun a => match a with
      | ⟨0, _⟩ => by show r.val = 0 + r.val; omega
      | ⟨1, _⟩ => by show 256 + j.val = 256 + j.val; rfl)).trans ?_
  refine (proj_core x W0 W1 W2 W3 W2 b0 b1 b2 b3 b2 2 (by decide) rfl rfl r j ⟨256 + j.val, by omega⟩
    (by show 256 + j.val = 128 * 2 + j.val; omega)).trans ?_
  simp only [ValueIdx.addf_apply]
  rw [Proj.dot_apply x W2 r j, Proj.biasRows_apply b2 r j]

/-- Columns 384 … 511 of the four projections at once are the fourth projection: `x · W3 + b3`. -/
theorem proj_cols_3 (x : FVec Ideal Cert.KernelIdeal.S50000x128 .f32)
    (W0 W1 W2 W3 : FVec Ideal Cert.KernelIdeal.S128x128 .f32) (b0 b1 b2 b3 : FVec Ideal Cert.KernelIdeal.S128 .f32) :
    extractStridedSlice Cert.KernelIdeal.S50000x128 ![0, 384]
        (Cert.Spec.projFn x
          (concatenate Cert.KernelIdeal.S128x512 1
            [⟨Cert.KernelIdeal.S128x128, W0⟩, ⟨Cert.KernelIdeal.S128x128, W1⟩, ⟨Cert.KernelIdeal.S128x128, W2⟩,
              ⟨Cert.KernelIdeal.S128x128, W3⟩]
            Cert.KernelIdeal.Facts₀.concatenates_S128x128_S128x128_S128x128_S128x128_S128x512_d1)
          (shapeCast Cert.KernelIdeal.S1x512
            (concatenate Cert.KernelIdeal.S512 0
              [⟨Cert.KernelIdeal.S128, b0⟩, ⟨Cert.KernelIdeal.S128, b1⟩, ⟨Cert.KernelIdeal.S128, b2⟩,
                ⟨Cert.KernelIdeal.S128, b3⟩]
              Cert.KernelIdeal.Facts₀.concatenates_S128_S128_S128_S128_S512_d0)
            Cert.KernelIdeal.Facts₀.shapeCasts_S512_S1x512))
        Cert.KernelIdeal.Facts₀.slices_S50000x512_S50000x128_0_384
      = addf (Host.dotGeneral (F := Ideal) Cert.ReferenceIdeal.dot_S50000x128_S128x128_S50000x128_1_0_0_1_n_n none x W3)
          (broadcastInDim Cert.ReferenceIdeal.S50000x128 ![0, 1] Cert.ReferenceIdeal.Gen.bcast_S1x128_S50000x128_0_1
            (broadcastInDim Cert.ReferenceIdeal.S1x128 ![1] Cert.ReferenceIdeal.Gen.bcast_S128_S1x128_1 b3)) := by
  funext i
  obtain ⟨r, j, rfl⟩ : ∃ (r : Fin 50000) (j : Fin 128), i = ValueIdx.ix2 r j := ⟨i 0, i 1, ValueIdx.eq_ix2 i⟩
  have hj : j.val < 128 := j.isLt
  refine (extractStridedSlice_apply ![0, 384] _ Cert.KernelIdeal.Facts₀.slices_S50000x512_S50000x128_0_384
    (ValueIdx.ix2 r j) (ValueIdx.ix2 r (⟨384 + j.val, by omega⟩ : Fin 512)) (fun a => match a with
      | ⟨0, _⟩ => by show r.val = 0 + r.val; omega
      | ⟨1, _⟩ => by show 384 + j.val = 384 + j.val; rfl)).trans ?_
  refine (proj_core x W0 W1 W2 W3 W3 b0 b1 b2 b3 b3 3 (by decide) rfl rfl r j ⟨384 + j.val, by omega⟩
    (by show 384 + j.val = 128 * 3 + j.val; omega)).trans ?_
  simp only [ValueIdx.addf_apply]
  rw [Proj.dot_apply x W3 r j, Proj.biasRows_apply b3 r j]

/-- The right-hand side of the four equations above is, by unfolding definitions only, the generated reading of the
    reference's "contraction plus repeated bias" at the same operands. -/
theorem proj_rhs_eq_read (x : FVec Ideal Cert.ReferenceIdeal.S50000x128 .f32) (w : FVec Ideal Cert.ReferenceIdeal.S128x128 .f32)
    (b : FVec Ideal Cert.ReferenceIdeal.S128 .f32) :
    addf (Host.dotGeneral (F := Ideal) Cert.ReferenceIdeal.dot_S50000x128_S128x128_S50000x128_1_0_0_1_n_n none x w)
        (broadcastInDim Cert.ReferenceIdeal.S50000x128 ![0, 1] Cert.ReferenceIdeal.Gen.bcast_S1x128_S50000x128_0_1
          (broadcastInDim Cert.ReferenceIdeal.S1x128 ![1] Cert.ReferenceIdeal.Gen.bcast_S128_S1x128_1 b))
      = Cert.ReferenceIdeal.Read.val_main_v7 (F := Ideal) x w b :=
  rfl

end Cert.Bridge

end
-- ==== Proof.Bridge.Comb.lean ====
/-
  The combination step, as an equation between whole arrays over the extended reals.

  One side adds the summed messages `a` to (skip projection `d` plus its bias `bs`), then adds the layer bias `b`
  (given as a vector recast to one row) and clamps below at zero. The other side adds `a + d` first, then `bs`, then `b`,
  each bias a vector of 128 entries laid along the columns and repeated down the 50000 rows, and clamps against a
  zero-filled array. Entry by entry: `(a + (d + bs)) + b = ((a + d) + bs) + b`, associativity of addition on the extended
  reals (a commutative monoid: no finiteness is needed), and both clamps are `max · z` with the same zero word `z`.
-/
import proofs.«176839_j28836410425876_1_alg».proof.Proof.Spec
import proofs.«176839_j28836410425876_1_alg».proof.Proof.Gen.ReferenceIdeal.Read
import proofs.«176839_j28836410425876_1_alg».proof.KernelIdeal
import Idealize.ShloMosaic.Lib.Pipeline.Value
import Idealize.ShloMosaic.Lib.ValueIdx
import Idealize.ShloMosaic.PureOps.Ideal.Laws

noncomputable section

namespace Cert.Bridge

open Idealize.ShloMosaic

variable [Cert.KernelIdeal.Facts₀]

/-- A vector of 128 entries laid along the columns and repeated down the 50000 rows (first made one row of 128, then
    repeated), read at row `r`, column `j`: the vector's entry `j`. -/
theorem Comb.biasRows_apply (v : FVec Ideal Cert.ReferenceIdeal.S128 .f32) (r : Fin 50000) (j : Fin 128) :
    broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 v) (ValueIdx.ix2 r j)
      = v (ValueIdx.ix1 j) := by
  refine (broadcastInDim_apply _ Cert.ReferenceIdeal.Gen.bcast_S1x128_S50000x128_0_1 _ (ValueIdx.ix2 r j)
    (ValueIdx.ix2 (0 : Fin 1) j) (fun a => match a with
      | ⟨0, _⟩ => by show 0 = if (1 : Nat) = 1 then 0 else r.val; rw [if_pos rfl]
      | ⟨1, _⟩ => by show j.val = if (128 : Nat) = 1 then 0 else j.val; rw [if_neg (by decide)])).trans ?_
  exact broadcastInDim_apply _ Cert.ReferenceIdeal.Gen.bcast_S128_S1x128_1 v (ValueIdx.ix2 (0 : Fin 1) j) (ValueIdx.ix1 j)
    (fun a => match a with
      | ⟨0, _⟩ => by show j.val = if (128 : Nat) = 1 then 0 else j.val; rw [if_neg (by decide)])

/-- A vector of 128 entries recast as one row of 128, read at column `j`: the vector's entry `j`
    (both sit at row-major position `j`). -/
theorem Comb.rowCast128_apply (b : FVec Ideal Cert.KernelIdeal.S128 .f32) (j : Fin 128) :
    shapeCast Cert.KernelIdeal.S1x128 b Cert.KernelIdeal.Facts₀.shapeCasts_S128_S1x128 (ValueIdx.ix2 (0 : Fin 1) j)
      = b (ValueIdx.ix1 j) := by
  refine shapeCast_apply b _ _ (ValueIdx.ix1 j) ?_
  rw [Shape.rowMajor_val_one, Shape.rowMajor_val_two]
  show j.val = 0 * 128 + j.val
  omega

/-- The scalar zero word repeated over the 50000x128 array, read anywhere: the zero word. -/
theorem Comb.zeroFill_apply (i : Cert.ReferenceIdeal.S50000x128.Idx) :
    broadcastInDim Cert.ReferenceIdeal.S50000x128 ![] Cert.ReferenceIdeal.Gen.bcast_S_S50000x128
      (constant (F := Ideal) Cert.ReferenceIdeal.S_ .f32 0x00000000#32) i = Ideal.ofBits .f32 0x00000000#32 :=
  broadcastInDim_apply _ Cert.ReferenceIdeal.Gen.bcast_S_S50000x128 _ i ValueIdx.ix0 (fun a => a.elim0)

/-- The combination function at row `r`, column `j`, its bias row read at column `j`. -/
theorem Comb.combFn_apply (a s : FVec Ideal Cert.KernelIdeal.S50000x128 .f32) (b : FVec Ideal Cert.KernelIdeal.S1x128 .f32)
    (r : Fin 50000) (j : Fin 128) :
    Cert.Spec.combFn a s b (ValueIdx.ix2 r j)
      = max ((a (ValueIdx.ix2 r j) + s (ValueIdx.ix2 r j)) + b (ValueIdx.ix2 (0 : Fin 1) j)) (Ideal.ofBits .f32 0x00000000#32) :=
  rfl
/-- Messages plus (skip projection plus its bias), plus the layer bias, clamped at zero, is the reference's
    ((messages + skip projection) + its bias) + layer bias, clamped at zero: at each entry
    `(a + (d + s)) + b = ((a + d) + s) + b` by associativity of addition on the extended reals, and the two
    clamps are against the same zero word. -/
theorem comb_eq (a d : FVec Ideal Cert.KernelIdeal.S50000x128 .f32) (bs b : FVec Ideal Cert.KernelIdeal.S128 .f32) :
    Cert.Spec.combFn a
        (addf d (broadcastInDim Cert.ReferenceIdeal.S50000x128 ![0, 1] Cert.ReferenceIdeal.Gen.bcast_S1x128_S50000x128_0_1
          (broadcastInDim Cert.ReferenceIdeal.S1x128 ![1] Cert.ReferenceIdeal.Gen.bcast_S128_S1x128_1 bs)))
        (shapeCast Cert.KernelIdeal.S1x128 b Cert.KernelIdeal.Facts₀.shapeCasts_S128_S1x128)
      = maximumf
          (addf
            (addf (addf a d)
              (broadcastInDim Cert.ReferenceIdeal.S50000x128 ![0, 1] Cert.ReferenceIdeal.Gen.bcast_S1x128_S50000x128_0_1
                (broadcastInDim Cert.ReferenceIdeal.S1x128 ![1] Cert.ReferenceIdeal.Gen.bcast_S128_S1x128_1 bs)))
            (broadcastInDim Cert.ReferenceIdeal.S50000x128 ![0, 1] Cert.ReferenceIdeal.Gen.bcast_S1x128_S50000x128_0_1
              (broadcastInDim Cert.ReferenceIdeal.S1x128 ![1] Cert.ReferenceIdeal.Gen.bcast_S128_S1x128_1 b)))
          (broadcastInDim Cert.ReferenceIdeal.S50000x128 ![] Cert.ReferenceIdeal.Gen.bcast_S_S50000x128
            (constant (F := Ideal) Cert.ReferenceIdeal.S_ .f32 0x00000000#32)) := by
  funext i
  obtain ⟨r, j, rfl⟩ : ∃ (r : Fin 50000) (j : Fin 128), i = ValueIdx.ix2 r j := ⟨i 0, i 1, ValueIdx.eq_ix2 i⟩
  refine (Comb.combFn_apply _ _ _ r j).trans ?_
  simp only [ValueIdx.addf_apply, ValueIdx.maximumf_apply]
  rw [Comb.rowCast128_apply b j, Comb.biasRows_apply bs r j, Comb.biasRows_apply b r j,
    Comb.zeroFill_apply (ValueIdx.ix2 r j),
    add_assoc (a (ValueIdx.ix2 r j)) (d (ValueIdx.ix2 r j)) (bs (ValueIdx.ix1 j))]

end Cert.Bridge

end
-- ==== Proof.Value.Layer1.lean ====
/-
  The idealized kernel's first layer, buffer by buffer, as the reference's own stage values of the launch memory.
  Region 0 leaves the fused projection x·[Wk|Wq|Wv|Ws] + [bk;bq;bv;bs]; its four column groups are the key, query, value
  and skip projections x·W + b that the reference computes one by one. The gather / sigmoid weighting / scatter-add chain
  between the regions is the same list of operations in both programs, applied here to equal inputs, so the summed
  messages agree. Region 1 then adds messages, skip projection and layer bias and clamps at zero, which is the
  reference's ((messages + x·Ws) + bs) + b clamped at zero, by associativity of addition on the extended reals.
-/
import proofs.«176839_j28836410425876_1_alg».proof.Proof.KernelIdeal.Run
import proofs.«176839_j28836410425876_1_alg».proof.Proof.Blocks.Proj
import proofs.«176839_j28836410425876_1_alg».proof.Proof.Blocks.Comb
import proofs.«176839_j28836410425876_1_alg».proof.Proof.Bridge.Proj
import proofs.«176839_j28836410425876_1_alg».proof.Proof.Bridge.Comb
import proofs.«176839_j28836410425876_1_alg».proof.Proof.Gen.ReferenceIdeal.Read
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ)

/-! ## Buffers nothing has written yet -/

/-- A buffer the first host stretch does not write and region 0 does not output still holds its launch contents after region 0. -/
theorem W2_arg (c : Dev nD) (b : Ref sig .tc) (h0 : b ∉ hostOps0_W) (h1 : b ≠ Pipeline.arrRef spec0 3) :
    W2 m c (Proc.devRef .tc b) = m ((c : Thread nD τ).loc b) :=
  (W2_keep m c b h1).trans (StableHlo.after_of_writes_sub hostOps0 _ hostOps0_writes h0)
/-- … and likewise after region 1, -/
theorem W4_arg (c : Dev nD) (b : Ref sig .tc) (h0 : b ∉ hostOps0_W) (h1 : b ≠ Pipeline.arrRef spec0 3)
    (h2 : b ∉ hostOps1_W) (h3 : b ≠ Pipeline.arrRef spec1 3) : W4 m c (Proc.devRef .tc b) = m ((c : Thread nD τ).loc b) :=
  (W4_keep m c b h3).trans ((StableHlo.after_of_writes_sub hostOps1 _ hostOps1_writes h2).trans (W2_arg m c b h0 h1))
/-- … after region 2, -/
theorem W6_arg (c : Dev nD) (b : Ref sig .tc) (h0 : b ∉ hostOps0_W) (h1 : b ≠ Pipeline.arrRef spec0 3)
    (h2 : b ∉ hostOps1_W) (h3 : b ≠ Pipeline.arrRef spec1 3) (h4 : b ∉ hostOps2_W) (h5 : b ≠ Pipeline.arrRef spec2 3) :
    W6 m c (Proc.devRef .tc b) = m ((c : Thread nD τ).loc b) :=
  (W6_keep m c b h5).trans ((StableHlo.after_of_writes_sub hostOps2 _ hostOps2_writes h4).trans (W4_arg m c b h0 h1 h2 h3))
/-- … and after region 3. -/
theorem W8_arg (c : Dev nD) (b : Ref sig .tc) (h0 : b ∉ hostOps0_W) (h1 : b ≠ Pipeline.arrRef spec0 3)
    (h2 : b ∉ hostOps1_W) (h3 : b ≠ Pipeline.arrRef spec1 3) (h4 : b ∉ hostOps2_W) (h5 : b ≠ Pipeline.arrRef spec2 3)
    (h6 : b ∉ hostOps3_W) (h7 : b ≠ Pipeline.arrRef spec3 3) : W8 m c (Proc.devRef .tc b) = m ((c : Thread nD τ).loc b) :=
  (W8_keep m c b h7).trans ((StableHlo.after_of_writes_sub hostOps3 _ hostOps3_writes h6).trans (W6_arg m c b h0 h1 h2 h3 h4 h5))

/-! ## Region 0: the fused projection -/

/-- The node features enter region 0 as launched. -/
theorem enter0_x (c : Dev nD) : V1 m c main_arg0 = m ((c : Thread nD τ).loc main_arg0) :=
  StableHlo.after_of_writes_sub hostOps0 _ hostOps0_writes (by decide)

/-- The weight window's array: the four first-layer matrices side by side. -/
theorem enter0_w (c : Dev nD) : (V1 m c main_v4 : S128x512.Idx → EReal) =
    concatenate S128x512 1 [⟨S128x128, (m ((c : Thread nD τ).loc main_arg3))⟩, ⟨S128x128, (m ((c : Thread nD τ).loc main_arg5))⟩, ⟨S128x128, (m ((c : Thread nD τ).loc main_arg7))⟩, ⟨S128x128, (m ((c : Thread nD τ).loc main_arg9))⟩]
      concatenates_S128x128_S128x128_S128x128_S128x128_S128x512_d1 := by
  show StableHlo.after hostOps0 (W0 m c) (Proc.devRef .tc main_v4) = _
  after_results
  rfl

/-- The bias window's array: the four first-layer bias vectors end to end, as one row. -/
theorem enter0_b (c : Dev nD) : (V1 m c main_v6 : S1x512.Idx → EReal) =
    shapeCast S1x512 (concatenate S512 0 [⟨S128, (m ((c : Thread nD τ).loc main_arg4))⟩, ⟨S128, (m ((c : Thread nD τ).loc main_arg6))⟩, ⟨S128, (m ((c : Thread nD τ).loc main_arg8))⟩, ⟨S128, (m ((c : Thread nD τ).loc main_arg10))⟩]
      concatenates_S128_S128_S128_S128_S512_d0) shapeCasts_S512_S1x512 := by
  show StableHlo.after hostOps0 (W0 m c) (Proc.devRef .tc main_v6) = _
  after_results
  rfl

/-- After region 0 its output array is the fused projection of the launch contents. -/
theorem after0 (c : Dev nD) : (W2 m c (Proc.devRef .tc main_v7) : S50000x512.Idx → EReal) =
    Cert.Spec.projFn (m ((c : Thread nD τ).loc main_arg0))
      (concatenate S128x512 1 [⟨S128x128, (m ((c : Thread nD τ).loc main_arg3))⟩, ⟨S128x128, (m ((c : Thread nD τ).loc main_arg5))⟩, ⟨S128x128, (m ((c : Thread nD τ).loc main_arg7))⟩, ⟨S128x128, (m ((c : Thread nD τ).loc main_arg9))⟩]
        concatenates_S128x128_S128x128_S128x128_S128x128_S128x512_d1)
      (shapeCast S1x512 (concatenate S512 0 [⟨S128, (m ((c : Thread nD τ).loc main_arg4))⟩, ⟨S128, (m ((c : Thread nD τ).loc main_arg6))⟩, ⟨S128, (m ((c : Thread nD τ).loc main_arg8))⟩, ⟨S128, (m ((c : Thread nD τ).loc main_arg10))⟩]
        concatenates_S128_S128_S128_S128_S512_d0) shapeCasts_S512_S1x512) := by
  have h : W2 m c (Proc.devRef .tc main_v7) = Cert.Spec.projFn (V1 m c main_arg0) (V1 m c main_v4) (V1 m c main_v6) :=
    (W2_at m c 3).trans (final0 (V1 m) c)
  rw [enter0_x, enter0_w, enter0_b] at h
  exact h

/-! ## The inputs of the message chain -/

/-- The edges' source nodes, split out of the edge list before region 0 and untouched by it. -/
theorem src1 (c : Dev nD) : W2 m c (Proc.devRef .tc main_v1) = val_main_v1 (F := Ideal) (m ((c : Thread nD τ).loc main_arg1)) := by
  rw [W2_keep m c main_v1 (by decide)]
  show StableHlo.after hostOps0 (W0 m c) (Proc.devRef .tc main_v1) = _
  after_results
  rfl
/-- The edges' target nodes. -/
theorem dst1 (c : Dev nD) : W2 m c (Proc.devRef .tc main_v3) = val_main_v3 (F := Ideal) (m ((c : Thread nD τ).loc main_arg1)) := by
  rw [W2_keep m c main_v3 (by decide)]
  show StableHlo.after hostOps0 (W0 m c) (Proc.devRef .tc main_v3) = _
  after_results
  rfl

/-- Columns 0–127 of the fused projection are the key projection x·Wk + bk, -/
theorem key1 (c : Dev nD) : extractStridedSlice S50000x128 ![0, 0] (W2 m c (Proc.devRef .tc main_v7) : S50000x512.Idx → EReal)
    slices_S50000x512_S50000x128_0_0 = val_main_v7 (F := Ideal) (m ((c : Thread nD τ).loc main_arg0)) (m ((c : Thread nD τ).loc main_arg3)) (m ((c : Thread nD τ).loc main_arg4)) := by
  rw [after0 m c]
  exact Cert.Bridge.proj_cols_0 _ _ _ _ _ _ _ _ _
/-- columns 128–255 the query projection, -/
theorem query1 (c : Dev nD) : extractStridedSlice S50000x128 ![0, 128] (W2 m c (Proc.devRef .tc main_v7) : S50000x512.Idx → EReal)
    slices_S50000x512_S50000x128_0_128 = val_main_v11 (F := Ideal) (m ((c : Thread nD τ).loc main_arg0)) (m ((c : Thread nD τ).loc main_arg5)) (m ((c : Thread nD τ).loc main_arg6)) := by
  rw [after0 m c]
  exact Cert.Bridge.proj_cols_1 _ _ _ _ _ _ _ _ _
/-- columns 256–383 the value projection, -/
theorem value1 (c : Dev nD) : extractStridedSlice S50000x128 ![0, 256] (W2 m c (Proc.devRef .tc main_v7) : S50000x512.Idx → EReal)
    slices_S50000x512_S50000x128_0_256 = val_main_v15 (F := Ideal) (m ((c : Thread nD τ).loc main_arg0)) (m ((c : Thread nD τ).loc main_arg7)) (m ((c : Thread nD τ).loc main_arg8)) := by
  rw [after0 m c]
  exact Cert.Bridge.proj_cols_2 _ _ _ _ _ _ _ _ _
/-- and columns 384–511 the skip projection x·Ws + bs. -/
theorem skip1 (c : Dev nD) : extractStridedSlice S50000x128 ![0, 384] (W2 m c (Proc.devRef .tc main_v7) : S50000x512.Idx → EReal)
    slices_S50000x512_S50000x128_0_384 = (addf (val_main_v48 (F := Ideal) (m ((c : Thread nD τ).loc main_arg0)) (m ((c : Thread nD τ).loc main_arg9))) (val_main_v51 (F := Ideal) (m ((c : Thread nD τ).loc main_arg10))) : FVec Ideal S50000x128 .f32) := by
  rw [after0 m c]
  exact Cert.Bridge.proj_cols_3 _ _ _ _ _ _ _ _ _

/-! ## Between the regions: the gated messages summed per target node -/

set_option maxHeartbeats 4000000 in
/-- The summed messages entering region 1 are the reference's: the same chain of gathers, sigmoid weighting and scatter-add, applied
    to the same keys, queries, values and edge endpoints. -/
theorem agg1 (c : Dev nD) : (W3 m c (Proc.devRef .tc main_v43) : S50000x128.Idx → EReal) =
    val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps1 (W2 m c) (Proc.devRef .tc main_v43) = _
  after_results_simp
  rw [key1 m c, query1 m c, value1 m c, src1 m c, dst1 m c]
  simp only [val_main_v47, val_main_v46, val_main_v45, val_main_cst_6, val_main_v44, val_main_v43, val_main_v42, val_main_v41, val_main_v40, val_main_v39, val_main_c_5, val_main_v38, val_main_v37, val_main_c_4, val_main_v36, val_main_v35, val_main_cst_3, val_main_v34, val_main_v33, val_main_cst, val_main_v32, val_main_v31, val_main_v30, val_main_v29, val_main_v28, val_main_v27, val_main_v26, val_main_v25, val_main_c_2, val_main_v24, val_main_v23, val_main_c_1, val_main_v22, val_main_v21, val_main_v20, val_main_v19, val_main_v18, val_main_c_0, val_main_v17, val_main_v16, val_main_c]
  rfl

/-- The skip rows entering region 1. -/
theorem skipRows1 (c : Dev nD) : (W3 m c (Proc.devRef .tc main_v11) : S50000x128.Idx → EReal) =
    (addf (val_main_v48 (F := Ideal) (m ((c : Thread nD τ).loc main_arg0)) (m ((c : Thread nD τ).loc main_arg9))) (val_main_v51 (F := Ideal) (m ((c : Thread nD τ).loc main_arg10))) : FVec Ideal S50000x128 .f32) := by
  show StableHlo.after hostOps1 (W2 m c) (Proc.devRef .tc main_v11) = _
  after_results_simp
  exact skip1 m c

/-- The layer bias entering region 1, as one row. -/
theorem biasRow1 (c : Dev nD) : (W3 m c (Proc.devRef .tc main_v44) : S1x128.Idx → EReal) =
    shapeCast S1x128 (m ((c : Thread nD τ).loc main_arg11)) shapeCasts_S128_S1x128 := by
  show StableHlo.after hostOps1 (W2 m c) (Proc.devRef .tc main_v44) = _
  after_results_simp
  rw [W2_arg m c main_arg11 (by decide) (by decide)]
  rfl

/-! ## Region 1: the first layer's node features -/

/-- After region 1 its output array is the reference's first-layer features. -/
theorem feat1 (c : Dev nD) : (W4 m c (Proc.devRef .tc main_v45) : S50000x128.Idx → EReal) =
    val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h : W4 m c (Proc.devRef .tc main_v45) = Cert.Spec.combFn (W3 m c (Proc.devRef .tc main_v43))
      (W3 m c (Proc.devRef .tc main_v11)) (W3 m c (Proc.devRef .tc main_v44)) :=
    (W4_at m c 3).trans (final1 (V3 m) c)
  rw [agg1 m c, skipRows1 m c, biasRow1 m c] at h
  refine h.trans ((Cert.Bridge.comb_eq _ _ _ _).trans ?_)
  simp only [val_main_v56, val_main_v55, val_main_v54, val_main_v53, val_main_v52, val_main_v51, val_main_v50, val_main_v49,
    val_main_call0_v0, val_main_call0_cst]

end Cert.KernelIdeal.Hand

end
-- ==== Proof.Value.Layer2.lean ====
/-
  The idealized kernel's second layer, buffer by buffer, as the reference's own stage values of the launch memory,
  given that the first layer's output array holds the reference's first-layer features h.
  Region 2 leaves the fused projection h·[Wk|Wq|Wv|Ws] + [bk;bq;bv;bs] of the second layer's weights; its four column
  groups are the key, query, value and skip projections h·W + b that the reference computes one by one. The edge
  endpoints were split out of the edge list before the first region and nothing has written them since. The gather /
  sigmoid weighting / scatter-add chain between the regions is the same list of operations in both programs, applied here to
  equal inputs, so the summed messages agree. Region 3 then adds messages, skip projection and layer bias and clamps at
  zero, which is the reference's ((messages + h·Ws) + bs) + b clamped at zero, by associativity of addition on the
  extended reals.
-/
import proofs.«176839_j28836410425876_1_alg».proof.Proof.KernelIdeal.Run
import proofs.«176839_j28836410425876_1_alg».proof.Proof.Blocks.Proj
import proofs.«176839_j28836410425876_1_alg».proof.Proof.Blocks.Comb
import proofs.«176839_j28836410425876_1_alg».proof.Proof.Bridge.Proj
import proofs.«176839_j28836410425876_1_alg».proof.Proof.Bridge.Comb
import proofs.«176839_j28836410425876_1_alg».proof.Proof.Gen.ReferenceIdeal.Read
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ)

/-- The first layer's node features as the reference computes them from the launch contents. -/
abbrev feat1Ref (c : Dev nD) : S50000x128.Idx → EReal :=
  val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## Buffers nothing has written yet -/

/-- A buffer the first host stretch does not write and region 0 does not output still holds its launch contents after region 0, -/
theorem still2 (c : Dev nD) (b : Ref sig .tc) (h0 : b ∉ hostOps0_W) (h1 : b ≠ Pipeline.arrRef spec0 3) :
    W2 m c (Proc.devRef .tc b) = m ((c : Thread nD τ).loc b) :=
  (W2_keep m c b h1).trans (StableHlo.after_of_writes_sub hostOps0 _ hostOps0_writes h0)
/-- … after region 1, -/
theorem still4 (c : Dev nD) (b : Ref sig .tc) (h0 : b ∉ hostOps0_W) (h1 : b ≠ Pipeline.arrRef spec0 3)
    (h2 : b ∉ hostOps1_W) (h3 : b ≠ Pipeline.arrRef spec1 3) : W4 m c (Proc.devRef .tc b) = m ((c : Thread nD τ).loc b) :=
  (W4_keep m c b h3).trans ((StableHlo.after_of_writes_sub hostOps1 _ hostOps1_writes h2).trans (still2 m c b h0 h1))
/-- … after region 2, -/
theorem still6 (c : Dev nD) (b : Ref sig .tc) (h0 : b ∉ hostOps0_W) (h1 : b ≠ Pipeline.arrRef spec0 3)
    (h2 : b ∉ hostOps1_W) (h3 : b ≠ Pipeline.arrRef spec1 3) (h4 : b ∉ hostOps2_W) (h5 : b ≠ Pipeline.arrRef spec2 3) :
    W6 m c (Proc.devRef .tc b) = m ((c : Thread nD τ).loc b) :=
  (W6_keep m c b h5).trans ((StableHlo.after_of_writes_sub hostOps2 _ hostOps2_writes h4).trans (still4 m c b h0 h1 h2 h3))
/-- … and after region 3. -/
theorem still8 (c : Dev nD) (b : Ref sig .tc) (h0 : b ∉ hostOps0_W) (h1 : b ≠ Pipeline.arrRef spec0 3)
    (h2 : b ∉ hostOps1_W) (h3 : b ≠ Pipeline.arrRef spec1 3) (h4 : b ∉ hostOps2_W) (h5 : b ≠ Pipeline.arrRef spec2 3)
    (h6 : b ∉ hostOps3_W) (h7 : b ≠ Pipeline.arrRef spec3 3) : W8 m c (Proc.devRef .tc b) = m ((c : Thread nD τ).loc b) :=
  (W8_keep m c b h7).trans ((StableHlo.after_of_writes_sub hostOps3 _ hostOps3_writes h6).trans (still6 m c b h0 h1 h2 h3 h4 h5))

/-! ## Region 2: the second layer's fused projection -/

/-- The first layer's features enter region 2 as region 1 left them. -/
theorem enter2_x (c : Dev nD) : V5 m c main_v45 = W4 m c (Proc.devRef .tc main_v45) :=
  StableHlo.after_of_writes_sub hostOps2 _ hostOps2_writes (by decide)

/-- The weight window's array: the four second-layer matrices side by side. -/
theorem enter2_w (c : Dev nD) : (V5 m c main_v46 : S128x512.Idx → EReal) =
    concatenate S128x512 1 [⟨S128x128, (m ((c : Thread nD τ).loc main_arg12))⟩, ⟨S128x128, (m ((c : Thread nD τ).loc main_arg14))⟩, ⟨S128x128, (m ((c : Thread nD τ).loc main_arg16))⟩, ⟨S128x128, (m ((c : Thread nD τ).loc main_arg18))⟩]
      concatenates_S128x128_S128x128_S128x128_S128x128_S128x512_d1 := by
  have h : (StableHlo.after hostOps2 (W4 m c) (Proc.devRef .tc main_v46) : S128x512.Idx → EReal)
      = concatenate S128x512 1 [⟨S128x128, (W4 m c (Proc.devRef .tc main_arg12))⟩, ⟨S128x128, (W4 m c (Proc.devRef .tc main_arg14))⟩, ⟨S128x128, (W4 m c (Proc.devRef .tc main_arg16))⟩, ⟨S128x128, (W4 m c (Proc.devRef .tc main_arg18))⟩]
        concatenates_S128x128_S128x128_S128x128_S128x128_S128x512_d1 := by
    after_results
    rfl
  rw [still4 m c main_arg12 (by decide) (by decide) (by decide) (by decide), still4 m c main_arg14 (by decide) (by decide) (by decide) (by decide),
    still4 m c main_arg16 (by decide) (by decide) (by decide) (by decide), still4 m c main_arg18 (by decide) (by decide) (by decide) (by decide)] at h
  exact h

/-- The bias window's array: the four second-layer bias vectors end to end, as one row. -/
theorem enter2_b (c : Dev nD) : (V5 m c main_v48 : S1x512.Idx → EReal) =
    shapeCast S1x512 (concatenate S512 0 [⟨S128, (m ((c : Thread nD τ).loc main_arg13))⟩, ⟨S128, (m ((c : Thread nD τ).loc main_arg15))⟩, ⟨S128, (m ((c : Thread nD τ).loc main_arg17))⟩, ⟨S128, (m ((c : Thread nD τ).loc main_arg19))⟩]
      concatenates_S128_S128_S128_S128_S512_d0) shapeCasts_S512_S1x512 := by
  have h : (StableHlo.after hostOps2 (W4 m c) (Proc.devRef .tc main_v48) : S1x512.Idx → EReal)
      = shapeCast S1x512 (concatenate S512 0 [⟨S128, (W4 m c (Proc.devRef .tc main_arg13))⟩, ⟨S128, (W4 m c (Proc.devRef .tc main_arg15))⟩, ⟨S128, (W4 m c (Proc.devRef .tc main_arg17))⟩, ⟨S128, (W4 m c (Proc.devRef .tc main_arg19))⟩]
        concatenates_S128_S128_S128_S128_S512_d0) shapeCasts_S512_S1x512 := by
    after_results
    rfl
  rw [still4 m c main_arg13 (by decide) (by decide) (by decide) (by decide), still4 m c main_arg15 (by decide) (by decide) (by decide) (by decide),
    still4 m c main_arg17 (by decide) (by decide) (by decide) (by decide), still4 m c main_arg19 (by decide) (by decide) (by decide) (by decide)] at h
  exact h

/-- After region 2 its output array is the fused projection of the first layer's features by the launched second-layer weights. -/
theorem after2 (c : Dev nD) (hfeat1 : (W4 m c (Proc.devRef .tc main_v45) : S50000x128.Idx → EReal) = feat1Ref m c) :
    (W6 m c (Proc.devRef .tc main_v49) : S50000x512.Idx → EReal) =
    Cert.Spec.projFn (feat1Ref m c)
      (concatenate S128x512 1 [⟨S128x128, (m ((c : Thread nD τ).loc main_arg12))⟩, ⟨S128x128, (m ((c : Thread nD τ).loc main_arg14))⟩, ⟨S128x128, (m ((c : Thread nD τ).loc main_arg16))⟩, ⟨S128x128, (m ((c : Thread nD τ).loc main_arg18))⟩]
        concatenates_S128x128_S128x128_S128x128_S128x128_S128x512_d1)
      (shapeCast S1x512 (concatenate S512 0 [⟨S128, (m ((c : Thread nD τ).loc main_arg13))⟩, ⟨S128, (m ((c : Thread nD τ).loc main_arg15))⟩, ⟨S128, (m ((c : Thread nD τ).loc main_arg17))⟩, ⟨S128, (m ((c : Thread nD τ).loc main_arg19))⟩]
        concatenates_S128_S128_S128_S128_S512_d0) shapeCasts_S512_S1x512) := by
  have h : W6 m c (Proc.devRef .tc main_v49) = Cert.Spec.projFn (V5 m c main_v45) (V5 m c main_v46) (V5 m c main_v48) :=
    (W6_at m c 3).trans (final2 (V5 m) c)
  rw [enter2_x, enter2_w, enter2_b, hfeat1] at h
  exact h

/-! ## The inputs of the second layer's message chain -/

/-- Columns 0–127 of the fused projection are the second layer's key projection h·Wk + bk, -/
theorem key2 (c : Dev nD) (hfeat1 : (W4 m c (Proc.devRef .tc main_v45) : S50000x128.Idx → EReal) = feat1Ref m c) : extractStridedSlice S50000x128 ![0, 0] (W6 m c (Proc.devRef .tc main_v49) : S50000x512.Idx → EReal)
    slices_S50000x512_S50000x128_0_0
    = val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [after2 m c hfeat1]
  exact Cert.Bridge.proj_cols_0 _ _ _ _ _ _ _ _ _
/-- columns 128–255 the query projection, -/
theorem query2 (c : Dev nD) (hfeat1 : (W4 m c (Proc.devRef .tc main_v45) : S50000x128.Idx → EReal) = feat1Ref m c) : extractStridedSlice S50000x128 ![0, 128] (W6 m c (Proc.devRef .tc main_v49) : S50000x512.Idx → EReal)
    slices_S50000x512_S50000x128_0_128
    = val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) := by
  rw [after2 m c hfeat1]
  exact Cert.Bridge.proj_cols_1 _ _ _ _ _ _ _ _ _
/-- columns 256–383 the value projection, -/
theorem value2 (c : Dev nD) (hfeat1 : (W4 m c (Proc.devRef .tc main_v45) : S50000x128.Idx → EReal) = feat1Ref m c) : extractStridedSlice S50000x128 ![0, 256] (W6 m c (Proc.devRef .tc main_v49) : S50000x512.Idx → EReal)
    slices_S50000x512_S50000x128_0_256
    = val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) := by
  rw [after2 m c hfeat1]
  exact Cert.Bridge.proj_cols_2 _ _ _ _ _ _ _ _ _
/-- and columns 384–511 the skip projection h·Ws + bs. -/
theorem skip2 (c : Dev nD) (hfeat1 : (W4 m c (Proc.devRef .tc main_v45) : S50000x128.Idx → EReal) = feat1Ref m c) : extractStridedSlice S50000x128 ![0, 384] (W6 m c (Proc.devRef .tc main_v49) : S50000x512.Idx → EReal)
    slices_S50000x512_S50000x128_0_384
    = (addf (val_main_v101 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg18))) (val_main_v104 (F := Ideal) (m ((c : Thread nD τ).loc main_arg19))) : FVec Ideal S50000x128 .f32) := by
  rw [after2 m c hfeat1]
  exact Cert.Bridge.proj_cols_3 _ _ _ _ _ _ _ _ _

/-- A buffer written before region 0 that nothing since has written holds after region 2 what the first host stretch left in it. -/
theorem carried6 (c : Dev nD) (b : Ref sig .tc) (h1 : b ≠ Pipeline.arrRef spec0 3) (h2 : b ∉ hostOps1_W)
    (h3 : b ≠ Pipeline.arrRef spec1 3) (h4 : b ∉ hostOps2_W) (h5 : b ≠ Pipeline.arrRef spec2 3) :
    W6 m c (Proc.devRef .tc b) = W1 m c (Proc.devRef .tc b) :=
  (W6_keep m c b h5).trans ((StableHlo.after_of_writes_sub hostOps2 _ hostOps2_writes h4).trans
    ((W4_keep m c b h3).trans ((StableHlo.after_of_writes_sub hostOps1 _ hostOps1_writes h2).trans (W2_keep m c b h1))))

/-- The edges' source nodes, split out of the edge list before region 0 and untouched since. -/
theorem src2 (c : Dev nD) : W6 m c (Proc.devRef .tc main_v1) = val_main_v1 (F := Ideal) (m ((c : Thread nD τ).loc main_arg1)) := by
  rw [carried6 m c main_v1 (by decide) (by decide) (by decide) (by decide) (by decide)]
  show StableHlo.after hostOps0 (W0 m c) (Proc.devRef .tc main_v1) = _
  after_results
  rfl
/-- The edges' target nodes. -/
theorem dst2 (c : Dev nD) : W6 m c (Proc.devRef .tc main_v3) = val_main_v3 (F := Ideal) (m ((c : Thread nD τ).loc main_arg1)) := by
  rw [carried6 m c main_v3 (by decide) (by decide) (by decide) (by decide) (by decide)]
  show StableHlo.after hostOps0 (W0 m c) (Proc.devRef .tc main_v3) = _
  after_results
  rfl

/-! ## Between the regions: the second layer's gated messages summed per target node -/

set_option maxHeartbeats 4000000 in
/-- The summed messages entering region 3 are the reference's: the same chain of gathers, sigmoid weighting and scatter-add, applied
    to the same keys, queries, values and edge endpoints. -/
theorem agg2 (c : Dev nD) (hfeat1 : (W4 m c (Proc.devRef .tc main_v45) : S50000x128.Idx → EReal) = feat1Ref m c) : (W7 m c (Proc.devRef .tc main_v85) : S50000x128.Idx → EReal) =
    val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  show StableHlo.after hostOps3 (W6 m c) (Proc.devRef .tc main_v85) = _
  after_results_simp
  rw [key2 m c hfeat1, query2 m c hfeat1, value2 m c hfeat1, src2 m c, dst2 m c]
  simp only [val_main_v100, val_main_v99, val_main_v98, val_main_cst_15, val_main_v97, val_main_v96, val_main_v95, val_main_v94, val_main_v93, val_main_v92, val_main_c_14, val_main_v91, val_main_v90, val_main_c_13, val_main_v89, val_main_v88, val_main_cst_12, val_main_v87, val_main_v86, val_main_cst_11, val_main_v85, val_main_v84, val_main_v83, val_main_v82, val_main_v81, val_main_v80, val_main_v79, val_main_v78, val_main_c_10, val_main_v77, val_main_v76, val_main_c_9, val_main_v75, val_main_v74, val_main_v73, val_main_v72, val_main_v71, val_main_c_8, val_main_v70, val_main_v69, val_main_c_7]
  rfl

/-- The skip rows entering region 3. -/
theorem skipRows2 (c : Dev nD) (hfeat1 : (W4 m c (Proc.devRef .tc main_v45) : S50000x128.Idx → EReal) = feat1Ref m c) : (W7 m c (Proc.devRef .tc main_v53) : S50000x128.Idx → EReal) =
    (addf (val_main_v101 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg18))) (val_main_v104 (F := Ideal) (m ((c : Thread nD τ).loc main_arg19))) : FVec Ideal S50000x128 .f32) := by
  show StableHlo.after hostOps3 (W6 m c) (Proc.devRef .tc main_v53) = _
  after_results_simp
  exact skip2 m c hfeat1

/-- The layer bias entering region 3, as one row. -/
theorem biasRow2 (c : Dev nD) : (W7 m c (Proc.devRef .tc main_v86) : S1x128.Idx → EReal) =
    shapeCast S1x128 (m ((c : Thread nD τ).loc main_arg20)) shapeCasts_S128_S1x128 := by
  show StableHlo.after hostOps3 (W6 m c) (Proc.devRef .tc main_v86) = _
  after_results_simp
  rw [still6 m c main_arg20 (by decide) (by decide) (by decide) (by decide) (by decide) (by decide)]
  <;> rfl

/-! ## Region 3: the second layer's node features -/

/-- After region 3 its output array is the reference's second-layer features. -/
theorem feat2 (c : Dev nD) (hfeat1 : (W4 m c (Proc.devRef .tc main_v45) : S50000x128.Idx → EReal) = feat1Ref m c) : (W8 m c (Proc.devRef .tc main_v87) : S50000x128.Idx → EReal) =
    val_main_v109 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h : W8 m c (Proc.devRef .tc main_v87) = Cert.Spec.combFn (W7 m c (Proc.devRef .tc main_v85))
      (W7 m c (Proc.devRef .tc main_v53)) (W7 m c (Proc.devRef .tc main_v86)) :=
    (W8_at m c 3).trans (final3 (V7 m) c)
  rw [agg2 m c hfeat1, skipRows2 m c hfeat1, biasRow2 m c] at h
  refine h.trans ((Cert.Bridge.comb_eq _ _ _ _).trans ?_)
  simp only [val_main_v109, val_main_v108, val_main_v107, val_main_v106, val_main_v105, val_main_v104, val_main_v103, val_main_v102,
    val_main_call1_v0, val_main_call1_cst]

end Cert.KernelIdeal.Hand

end
-- ==== Proof.Blocks.Fc.lean ====
/-
  The final linear layer's region, from blocks to the array. The region has one grid point and every window's block is
  its whole array, so the 64x10 output array after the region is the whole-array function `Cert.Spec.fcFn` of the
  three arrays the region was entered with: row `r`, column `j` is the sum over `k < 128` of `g[r,k] · w[k,j]`, plus `b[0,j]`.
  Over the extended reals: the change of format to bf16 before the product is the identity and the product's zero
  accumulator vanishes.
-/
import proofs.«176839_j28836410425876_1_alg».proof.Proof.Spec
import proofs.«176839_j28836410425876_1_alg».proof.Proof.KernelIdeal.Region4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Idealize.ShloMosaic.ValueIdx

variable (V : (c : Dev nD) → (b : Ref sig .tc) → Buf (Elt Ideal) ((c : Thread nD τ).loc b))

/-- The two zero offsets of a whole-block rectangle, as the constant function. -/
theorem fc_zero_offsets : (![0, 0] : Fin 2 → Nat) = fun _ => 0 := funext fun a => by fin_cases a <;> rfl

/-- Row coordinate of the left factor of the 64x128 by 128x10 product: the output's row. -/
theorem fc_lhs_row (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl

/-- Column coordinate of the right factor: the output's column. -/
theorem fc_rhs_col (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

set_option maxHeartbeats 400000 in
/-- The body's arithmetic at row `p`, column `q`: the sum over `k < 128` of `x0[p,k] · x1[k,q]`, plus `x2[0,q]`. -/
theorem fc_payload (x0 : Vec Ideal S64x128 .f32) (x1 : Vec Ideal S128x10 .f32) (x2 : Vec Ideal S1x10 .f32)
    (p : Fin 64) (q : Fin 10) :
    k4_pay1 x0 x1 x2 (ix2 p q) = (∑ k : Fin 128, x0 (ix2 p k) * x1 (ix2 k q)) + x2 (ix2 (0 : Fin 1) q) := by
  unfold k4_pay1
  rw [addf_apply]
  refine congrArg₂ (· + ·) ?_ ?_
  · refine (Ideal.matmul_constant_zero_apply dot_S64x128_S128x10_S64x10_1_0_0_1_n_n none _ _ (ix2 p q)).trans ?_
    rw [← Equiv.sum_comp (contrEquiv1 dot_S64x128_S128x10_S64x10_1_0_0_1_n_n 128 rfl rfl).symm]
    refine Finset.sum_congr rfl fun k _ => ?_
    have hk := contrEquiv1_symm_val dot_S64x128_S128x10_S64x10_1_0_0_1_n_n 128 rfl rfl k
    have el : dot_S64x128_S128x10_S64x10_1_0_0_1_n_n.lhsIdx (ix2 p q) ((contrEquiv1 dot_S64x128_S128x10_S64x10_1_0_0_1_n_n 128 rfl rfl).symm k) = ix2 p k := funext fun a => Fin.ext (by
      match a with
      | ⟨0, _⟩ => exact fc_lhs_row _ _
      | ⟨1, _⟩ => exact (dot_S64x128_S128x10_S64x10_1_0_0_1_n_n.lhsIdx_val_of_single rfl _ _).trans hk)
    have er : dot_S64x128_S128x10_S64x10_1_0_0_1_n_n.rhsIdx (ix2 p q) ((contrEquiv1 dot_S64x128_S128x10_S64x10_1_0_0_1_n_n 128 rfl rfl).symm k) = ix2 k q := funext fun a => Fin.ext (by
      match a with
      | ⟨0, _⟩ => exact (dot_S64x128_S128x10_S64x10_1_0_0_1_n_n.rhsIdx_val_of_single rfl _ _).trans hk
      | ⟨1, _⟩ => exact fc_rhs_col _ _)
    rw [el, er, shapeCast_self]
    rfl
  · rw [shapeCast_self]
    exact broadcastTo_1b_ab_apply x2 broadcasts_S1x10_S64x10 p q

/-- The 64 rows' arithmetic IS the whole-array function: with one grid point every block is its whole array. -/
theorem fc_payload_eq_fcFn (g : Vec Ideal S64x128 .f32) (w : Vec Ideal S128x10 .f32) (b : Vec Ideal S1x10 .f32) :
    k4_pay1 g w b = Cert.Spec.fcFn g w b := by
  funext i
  obtain ⟨p, q, rfl⟩ : ∃ (p : Fin 64) (q : Fin 10), i = ix2 p q := ⟨i 0, i 1, eq_ix2 i⟩
  rw [fc_payload]
  rfl

/-- The block index of every window is zero on both axes at the one grid point. -/
theorem fc_index_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled rows' block is the whole 64x128 array. -/
theorem fc_block0 (c : Dev nD) (t : Fin cfg4.N) : blk4 V c 0 t = V c main_v99 := by
  obtain ⟨e00, e01, -⟩ := fc_index_facts t
  funext y
  unfold blk4
  show V c main_v99 (((cfg4.win 0).blk t).view.emb y) = V c main_v99 y
  refine congrArg (V c main_v99) (funext fun a => Fin.ext ?_)
  match a with
  | ⟨0, _⟩ => show win4_0.index t (0 : Fin 2) * 64 + 1 * (y 0).val = (y 0).val; omega
  | ⟨1, _⟩ => show win4_0.index t (1 : Fin 2) * 128 + 1 * (y 1).val = (y 1).val; omega

/-- The weight block is the whole 128x10 array. -/
theorem fc_block1 (c : Dev nD) (t : Fin cfg4.N) : blk4 V c 1 t = V c main_arg21 := by
  obtain ⟨-, -, e10, e11, -⟩ := fc_index_facts t
  funext y
  unfold blk4
  show V c main_arg21 (((cfg4.win 1).blk t).view.emb y) = V c main_arg21 y
  refine congrArg (V c main_arg21) (funext fun a => Fin.ext ?_)
  match a with
  | ⟨0, _⟩ => show win4_1.index t (0 : Fin 2) * 128 + 1 * (y 0).val = (y 0).val; omega
  | ⟨1, _⟩ => show win4_1.index t (1 : Fin 2) * 10 + 1 * (y 1).val = (y 1).val; omega

/-- The bias block is the whole 1x10 array. -/
theorem fc_block2 (c : Dev nD) (t : Fin cfg4.N) : blk4 V c 2 t = V c main_v100 := by
  obtain ⟨-, -, -, -, e20, e21, -⟩ := fc_index_facts t
  funext y
  unfold blk4
  show V c main_v100 (((cfg4.win 2).blk t).view.emb y) = V c main_v100 y
  refine congrArg (V c main_v100) (funext fun a => Fin.ext ?_)
  match a with
  | ⟨0, _⟩ => show win4_2.index t (0 : Fin 2) * 1 + 1 * (y 0).val = (y 0).val; omega
  | ⟨1, _⟩ => show win4_2.index t (1 : Fin 2) * 10 + 1 * (y 1).val = (y 1).val; omega

set_option maxHeartbeats 400000 in
/-- What the one point writes back is the (only) block of the whole-array function of the region's three input arrays. -/
theorem fc_flushed (c : Dev nD) (t : Fin cfg4.N) :
    (dat4 (F := Ideal) V c).flushed 3 t
      = ((cfg4.win 3).blk t).view.read (Elt Ideal) (Cert.Spec.fcFn (V c main_v99) (V c main_arg21) (V c main_v100)) := by
  show (cfg4.win 3).cut (grid4.coords t) ((dat4 V c).after 3 t) = _
  rw [dat4_after3]
  unfold result4
  rw [View.canon_unit_zero fc_zero_offsets]
  simp only [View.ld_unit_zero (S := S64x128) fc_zero_offsets, View.ld_unit_zero (S := S128x10) fc_zero_offsets,
    View.ld_unit_zero (S := S1x10) fc_zero_offsets]
  rw [fc_block0, fc_block1, fc_block2, fc_payload_eq_fcFn]
  obtain ⟨-, -, -, -, -, -, e30, e31⟩ := fc_index_facts t
  funext j
  show Cert.Spec.fcFn (V c main_v99) (V c main_arg21) (V c main_v100) ((cfg4.win 3).xinj (grid4.coords t) j)
    = Cert.Spec.fcFn (V c main_v99) (V c main_arg21) (V c main_v100) (((cfg4.win 3).blk t).view.emb j)
  refine congrArg (Cert.Spec.fcFn (V c main_v99) (V c main_arg21) (V c main_v100)) (funext fun a => Fin.ext ?_)
  match a with
  | ⟨0, _⟩ => show (j 0).val = win4_3.index t (0 : Fin 2) * 64 + 1 * (j 0).val; omega
  | ⟨1, _⟩ => show (j 1).val = win4_3.index t (1 : Fin 2) * 10 + 1 * (j 1).val; omega

/-- An index of the 64x10 array is in the point's block iff each coordinate is in the block's range on its axis. -/
theorem fc_mem_block (t : Fin cfg4.N) (i : S64x10.Idx) :
    i ∈ ((cfg4.win 3).blk t).view.set ↔ ∀ a : Fin 2, win4_3.index t a * S64x10.size a ≤ (i a).val ∧ (i a).val < win4_3.index t a * S64x10.size a + S64x10.size a := by
  show i ∈ ((View.whole main_v101).slice (win4_3.rect t)).set ↔ _
  rw [View.set_slice_whole, Rect.mem_set_unit]
  exact Iff.rfl

/-- The one point's block is the whole 64x10 array, and the point writes back. -/
theorem fc_cover (i : S64x10.Idx) : ∃ t : Fin cfg4.N, (cfg4.win 3).flush t = true ∧ i ∈ ((cfg4.win 3).blk t).view.set := by
  have hi0 : (i 0).val < 64 := (i 0).isLt
  have hi1 : (i 1).val < 10 := (i 1).isLt
  refine ⟨⟨0, by decide⟩, flush4_3 _, ?_⟩
  rw [fc_mem_block]
  obtain ⟨-, -, -, -, -, -, e30, e31⟩ := fc_index_facts ⟨0, by decide⟩
  intro a
  match a with
  | ⟨0, _⟩ => show win4_3.index ⟨0, by decide⟩ (0 : Fin 2) * 64 ≤ (i 0).val ∧ (i 0).val < win4_3.index ⟨0, by decide⟩ (0 : Fin 2) * 64 + 64; omega
  | ⟨1, _⟩ => show win4_3.index ⟨0, by decide⟩ (1 : Fin 2) * 10 ≤ (i 1).val ∧ (i 1).val < win4_3.index ⟨0, by decide⟩ (1 : Fin 2) * 10 + 10; omega

/-- After the region the 64x10 output array is the final linear layer of the arrays the region was entered with. -/
theorem final4 (c : Dev nD) :
    (dat4 (F := Ideal) V c).arrAt 3 cfg4.N = Cert.Spec.fcFn (V c main_v99) (V c main_arg21) (V c main_v100) :=
  (dat4 (F := Ideal) V c).arrAt_eq_of_cover 3 (Cert.Spec.fcFn (V c main_v99) (V c main_arg21) (V c main_v100))
    (fun t _ => fc_flushed V c t) fc_cover

example : Pipeline.arrRef spec4 0 = main_v99 := rfl
example : Pipeline.arrRef spec4 1 = main_arg21 := rfl
example : Pipeline.arrRef spec4 2 = main_v100 := rfl

end Cert.KernelIdeal.Hand

end
-- ==== Proof.Bridge.Fc.lean ====
/-
  The output layer, as an equation between whole arrays over the extended reals.

  One side is the function "row `r`, column `j` of `g · w + b`" for the 64 pooled rows, the 128x10 matrix and the bias given
  as a vector of 10 entries recast to one row. The other side is the host's contraction of `g` with `w` over the 128-axis
  plus the bias vector laid along the columns and repeated down the 64 rows. Entry by entry both are
  `∑ k < 128, g[r,k] · w[k,j] + b[j]`: over the extended reals the host's contraction is that sum.
-/
import proofs.«176839_j28836410425876_1_alg».proof.Proof.Spec
import proofs.«176839_j28836410425876_1_alg».proof.Proof.Gen.ReferenceIdeal.Read
import proofs.«176839_j28836410425876_1_alg».proof.KernelIdeal
import Idealize.ShloMosaic.Lib.Pipeline.Value
import Idealize.ShloMosaic.Lib.ValueIdx
import Idealize.ShloMosaic.PureOps.Ideal.Laws

noncomputable section

namespace Cert.Bridge

open Idealize.ShloMosaic

variable [Cert.KernelIdeal.Facts₀]

/-- A vector of 10 entries laid along the columns and repeated down the 64 rows (first made one row of 10, then repeated),
    read at row `r`, column `j`: the vector's entry `j`. -/
theorem Fc.biasRows_apply (v : FVec Ideal Cert.ReferenceIdeal.S10 .f32) (r : Fin 64) (j : Fin 10) :
    broadcastInDim Cert.ReferenceIdeal.S64x10 ![0, 1] Cert.ReferenceIdeal.Gen.bcast_S1x10_S64x10_0_1
      (broadcastInDim Cert.ReferenceIdeal.S1x10 ![1] Cert.ReferenceIdeal.Gen.bcast_S10_S1x10_1 v) (ValueIdx.ix2 r j)
      = v (ValueIdx.ix1 j) := by
  refine (broadcastInDim_apply _ Cert.ReferenceIdeal.Gen.bcast_S1x10_S64x10_0_1 _ (ValueIdx.ix2 r j)
    (ValueIdx.ix2 (0 : Fin 1) j) (fun a => match a with
      | ⟨0, _⟩ => by show 0 = if (1 : Nat) = 1 then 0 else r.val; rw [if_pos rfl]
      | ⟨1, _⟩ => by show j.val = if (10 : Nat) = 1 then 0 else j.val; rw [if_neg (by decide)])).trans ?_
  exact broadcastInDim_apply _ Cert.ReferenceIdeal.Gen.bcast_S10_S1x10_1 v (ValueIdx.ix2 (0 : Fin 1) j) (ValueIdx.ix1 j)
    (fun a => match a with
      | ⟨0, _⟩ => by show j.val = if (10 : Nat) = 1 then 0 else j.val; rw [if_neg (by decide)])

/-- A vector of 10 entries recast as one row of 10, read at column `j`: the vector's entry `j`
    (both sit at row-major position `j`). -/
theorem Fc.rowCast10_apply (b : FVec Ideal Cert.KernelIdeal.S10 .f32) (j : Fin 10) :
    shapeCast Cert.KernelIdeal.S1x10 b Cert.KernelIdeal.Facts₀.shapeCasts_S10_S1x10 (ValueIdx.ix2 (0 : Fin 1) j)
      = b (ValueIdx.ix1 j) := by
  refine shapeCast_apply b _ _ (ValueIdx.ix1 j) ?_
  rw [Shape.rowMajor_val_one, Shape.rowMajor_val_two]
  show j.val = 0 * 10 + j.val
  omega

/-- The contraction of a 64x128 array with a 128x10 matrix over the 128-axis, read at row `r`, column `j`: over the
    extended reals it is `∑ k < 128, x[r,k] · w[k,j]`. The contraction index has one coordinate and is re-indexed by it;
    the left operand is read at (the output's row, `k`), the right at (`k`, the output's column). -/
theorem Fc.dot_apply (x : FVec Ideal Cert.ReferenceIdeal.S64x128 .f32) (w : FVec Ideal Cert.ReferenceIdeal.S128x10 .f32)
    (r : Fin 64) (j : Fin 10) :
    Host.dotGeneral (F := Ideal) Cert.ReferenceIdeal.dot_S64x128_S128x10_S64x10_1_0_0_1_n_n none x w (ValueIdx.ix2 r j)
      = ∑ k : Fin 128, x (ValueIdx.ix2 r k) * w (ValueIdx.ix2 k j) := by
  simp only [Host.dotGeneral]
  rw [Ideal.dotGeneral_apply,
    ← Equiv.sum_comp (ValueIdx.contrEquiv1 Cert.ReferenceIdeal.dot_S64x128_S128x10_S64x10_1_0_0_1_n_n 128 rfl rfl).symm]
  refine Finset.sum_congr rfl fun k _ => ?_
  have hk := ValueIdx.contrEquiv1_symm_val Cert.ReferenceIdeal.dot_S64x128_S128x10_S64x10_1_0_0_1_n_n 128 rfl rfl k
  have l0 : ∀ q : Cert.ReferenceIdeal.dot_S64x128_S128x10_S64x10_1_0_0_1_n_n.contr.Idx,
      (Cert.ReferenceIdeal.dot_S64x128_S128x10_S64x10_1_0_0_1_n_n.lhsIdx (ValueIdx.ix2 r j) q 0).val = r.val := fun q => by
    unfold DotDims.lhsIdx
    rw [dif_neg (show ¬(0 : Fin Cert.ReferenceIdeal.S64x128.rank)
          ∈ Cert.ReferenceIdeal.dot_S64x128_S128x10_S64x10_1_0_0_1_n_n.lhsBatch by decide),
      dif_pos (show (0 : Fin Cert.ReferenceIdeal.S64x128.rank)
          ∈ Cert.ReferenceIdeal.dot_S64x128_S128x10_S64x10_1_0_0_1_n_n.lhsNonContracting by decide)]
    rfl
  have r1 : ∀ q : Cert.ReferenceIdeal.dot_S64x128_S128x10_S64x10_1_0_0_1_n_n.contr.Idx,
      (Cert.ReferenceIdeal.dot_S64x128_S128x10_S64x10_1_0_0_1_n_n.rhsIdx (ValueIdx.ix2 r j) q 1).val = j.val := fun q => by
    unfold DotDims.rhsIdx
    rw [dif_neg (show ¬(1 : Fin Cert.ReferenceIdeal.S128x10.rank)
          ∈ Cert.ReferenceIdeal.dot_S64x128_S128x10_S64x10_1_0_0_1_n_n.rhsBatch by decide),
      dif_pos (show (1 : Fin Cert.ReferenceIdeal.S128x10.rank)
          ∈ Cert.ReferenceIdeal.dot_S64x128_S128x10_S64x10_1_0_0_1_n_n.rhsNonContracting by decide)]
    rfl
  have el : Cert.ReferenceIdeal.dot_S64x128_S128x10_S64x10_1_0_0_1_n_n.lhsIdx (ValueIdx.ix2 r j)
      ((ValueIdx.contrEquiv1 Cert.ReferenceIdeal.dot_S64x128_S128x10_S64x10_1_0_0_1_n_n 128 rfl rfl).symm k)
        = ValueIdx.ix2 r k :=
    funext fun a => Fin.ext (by
      match a with
      | ⟨0, _⟩ => exact l0 _
      | ⟨1, _⟩ =>
        exact ((Cert.ReferenceIdeal.dot_S64x128_S128x10_S64x10_1_0_0_1_n_n).lhsIdx_val_of_single rfl _ _).trans hk)
  have er : Cert.ReferenceIdeal.dot_S64x128_S128x10_S64x10_1_0_0_1_n_n.rhsIdx (ValueIdx.ix2 r j)
      ((ValueIdx.contrEquiv1 Cert.ReferenceIdeal.dot_S64x128_S128x10_S64x10_1_0_0_1_n_n 128 rfl rfl).symm k)
        = ValueIdx.ix2 k j :=
    funext fun a => Fin.ext (by
      match a with
      | ⟨0, _⟩ =>
        exact ((Cert.ReferenceIdeal.dot_S64x128_S128x10_S64x10_1_0_0_1_n_n).rhsIdx_val_of_single rfl _ _).trans hk
      | ⟨1, _⟩ => exact r1 _)
  rw [el, er]

/-- The output layer's function at row `r`, column `j`, its bias row read at column `j`. -/
theorem Fc.fcFn_apply (g : FVec Ideal Cert.KernelIdeal.S64x128 .f32) (w : FVec Ideal Cert.KernelIdeal.S128x10 .f32)
    (b : FVec Ideal Cert.KernelIdeal.S1x10 .f32) (r : Fin 64) (j : Fin 10) :
    Cert.Spec.fcFn g w b (ValueIdx.ix2 r j)
      = (∑ k : Fin 128, g (ValueIdx.ix2 r k) * w (ValueIdx.ix2 k j)) + b (ValueIdx.ix2 (0 : Fin 1) j) :=
  rfl

/-- The pooled rows times the output matrix plus the bias row is the host's contraction plus the repeated bias vector:
    entry by entry both are `∑ k < 128, g[r,k] · w[k,j] + b[j]`. -/
theorem fc_eq (g : FVec Ideal Cert.KernelIdeal.S64x128 .f32) (W : FVec Ideal Cert.KernelIdeal.S128x10 .f32)
    (b : FVec Ideal Cert.KernelIdeal.S10 .f32) :
    Cert.Spec.fcFn g W (shapeCast Cert.KernelIdeal.S1x10 b Cert.KernelIdeal.Facts₀.shapeCasts_S10_S1x10)
      = addf (Host.dotGeneral (F := Ideal) Cert.ReferenceIdeal.dot_S64x128_S128x10_S64x10_1_0_0_1_n_n none g W)
          (broadcastInDim Cert.ReferenceIdeal.S64x10 ![0, 1] Cert.ReferenceIdeal.Gen.bcast_S1x10_S64x10_0_1
            (broadcastInDim Cert.ReferenceIdeal.S1x10 ![1] Cert.ReferenceIdeal.Gen.bcast_S10_S1x10_1 b)) := by
  funext i
  obtain ⟨r, j, rfl⟩ : ∃ (r : Fin 64) (j : Fin 10), i = ValueIdx.ix2 r j := ⟨i 0, i 1, ValueIdx.eq_ix2 i⟩
  refine (Fc.fcFn_apply _ _ _ r j).trans ?_
  simp only [ValueIdx.addf_apply]
  rw [Fc.rowCast10_apply b j, Fc.dot_apply g W r j, Fc.biasRows_apply b r j]

end Cert.Bridge

end
-- ==== Proof.Value.Final.lean ====
/-
  The idealized kernel's last two stages, as the reference's own stage values of the launch memory.

  After the second layer the node features are averaged per graph: the features are summed into their graph's row, the
  nodes are counted per graph, the count is clamped below at one, and the sums are divided by it. Both programs do this
  with the same list of operations, here applied to equal node features and the same graph ids, so the pooled rows
  agree. The last region then computes pooled rows times the 128x10 output matrix plus the output bias, given as a vector
  recast to one row; the reference contracts the same arrays and adds the bias vector repeated down the rows, and the two
  are the same sum of the same products plus the same bias entry.
-/
import proofs.«176839_j28836410425876_1_alg».proof.Proof.KernelIdeal.Run
import proofs.«176839_j28836410425876_1_alg».proof.Proof.Blocks.Fc
import proofs.«176839_j28836410425876_1_alg».proof.Proof.Bridge.Fc
import proofs.«176839_j28836410425876_1_alg».proof.Proof.Gen.ReferenceIdeal.Read
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ)

/-! ## Buffers nothing has written yet -/

/-- A buffer the first host stretch does not write and region 0 does not output still holds its launch contents after region 0. -/
theorem kept2 (c : Dev nD) (b : Ref sig .tc) (h0 : b ∉ hostOps0_W) (h1 : b ≠ Pipeline.arrRef spec0 3) :
    W2 m c (Proc.devRef .tc b) = m ((c : Thread nD τ).loc b) :=
  (W2_keep m c b h1).trans (StableHlo.after_of_writes_sub hostOps0 _ hostOps0_writes h0)
/-- … and likewise after region 1, -/
theorem kept4 (c : Dev nD) (b : Ref sig .tc) (h0 : b ∉ hostOps0_W) (h1 : b ≠ Pipeline.arrRef spec0 3)
    (h2 : b ∉ hostOps1_W) (h3 : b ≠ Pipeline.arrRef spec1 3) : W4 m c (Proc.devRef .tc b) = m ((c : Thread nD τ).loc b) :=
  (W4_keep m c b h3).trans ((StableHlo.after_of_writes_sub hostOps1 _ hostOps1_writes h2).trans (kept2 m c b h0 h1))
/-- … after region 2, -/
theorem kept6 (c : Dev nD) (b : Ref sig .tc) (h0 : b ∉ hostOps0_W) (h1 : b ≠ Pipeline.arrRef spec0 3)
    (h2 : b ∉ hostOps1_W) (h3 : b ≠ Pipeline.arrRef spec1 3) (h4 : b ∉ hostOps2_W) (h5 : b ≠ Pipeline.arrRef spec2 3) :
    W6 m c (Proc.devRef .tc b) = m ((c : Thread nD τ).loc b) :=
  (W6_keep m c b h5).trans ((StableHlo.after_of_writes_sub hostOps2 _ hostOps2_writes h4).trans (kept4 m c b h0 h1 h2 h3))
/-- … and after region 3. -/
theorem kept8 (c : Dev nD) (b : Ref sig .tc) (h0 : b ∉ hostOps0_W) (h1 : b ≠ Pipeline.arrRef spec0 3)
    (h2 : b ∉ hostOps1_W) (h3 : b ≠ Pipeline.arrRef spec1 3) (h4 : b ∉ hostOps2_W) (h5 : b ≠ Pipeline.arrRef spec2 3)
    (h6 : b ∉ hostOps3_W) (h7 : b ≠ Pipeline.arrRef spec3 3) : W8 m c (Proc.devRef .tc b) = m ((c : Thread nD τ).loc b) :=
  (W8_keep m c b h7).trans ((StableHlo.after_of_writes_sub hostOps3 _ hostOps3_writes h6).trans (kept6 m c b h0 h1 h2 h3 h4 h5))

/-! ## Between regions 3 and 4: the node features averaged per graph -/

set_option maxHeartbeats 400000 in
/-- The pooled rows entering the last region are the reference's: the same sums per graph, the same node counts clamped
    at one and the same division, applied to the same second-layer features and the same graph ids. -/
theorem pooled (c : Dev nD)
    (hfeat2 : (W8 m c (Proc.devRef .tc main_v87) : S50000x128.Idx → EReal) =
      val_main_v109 (F := Ideal) (m ((c : Thread nD τ).loc main_arg0)) (m ((c : Thread nD τ).loc main_arg1))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17))
        (m ((c : Thread nD τ).loc main_arg18)) (m ((c : Thread nD τ).loc main_arg19)) (m ((c : Thread nD τ).loc main_arg20))) :
    (W9 m c (Proc.devRef .tc main_v99) : S64x128.Idx → EReal) =
      val_main_v121 (F := Ideal) (m ((c : Thread nD τ).loc main_arg0)) (m ((c : Thread nD τ).loc main_arg1))
        (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17))
        (m ((c : Thread nD τ).loc main_arg18)) (m ((c : Thread nD τ).loc main_arg19)) (m ((c : Thread nD τ).loc main_arg20)) := by
  show StableHlo.after hostOps4 (W8 m c) (Proc.devRef .tc main_v99) = _
  after_results_simp
  rw [hfeat2, kept8 m c main_arg2 (by decide) (by decide) (by decide) (by decide) (by decide) (by decide) (by decide) (by decide)]
  simp only [val_main_v121, val_main_v120, val_main_v119, val_main_v118, val_main_v117, val_main_cst_19, val_main_v116,
    val_main_v115, val_main_v114, val_main_cst_18, val_main_v113, val_main_cst_17, val_main_v112, val_main_v111,
    val_main_v110, val_main_cst_16]
  rfl

/-! ## Region 4: the output layer -/

/-- The output matrix enters the last region as launched: no host operation writes it and it is no region's output. -/
theorem outMatrix (c : Dev nD) : W9 m c (Proc.devRef .tc main_arg21) = m ((c : Thread nD τ).loc main_arg21) :=
  (StableHlo.after_of_writes_sub hostOps4 _ hostOps4_writes (by decide)).trans
    (kept8 m c main_arg21 (by decide) (by decide) (by decide) (by decide) (by decide) (by decide) (by decide) (by decide))

/-- The output bias entering the last region, as one row. -/
theorem outBiasRow (c : Dev nD) : (W9 m c (Proc.devRef .tc main_v100) : S1x10.Idx → EReal) =
    shapeCast S1x10 (m ((c : Thread nD τ).loc main_arg22)) shapeCasts_S10_S1x10 := by
  show StableHlo.after hostOps4 (W8 m c) (Proc.devRef .tc main_v100) = _
  after_results_simp
  rw [kept8 m c main_arg22 (by decide) (by decide) (by decide) (by decide) (by decide) (by decide) (by decide) (by decide)]
  rfl

/-- After the last region its output array is the reference's result. -/
theorem result_is (c : Dev nD)
    (hfeat2 : (W8 m c (Proc.devRef .tc main_v87) : S50000x128.Idx → EReal) =
      val_main_v109 (F := Ideal) (m ((c : Thread nD τ).loc main_arg0)) (m ((c : Thread nD τ).loc main_arg1))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17))
        (m ((c : Thread nD τ).loc main_arg18)) (m ((c : Thread nD τ).loc main_arg19)) (m ((c : Thread nD τ).loc main_arg20))) :
    (W10 m c (Proc.devRef .tc main_v101) : S64x10.Idx → EReal) =
      val_main_v125 (F := Ideal) (m ((c : Thread nD τ).loc main_arg0)) (m ((c : Thread nD τ).loc main_arg1))
        (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17))
        (m ((c : Thread nD τ).loc main_arg18)) (m ((c : Thread nD τ).loc main_arg19)) (m ((c : Thread nD τ).loc main_arg20))
        (m ((c : Thread nD τ).loc main_arg21)) (m ((c : Thread nD τ).loc main_arg22)) := by
  have h : W10 m c (Proc.devRef .tc main_v101) = Cert.Spec.fcFn (W9 m c (Proc.devRef .tc main_v99))
      (W9 m c (Proc.devRef .tc main_arg21)) (W9 m c (Proc.devRef .tc main_v100)) :=
    (W10_at m c 3).trans (final4 (V9 m) c)
  rw [pooled m c hfeat2, outMatrix m c, outBiasRow m c] at h
  refine h.trans ((Cert.Bridge.fc_eq _ _ _).trans ?_)
  simp only [val_main_v125, val_main_v124, val_main_v123, val_main_v122]

end Cert.KernelIdeal.Hand

end
-- ==== Proof.Claims.lean ====
/-
  The five claims.
  Frames: the word-level kernel and the idealized kernel each run to the end without a fault and leave every argument
  array as launched, because no host operation and no region output ever touches an argument; the reference likewise, by
  its run read back. The idealization rewrote no operation, so there is nothing to preserve.
  Equal results at the extended reals: the kernel's result buffer ends holding, stage by stage, the reference's own stage
  values of the launch memory — the fused projections cut into key, query, value and skip; the same message chain on
  equal inputs; the combine regrouped by associativity of addition; the same pooling; the final product plus bias — and
  the reference's run ends at the last of those stage values of a memory that agrees on the arguments.
-/
import proofs.«176839_j28836410425876_1_alg».proof.Proof.Kernel.Run
import proofs.«176839_j28836410425876_1_alg».proof.Proof.KernelIdeal.Run
import proofs.«176839_j28836410425876_1_alg».proof.Proof.Value.Layer1
import proofs.«176839_j28836410425876_1_alg».proof.Proof.Value.Layer2
import proofs.«176839_j28836410425876_1_alg».proof.Proof.Value.Final
import proofs.«176839_j28836410425876_1_alg».proof.Proof.Gen.ReferenceIdeal.Run
import proofs.«176839_j28836410425876_1_alg».proof.Proof.Gen.ReferenceIdeal.Read
import proofs.«176839_j28836410425876_1_alg».proof.Proof.Gen.Kernel
import proofs.«176839_j28836410425876_1_alg».proof.Proof.Gen.KernelIdeal
import proofs.«176839_j28836410425876_1_alg».proof.Proof.Gen.ReferenceIdeal
import proofs.«176839_j28836410425876_1_alg».proof.Proof.Gen.Pre_finite_inputs
import proofs.«176839_j28836410425876_1_alg».proof.Defs

set_option maxRecDepth 16384

noncomputable section

namespace Cert.Proof.Claims

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Hand.W10 m c (Proc.devRef .tc Cert.KernelIdeal.main_v101),
    Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22⟩ := hagree c
  rw [Cert.ReferenceIdeal.Read.val_main_v125_eq, e0, e1, e2, e3, e4, e5, e6, e7, e8, e9, e10, e11, e12, e13, e14, e15, e16, e17, e18, e19, e20, e21, e22]
  exact (Cert.KernelIdeal.Hand.result_is m c (Cert.KernelIdeal.Hand.feat2 m c (Cert.KernelIdeal.Hand.feat1 m c))).symm

end Cert.Proof.Claims

end
-- ==== Proof.lean ====
/-
  Two programs for a two-layer gated graph convolution over 50000 nodes and 800000 edges, pooled per graph into 64 rows
  and mapped to 10 classes: a kernel program whose dense stages (the fused key/query/value/skip projection, the
  residual combine with its clamp at zero, the final linear layer) are five kernel regions among host operations, and
  a reference that does every stage on the host. This file assembles the certificate's five claims
  (Proof/Claims.lean) behind the witnesses of the programs' stated side conditions.
-/
import proofs.«176839_j28836410425876_1_alg».proof.Defs
import proofs.«176839_j28836410425876_1_alg».proof.Proof.Claims
import proofs.«176839_j28836410425876_1_alg».proof.Proof.Gen.Kernel
import proofs.«176839_j28836410425876_1_alg».proof.Proof.Gen.KernelIdeal
import proofs.«176839_j28836410425876_1_alg».proof.Proof.Gen.ReferenceIdeal
import proofs.«176839_j28836410425876_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
